-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S3 : Shape := ⟨1, ![3]⟩
abbrev S1x4096x1024 : Shape := ⟨3, ![1, 4096, 1024]⟩
abbrev S2x4096x1024 : Shape := ⟨3, ![2, 4096, 1024]⟩
abbrev S3x8x128 : Shape := ⟨3, ![3, 8, 128]⟩
abbrev S1x1024x1024 : Shape := ⟨3, ![1, 1024, 1024]⟩
abbrev S1 : Shape := ⟨1, ![1]⟩
abbrev S1x8x128 : Shape := ⟨3, ![1, 8, 128]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1 : Shape := ⟨2, ![1, 1]⟩
abbrev S1x1x1 : Shape := ⟨3, ![1, 1, 1]⟩
abbrev S_ : Shape := ⟨0, ![]⟩

abbrev nBuf : Space → Nat
  | .hbm => 26
  | .vmem => 7
  | .smem => 2
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x4096x1024, .f32⟩
  | .hbm, ⟨3, _⟩ => ⟨S1x4096x1024, .f32⟩
  | .hbm, ⟨4, _⟩ => ⟨S2x4096x1024, .f32⟩
  | .hbm, ⟨5, _⟩ => ⟨S3x8x128, .f32⟩
  | .hbm, ⟨6, _⟩ => ⟨S1x1x1, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | .local _ .smem, ⟨0, _⟩ => ⟨S3, .i32⟩
  | .local _ .smem, ⟨1, _⟩ => ⟨S3, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 4], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c3_i32 : BitVec 32 := 3#32
  let v41 : BitVec 1 := Scalar.cmpi .eq arg1 c3_i32
  let arg2 : BitVec 32 := BitVec.ofNat 32 (i 2).val
  let c3_i32_18 : BitVec 32 := 3#32
  let v42 : BitVec 1 := Scalar.cmpi .eq arg2 c3_i32_18
  let v43 : BitVec 1 := Scalar.andi v41 v42
  let v44 : BitVec 32 := Scalar.extui v43
  let c0_i32_19 : BitVec 32 := 0#32
  let v45 : BitVec 1 := Scalar.cmpi .ne v44 c0_i32_19
  v45

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S3) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S3) ![v0.toNat] S1.size (k0_off1_inb i)) numel1_S1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  numel1_S1 : S1.numel = 1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S3x8x128_S1x1x1_0_0_0 : S3x8x128.Slices ![0, 0, 0] S1x1x1
  shapeCasts_S1x1x1_S_ : S1x1x1.ShapeCasts S_
  slices_S3x8x128_S1x1x1_1_0_0 : S3x8x128.Slices ![1, 0, 0] S1x1x1
  slices_S3x8x128_S1x1x1_2_0_0 : S3x8x128.Slices ![2, 0, 0] S1x1x1
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1.size a ≤ S3.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S3x8x128.size a
  hwx0_2 : ∀ i : grid0.Coords, EltTy.bits .f32 = 32 ∨ (Rect.block (s := S3x8x128) S1x8x128.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev spec0_0 : Pipeline.WinSpec sig grid0.rank :=
  Pipeline.WinSpec.ofSpec (Memref.whole main_v2) S1x1024x1024.size reads0_0 false false 2 stage0_0 sem0_0 nbuf0_0 hstage0_0

abbrev spec0_1 : Pipeline.WinSpec sig grid0.rank :=
  Pipeline.WinSpec.ofSpec (Memref.whole main_v2) S1x1024x1024.size reads0_1 false false 2 stage0_1 sem0_1 nbuf0_1 hstage0_1

abbrev spec0_2 : Pipeline.WinSpec sig grid0.rank :=
  Pipeline.WinSpec.ofSpec (Memref.whole main_v3) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x1024.size a ≤ S2x4096x1024.size a), EltTy.bits .f32 = 32 ∨ (Rect.block (s := S2x4096x1024) S1x1024x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S2x4096x1024.size a), EltTy.bits .f32 = 32 ∨ (Rect.block (s := S2x4096x1024) S1x1024x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x4096 : Shape := ⟨2, ![1024, 4096]⟩
abbrev S4096x4096 : Shape := ⟨2, ![4096, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S1024x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S1x4096, .f32⟩
  | .hbm, ⟨35, _⟩ => ⟨S1024x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S1024x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S_, .f32⟩
  | .hbm, ⟨79, _⟩ => ⟨S4096x4096, .i32⟩
  | .hbm, ⟨80, _⟩ => ⟨S4096x4096, .i32⟩
  | .hbm, ⟨81, _⟩ => ⟨S_, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4096x4096, .i32⟩
  | .hbm, ⟨94, _⟩ => ⟨S4096x4096, .i32⟩
  | .hbm, ⟨95, _⟩ => ⟨S_, .i32⟩
  | .hbm, ⟨96, _⟩ => ⟨S4096x4096, .i32⟩
  | .hbm, ⟨97, _⟩ => ⟨S4096x4096, .i32⟩
  | .hbm, ⟨98, _⟩ => ⟨S4096x4096, .i1⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_call0_v0 : Ref sig .tc := ⟨.hbm, 79, rfl⟩
abbrev main_call0_v1 : Ref sig .tc := ⟨.hbm, 80, rfl⟩
abbrev main_call0_c : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_cst : Ref sig .tc := ⟨.hbm, 85, rfl⟩
abbrev main_call0_v5 : Ref sig .tc := ⟨.hbm, 86, rfl⟩
abbrev main_call0_v6 : Ref sig .tc := ⟨.hbm, 87, rfl⟩
abbrev main_call0_cst_0 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_call1_v0 : Ref sig .tc := ⟨.hbm, 93, rfl⟩
abbrev main_call1_v1 : Ref sig .tc := ⟨.hbm, 94, rfl⟩
abbrev main_call1_c : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_cst : Ref sig .tc := ⟨.hbm, 99, rfl⟩
abbrev main_call1_v5 : Ref sig .tc := ⟨.hbm, 100, rfl⟩
abbrev main_call1_v6 : Ref sig .tc := ⟨.hbm, 101, rfl⟩
abbrev main_call1_cst_0 : Ref sig .tc := ⟨.hbm, 102, rfl⟩
abbrev main_v64 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_cst_18 : Ref sig .tc := ⟨.hbm, 109, rfl⟩
abbrev main_v68 : Ref sig .tc := ⟨.hbm, 110, rfl⟩
abbrev main_v69 : Ref sig .tc := ⟨.hbm, 111, rfl⟩
abbrev main_cst_19 : Ref sig .tc := ⟨.hbm, 112, rfl⟩
abbrev main_v70 : Ref sig .tc := ⟨.hbm, 113, rfl⟩
abbrev main_cst_20 : Ref sig .tc := ⟨.hbm, 114, rfl⟩
abbrev main_v71 : Ref sig .tc := ⟨.hbm, 115, rfl⟩
abbrev main_v72 : Ref sig .tc := ⟨.hbm, 116, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  transposes_S4096x1024_S1024x4096_1_0 : S4096x1024.Transposes [1, 0] S1024x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KAdm.lean ====
/-
  The contents of the two index tables of the kernel's launch, and that they are admissible.

  The launch reads two tables of three words each, one per pair of samples: which half of the stacked array the
  rows come from (table 0) and which half the columns come from (table 1). Both are literal: [0, 1, 0] and
  [0, 1, 1]. The side condition of the launch asks that at each of the 48 grid points both blocks lie inside the
  stacked array [2, 4096, 1024]: the leading block index is a table word, so it has to be below 2; the row block
  index is a grid coordinate below 4; the last is 0. It is proved for ANY contents whose words are below 2, and
  then read at the literals.
-/
import proofs.«148633_j32633161515875_1_alg».proof.Proof.Gen.KernelIdeal.Launch
import Idealize.ShloMosaic.Lib.ValueIdx

noncomputable section

namespace Cert.KernelIdeal.Hand

open Cert.KernelIdeal Cert.KernelIdeal.Gen
open Idealize.ShloMosaic Idealize.ShloMosaic.ValueIdx
open Facts₀ Facts

variable {F : FTy → Type} [FloatOps F]

/-- Contents of the two tables whose every word is below 2 pass the side condition. -/
theorem ok_of_lt (pf : pre0.Contents (Elt F)) (h0 : ∀ x, (pf 0 x).toNat < 2) (h1 : ∀ x, (pf 1 x).toNat < 2) : ok0 (F := F) pf := by
  unfold ok0
  refine ⟨fun i => ⟨?_, Or.inl rfl⟩, fun i => ⟨?_, Or.inl rfl⟩⟩
  · intro a
    have hi : (i 1).val < 4 := (i 1).isLt
    fin_cases a
    · show ((pf.at 0 _ _).toNat + 1) * 1 ≤ 2
      exact (Nat.mul_one _).le.trans (Nat.succ_le_of_lt (h0 _))
    · show ((BitVec.ofNat 32 (i 1).val).toNat + 1) * 1024 ≤ 4096
      rw [BitVec.toNat_ofNat, Nat.mod_eq_of_lt (by omega)]; omega
    · show ((0#32 : BitVec 32).toNat + 1) * 1024 ≤ 1024
      decide
  · intro a
    have hi : (i 2).val < 4 := (i 2).isLt
    fin_cases a
    · show ((pf.at 1 _ _).toNat + 1) * 1 ≤ 2
      exact (Nat.mul_one _).le.trans (Nat.succ_le_of_lt (h1 _))
    · show ((BitVec.ofNat 32 (i 2).val).toNat + 1) * 1024 ≤ 4096
      rw [BitVec.toNat_ofNat, Nat.mod_eq_of_lt (by omega)]; omega
    · show ((0#32 : BitVec 32).toNat + 1) * 1024 ≤ 1024
      decide

/-- The tables' contents: the two literal tables, as the buffers hold them. -/
def tbl : pre0.Contents (Elt F) := fun k => match k with
  | ⟨0, _⟩ => fun i => lit0 (S3.rowMajor i)
  | ⟨1, _⟩ => fun i => lit1 (S3.rowMajor i)

theorem lit0_lt : ∀ j : Fin 3, (lit0 j).toNat < 2 := by decide
theorem lit1_lt : ∀ j : Fin 3, (lit1 j).toNat < 2 := by decide

/-- The admissible contents of the tables: the literals, the same on every run. -/
def adm : (p : Fin 1) → (pcfgs (F := F) p).Adm := fun _ => ⟨tbl, ok_of_lt tbl (fun _ => lit0_lt _) (fun _ => lit1_lt _)⟩

theorem adm_tbl (p : Fin 1) : (adm (F := F) p).1 = tbl := rfl

/-- Word `p` of table 0 and of table 1. -/
theorem rowMajor_ix1 (p : Fin 3) : S3.rowMajor (ix1 p) = p := by fin_cases p <;> rfl
theorem adm_zero (p : Fin 3) : (adm (F := F) 0).1 0 (ix1 p) = lit0 p := congrArg lit0 (rowMajor_ix1 p)
theorem adm_one (p : Fin 3) : (adm (F := F) 0).1 1 (ix1 p) = lit1 p := congrArg lit1 (rowMajor_ix1 p)

/-- Which half each pair reads its rows and its columns from, as numbers. -/
theorem adm_zero_toNat : ∀ p : Fin 3, ((adm (F := F) 0).1 0 (ix1 p)).toNat = (![0, 1, 0] : Fin 3 → Nat) p := fun p => by
  rw [adm_zero]; revert p; decide
theorem adm_one_toNat : ∀ p : Fin 3, ((adm (F := F) 0).1 1 (ix1 p)).toNat = (![0, 1, 1] : Fin 3 → Nat) p := fun p => by
  rw [adm_one]; revert p; decide

end Cert.KernelIdeal.Hand

end
-- ==== Proof.KData.lean ====
/-
  The proof data of the one pipelined launch, over any admissible contents `a` of the two prefetched
  tables and any contents `V` of the core's buffers at the region's entry.

  The grid is (3, 4, 4), point t = 16·p + 4·i + j. Windows 0 and 1 read blocks of the same stacked array
  (rows 1024·i … of half `table₀[p]`, rows 1024·j … of half `table₁[p]`); window 2 writes block p of the
  result. A scratch tile is carried from point to point: at the first point of a pair (i = j = 0) it is
  reset, every point adds its tile's sum to it, and at the last point of a pair (i = j = 3) it is copied
  into window 2's staging tile, which the pipeline then writes back.

  `acc p n` is the scratch after the first n points of pair p; `accAt t` the scratch after point t.
-/
import proofs.«148633_j32633161515875_1_alg».proof.Proof.Gen.KernelIdeal.Launch
import proofs.«148633_j32633161515875_1_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline at the tables' contents `a`. -/
abbrev cfgA (a : (p : Fin 1) → (pcfgs (F := F) p).Adm) : Cfg sig Λ₀ := Pipeline.pin (pcfgs (F := F)) a 0

/-- It has 48 points. -/
theorem N_cfgA (a : (p : Fin 1) → (pcfgs (F := F) p).Adm) : (cfgA a).N = 48 := N_0

/-- The scratch tile, as the memref the body is handed. -/
abbrev scM : Memref sig .tc .vmem S8x128 .f32 := Memref.whole cc0_scratch0

section Data

variable (a : (p : Fin 1) → (pcfgs (F := F) p).Adm) (c : Dev nD)
  (V : (b : Ref sig .tc) → Buf (Elt F) ((c.tc : Thread nD τ).loc b))

/-- Window `w`'s block at point `t`, read off its array as the region finds it. -/
def iblk (w : Fin (cfgA a).W) (t : Fin (cfgA a).N) :
    (((cfgA a).win w).xblock ((cfgA a).grid.coords t)).Idx → Elt F ((cfgA a).win w).elt :=
  (((cfgA a).win w).blk t).view.read (Elt F) (V (Pipeline.arrRef spec0 w))

/-- The two input tiles of point `t`. -/
def blkA (t : Fin (cfgA a).N) : Vec F S1x1024x1024 .f32 := iblk a c V 0 t
def blkB (t : Fin (cfgA a).N) : Vec F S1x1024x1024 .f32 := iblk a c V 1 t

/-- Point `n` (taken mod 16) of pair `p`. -/
def pt (p : Fin 3) (n : ℕ) : Fin (cfgA a).N := ⟨16 * p.val + n % 16, by have h := N_cfgA a; have := p.isLt; omega⟩

/-- The scratch after the first `n` points of pair `p`: zero, then one tile's sum more per point. -/
def acc (p : Fin 3) : ℕ → Vec F S8x128 .f32
  | 0 => k0_pay3
  | n + 1 => k0_pay1 (acc p n) (k0_pay4 (blkA a c V (pt a p n)) (blkB a c V (pt a p n)))

/-- The pair a point belongs to. -/
def pairOf (t : Fin (cfgA a).N) : Fin 3 := ⟨t.val / 16, by have h := N_cfgA a; have := t.isLt; omega⟩

/-- The scratch after point `t`. -/
def accAt (t : Fin (cfgA a).N) : Vec F S8x128 .f32 := acc a c V (pairOf a t) (t.val % 16 + 1)

theorem pt_pairOf (t : Fin (cfgA a).N) : pt a (pairOf a t) (t.val % 16) = t := by
  apply Fin.ext; show 16 * (t.val / 16) + t.val % 16 % 16 = t.val; omega

/-- At the first point of a pair the scratch ends at zero plus the tile's sum. -/
theorem accAt_first (t : Fin (cfgA a).N) (h : t.val % 16 = 0) :
    accAt a c V t = k0_pay1 (k0_pay3 (F := F)) (k0_pay4 (blkA a c V t) (blkB a c V t)) := by
  unfold accAt; rw [h]
  show k0_pay1 (acc a c V (pairOf a t) 0) (k0_pay4 (blkA a c V (pt a (pairOf a t) 0)) (blkB a c V (pt a (pairOf a t) 0))) = _
  have e : pt a (pairOf a t) 0 = t := by have := pt_pairOf a t; rwa [h] at this
  rw [e]; rfl

/-- At any other point it ends at what the point before left plus the tile's sum. -/
theorem accAt_next (t : Fin (cfgA a).N) (h : t.val % 16 ≠ 0) :
    accAt a c V t = k0_pay1 (accAt a c V ⟨t.val - 1, Nat.lt_of_le_of_lt (Nat.sub_le _ _) t.isLt⟩)
      (k0_pay4 (blkA a c V t) (blkB a c V t)) := by
  unfold accAt
  show k0_pay1 (acc a c V (pairOf a t) (t.val % 16)) (k0_pay4 (blkA a c V (pt a (pairOf a t) (t.val % 16))) (blkB a c V (pt a (pairOf a t) (t.val % 16)))) = _
  rw [pt_pairOf]
  have e1 : pairOf a ⟨t.val - 1, Nat.lt_of_le_of_lt (Nat.sub_le _ _) t.isLt⟩ = pairOf a t := by
    apply Fin.ext; show (t.val - 1) / 16 = t.val / 16; omega
  have e2 : (t.val - 1) % 16 + 1 = t.val % 16 := by omega
  show _ = k0_pay1 (acc a c V (pairOf a ⟨t.val - 1, _⟩) ((t.val - 1) % 16 + 1)) _
  rw [e1, e2]

/-- The body's invariant between points: the two tables held whole at `a`'s contents, and the scratch tile —
    before the first point at anything, afterwards at what the point before left. -/
def Phi : (n : ℕ) → n ≤ (cfgA a).N → sProp 𝕄
  | 0, _ => iprop(Pipeline.prefHeld pre0 c (fun _ => fullShare) (a 0).1 ∗ (∃ d, owns (c.tc : Thread nD τ) scM fullShare d))
  | n + 1, hn => iprop(Pipeline.prefHeld pre0 c (fun _ => fullShare) (a 0).1 ∗ owns (c.tc : Thread nD τ) scM fullShare (accAt a c V ⟨n, hn⟩))

/-- The proof data: the arrays as the region finds them; the stacked array's ownership halved between the two
    windows that read it; after the body each input tile as fetched, the output tile at the scratch's copy;
    nothing owed. -/
def dat : Dat τ (Elt F) Unit ℕ (UR sig nD τ) ℕ (cfgA a) c where
  A w := V (Pipeline.arrRef spec0 w)
  after w t := match w with
    | ⟨0, _⟩ => iblk a c V 0 t
    | ⟨1, _⟩ => iblk a c V 1 t
    | ⟨2, _⟩ => k0_pay2 (accAt a c V t)
  Φ t := Phi a c V t.val (Nat.le_of_lt_succ t.isLt)
  q w := match w with
    | ⟨0, _⟩ => fullShare.left
    | ⟨1, _⟩ => fullShare.right
    | ⟨2, _⟩ => fullShare
  owed _ := 0

end Data

section Facts

variable (a : (p : Fin 1) → (pcfgs (F := F) p).Adm) (c : Dev nD)
  (V : (b : Ref sig .tc) → Buf (Elt F) ((c.tc : Thread nD τ).loc b))

/-- The proof data's arrays are the region-entry contents. -/
theorem A_eq (w : Fin (cfgA a).W) : (dat a c V).A w = V (Pipeline.arrRef spec0 w) := by
  dsimp only [dat]

/-- What the body leaves, window by window. -/
theorem after_0 (t : Fin (cfgA a).N) : (dat a c V).after 0 t = iblk a c V 0 t := by dsimp only [dat]; rfl
theorem after_1 (t : Fin (cfgA a).N) : (dat a c V).after 1 t = iblk a c V 1 t := by dsimp only [dat]; rfl
theorem after_2 (t : Fin (cfgA a).N) : (dat a c V).after 2 t = k0_pay2 (accAt a c V t) := by dsimp only [dat]; rfl

/-- The shares: the stacked array's full ownership is split between the two windows that read it. -/
theorem q_0 : (dat a c V).q 0 = fullShare.left := by dsimp only [dat]; rfl
theorem q_1 : (dat a c V).q 1 = fullShare.right := by dsimp only [dat]; rfl
theorem q_2 : (dat a c V).q 2 = fullShare := by dsimp only [dat]; rfl
theorem share_0 : (dat a c V).share 0 = fullShare.left := by unfold Dat.share; rw [q_0]; rfl
theorem share_1 : (dat a c V).share 1 = fullShare.right := by unfold Dat.share; rw [q_1]; rfl
theorem share_2 : (dat a c V).share 2 = fullShare := by unfold Dat.share; rfl
theorem owed_eq (t : Fin ((cfgA a).N + 1)) : (dat a c V).owed t = 0 := by dsimp only [dat]

/-- The invariant, restated at a natural number. -/
theorem Phi_eq (t : Fin ((cfgA a).N + 1)) : (dat a c V).Φ t = Phi a c V t.val (Nat.le_of_lt_succ t.isLt) := by
  dsimp only [dat]

theorem Phi_castSucc (t : Fin (cfgA a).N) : (dat a c V).Φ t.castSucc = Phi a c V t.val (Nat.le_of_lt t.isLt) := by
  dsimp only [dat]; simp only [Fin.coe_castSucc]

theorem Phi_zero (n : ℕ) (h : n ≤ (cfgA a).N) (hz : n = 0) :
    Phi a c V n h = iprop(Pipeline.prefHeld pre0 c (fun _ => fullShare) (a 0).1 ∗ (∃ d, owns (c.tc : Thread nD τ) scM fullShare d)) := by
  subst hz; rfl

theorem Phi_succ (n : ℕ) (hn : n < (cfgA a).N) :
    Phi a c V (n + 1) hn = iprop(Pipeline.prefHeld pre0 c (fun _ => fullShare) (a 0).1 ∗ owns (c.tc : Thread nD τ) scM fullShare (accAt a c V ⟨n, hn⟩)) := rfl

theorem Phi_pos (n : ℕ) (h : n ≤ (cfgA a).N) (hz : n ≠ 0) :
    Phi a c V n h = iprop(Pipeline.prefHeld pre0 c (fun _ => fullShare) (a 0).1
      ∗ owns (c.tc : Thread nD τ) scM fullShare (accAt a c V ⟨n - 1, by omega⟩)) := by
  cases n with
  | zero => exact absurd rfl hz
  | succ n => rfl

/-- Before the first point: the tables and the scratch at anything. -/
theorem Phi_first : (dat a c V).Φ 0
    = iprop(Pipeline.prefHeld pre0 c (fun _ => fullShare) (a 0).1 ∗ (∃ d, owns (c.tc : Thread nD τ) scM fullShare d)) := by
  rw [Phi_eq]; exact Phi_zero a c V _ _ rfl

/-- After the last point: the tables and the scratch at what point 47 left. -/
theorem Phi_last : (dat a c V).Φ (Fin.last (cfgA a).N)
    = iprop(Pipeline.prefHeld pre0 c (fun _ => fullShare) (a 0).1
      ∗ owns (c.tc : Thread nD τ) scM fullShare (accAt a c V ⟨(cfgA a).N - 1, by have := N_cfgA a; omega⟩)) := by
  rw [Phi_eq]; exact Phi_pos a c V _ _ (by rw [Fin.val_last]; have := N_cfgA a; omega)

/-- Each input window's current staging tile holds its block at every point, fetched there or not: an input
    not fetched at a point has the block index of the point before, and the body leaves the tile as it was. -/
theorem before_0 (t : Fin (cfgA a).N) (d) : (dat a c V).before 0 t d = iblk a c V 0 t :=
  ((dat a c V).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)

theorem before_1 (t : Fin (cfgA a).N) (d) : (dat a c V).before 1 t d = iblk a c V 1 t :=
  ((dat a c V).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)

end Facts

end Cert.KernelIdeal.Hand

end
-- ==== Proof.KStack.lean ====
/-
  The two samples stacked into one [2, 4096, 1024] array, read at an index, at any element type.

  Each [4096, 1024] sample is given a leading unit axis and the two are joined along it: the stacked array at (0, r, k)
  is the first sample at (r, k), and at (1, r, k) the second.
-/
import proofs.«148633_j32633161515875_1_alg».proof.KernelIdeal
import Idealize.ShloMosaic.Lib.ValueIdx
import Idealize.ShloMosaic.Lib.Pipeline.Value

noncomputable section

namespace Cert.KernelIdeal.Hand

open Idealize.ShloMosaic Idealize.ShloMosaic.ValueIdx Cert.KernelIdeal

variable {α : Type}

/-- A [4096, 1024] array with a leading unit axis added reads, at (0, r, k), the array at (r, k). -/
theorem lead_apply (a : S4096x1024.Idx → α)
    (hb : S4096x1024.BroadcastsInDim S1x4096x1024 (![1, 2] : Fin 2 → Fin S1x4096x1024.rank)) (u : Fin 1) (r : Fin 4096) (k : Fin 1024) :
    broadcastInDim S1x4096x1024 ![1, 2] hb a (ix3 u r k) = a (ix2 r k) :=
  broadcastInDim_apply _ hb a (ix3 u r k) (ix2 r k) fun ax => by
    match ax with
    | ⟨0, _⟩ => rfl
    | ⟨1, _⟩ => rfl

/-- The stacked array at (0, r, k) is the first sample at (r, k). -/
theorem stack_apply_zero (a b : S4096x1024.Idx → α)
    (hb : S4096x1024.BroadcastsInDim S1x4096x1024 (![1, 2] : Fin 2 → Fin S1x4096x1024.rank))
    (hc : Shape.Concatenates [S1x4096x1024, S1x4096x1024] S2x4096x1024 0) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 (0 : Fin 2) r k)
      = a (ix2 r k) :=
  (concatenate_pair_apply_left (0 : Fin S2x4096x1024.rank) _ _ hc (ix3 (0 : Fin 2) r k) rfl (ix3 (0 : Fin 1) r k) fun ax => by
    match ax with
    | ⟨0, _⟩ => rfl
    | ⟨1, _⟩ => rfl
    | ⟨2, _⟩ => rfl).trans (lead_apply a hb 0 r k)

/-- The stacked array at (1, r, k) is the second sample at (r, k). -/
theorem stack_apply_one (a b : S4096x1024.Idx → α)
    (hb : S4096x1024.BroadcastsInDim S1x4096x1024 (![1, 2] : Fin 2 → Fin S1x4096x1024.rank))
    (hc : Shape.Concatenates [S1x4096x1024, S1x4096x1024] S2x4096x1024 0) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 (1 : Fin 2) r k)
      = b (ix2 r k) :=
  (concatenate_pair_apply_right (0 : Fin S2x4096x1024.rank) _ _ hc (ix3 (1 : Fin 2) r k) rfl rfl (ix3 (0 : Fin 1) r k)
    (fun ax hax => by
      match ax with
      | ⟨0, _⟩ => exact absurd rfl hax
      | ⟨1, _⟩ => rfl
      | ⟨2, _⟩ => rfl)
    rfl).trans (lead_apply b hb 0 r k)

/-- The stacked array at (h, r, k): the first sample for h = 0, the second for h = 1. -/
theorem stack_apply (a b : S4096x1024.Idx → α)
    (hb : S4096x1024.BroadcastsInDim S1x4096x1024 (![1, 2] : Fin 2 → Fin S1x4096x1024.rank))
    (hc : Shape.Concatenates [S1x4096x1024, S1x4096x1024] S2x4096x1024 0) (h : Fin 2) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 h r k)
      = (if h = 0 then a else b) (ix2 r k) := by
  match h with
  | ⟨0, _⟩ => exact stack_apply_zero a b hb hc r k
  | ⟨1, _⟩ => exact stack_apply_one a b hb hc r k

end Cert.KernelIdeal.Hand

end
-- ==== Proof.KLaunch.lean ====
/-
  The launch side of the kernel's run: the host operations around the one pipelined region, and the region's
  entry and exit.

  @main is five host operations (the two literal index tables, the two samples given a leading unit axis, their
  concatenation into the stacked array [2, 4096, 1024]), the region, and twenty host operations that turn the
  region's result array [3, 8, 128] into the scalar estimator.

  Two of the region's three windows read blocks of the SAME stacked array, so at entry the array's ownership is
  divided between them, half each, and at exit the two halves — an input array is never written — make the whole
  again. The third window writes the result array, held whole. The two tables go to the pipeline whole and come
  back; every other buffer bypasses the region. After the region the buffers are the entry contents with the
  result array replaced by what the region computed (`W₁`), so the twenty operations run from one valuation.
-/
import proofs.«148633_j32633161515875_1_alg».proof.Proof.KAdm
import proofs.«148633_j32633161515875_1_alg».proof.Proof.KData
import proofs.«148633_j32633161515875_1_alg».proof.Proof.KStack
import Idealize.ShloMosaic.Lib.Pipeline.Regions
import Idealize.ShloMosaic.Lib.Pipeline.Frame
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The five host operations before the region -/

/-- Core `c`'s buffers at launch, as the operations' valuation; -/
abbrev V₀ (c : Dev nD) : Valuation τ sig (Elt F) := fun b => m (c, b)
/-- and when the region is entered: the five operations before it have run. -/
abbrev V (c : Dev nD) (b : Ref sig .tc) : Buf (Elt F) ((c : Thread nD τ).loc b) := StableHlo.after hostOps0 (V₀ m c) b

/-- The two tables hold their literals. -/
theorem V_c (c : Dev nD) : V m c main_c = fun i => lit0 (S3.rowMajor i) := by
  show StableHlo.after hostOps0 (V₀ m c) (Proc.devRef .tc main_c) = _
  after_results
  rfl

theorem V_c_0 (c : Dev nD) : V m c main_c_0 = fun i => lit1 (S3.rowMajor i) := by
  show StableHlo.after hostOps0 (V₀ m c) (Proc.devRef .tc main_c_0) = _
  after_results
  rfl

/-- The two samples stacked along a new leading axis. -/
def stacked (x y : (⟨S4096x1024, .f32⟩ : BufTy).Contents (Elt F)) : (⟨S2x4096x1024, .f32⟩ : BufTy).Contents (Elt F) :=
  concatenate S2x4096x1024 0 [⟨S1x4096x1024, broadcastInDim S1x4096x1024 ![1, 2] Facts₀.bcast_S4096x1024_S1x4096x1024_1_2 x⟩, ⟨S1x4096x1024, broadcastInDim S1x4096x1024 ![1, 2] Facts₀.bcast_S4096x1024_S1x4096x1024_1_2 y⟩] Facts₀.concatenates_S1x4096x1024_S1x4096x1024_S2x4096x1024_d0

/-- The stacked array at the region's entry is the two arguments stacked. -/
theorem V_v2 (c : Dev nD) : V m c main_v2 = stacked (m ((c : Thread nD τ).loc main_arg0)) (m ((c : Thread nD τ).loc main_arg1)) := by
  show StableHlo.after hostOps0 (V₀ m c) (Proc.devRef .tc main_v2) = _
  after_results
  rfl

/-- No operation before the region writes an argument. -/
theorem V_arg0 (c : Dev nD) : V m c main_arg0 = m ((c : Thread nD τ).loc main_arg0) := by
  show StableHlo.after hostOps0 (V₀ m c) (Proc.devRef .tc main_arg0) = _
  after_results

theorem V_arg1 (c : Dev nD) : V m c main_arg1 = m ((c : Thread nD τ).loc main_arg1) := by
  show StableHlo.after hostOps0 (V₀ m c) (Proc.devRef .tc main_arg1) = _
  after_results

/-- The tables at the region's entry are the admissible contents. -/
theorem V_tbl (c : Dev nD) : (fun k => V m c (pre0.ref k)) = (adm (F := F) 0).1 := by
  funext k
  match k with
  | ⟨0, _⟩ => exact V_c m c
  | ⟨1, _⟩ => exact V_c_0 m c

/-- The stacked array at (h, r, k) is argument h at (r, k). -/
theorem V_v2_apply (c : Dev nD) (h : Fin 2) (r : Fin 4096) (k : Fin 1024) :
    V m c main_v2 (ix3 h r k)
      = (if h = 0 then m ((c : Thread nD τ).loc main_arg0) else m ((c : Thread nD τ).loc main_arg1)) (ix2 r k) := by
  rw [V_v2]
  exact stack_apply _ _ _ _ h r k

/-! ## The launch's parameters -/

abbrev 𝒱₀ : Variants := Variants.none
/-- No core owes another anything: no level is assigned. -/
abbrev L : GSem nD τ sig → Finset Unit := fun _ => ∅
abbrev lv : GSem nD τ sig → Unit → ℕ := fun _ _ => 0
/-- The pipeline library's algebra is the whole user algebra. -/
abbrev EP : Emb (UR sig nD τ) 𝕄 := emb₁

/-- The proof data at the tables' literals and the entry contents. -/
abbrev dats (_ : Fin 1) (c : Dev nD) : Dat τ (Elt F) Unit ℕ (UR sig nD τ) ℕ (Pipeline.pin (pcfgs (F := F)) adm 0) c := dat adm c (V m c)

/-- What rides beside the buffers: the core owes nothing. -/
abbrev R (c : Dev nD) : sProp 𝕄 := iprop(∃ W, owes (c : Thread nD τ) (0 : CellTallies nD τ sig Unit) W)

/-- The result array as the region leaves it. -/
abbrev out (c : Dev nD) : Buf (Elt F) ((c : Thread nD τ).loc main_v3) := (dats m 0 c).arrAt 2 48

/-- The buffers after the region: the result array at what the region computed, every other as at entry. -/
abbrev W₁ (c : Dev nD) : Valuation τ sig (Elt F) :=
  (StableHlo.nullary main_v3 (out m c)).result (StableHlo.after hostOps0 (V₀ m c))

/-! ## The windows' arrays: one stacked array read by two windows, the result array -/

/-- The buffers behind the windows are the stacked array and the result array. -/
theorem arr_image : Finset.univ.image (Pipeline.arrRef spec0) = {main_v2, main_v3} := by decide

/-- The windows' arrays, at contents that agree on the shared array, are the stacked array whole and the result
    array: the two reading windows hold the two halves of the stacked array's ownership. -/
theorem arrays_iff (c : Dev nD) (G : (w : Fin (cfgA (F := F) adm).W) → Buf (Elt F) (((cfgA (F := F) adm).win w).arr.view.loc (c : Thread nD τ)))
    (X : Buf (Elt F) ((c : Thread nD τ).loc main_v3))
    (h0 : G 0 = V m c main_v2) (h1 : G 1 = V m c main_v2) (h2 : G 2 = X) :
    ((dats m 0 c).arrays G : sProp 𝕄)
      ⊣⊢ iprop((((c : Thread nD τ).loc main_v2) ↦{fullShare} V m c main_v2) ∗ (((c : Thread nD τ).loc main_v3) ↦{fullShare} X)) := by
  unfold Dat.arrays
  rw [bigSep_W0, (arr_whole0 0).set_eq_univ, (arr_whole0 2).set_eq_univ,
    share_0 adm c (V m c), share_1 adm c (V m c), share_2 adm c (V m c), h0, h1, h2]
  have hs : ((((c : Thread nD τ).loc main_v2) ↦{fullShare} V m c main_v2 : sProp 𝕄))
      ⊣⊢ iprop((((c : Thread nD τ).loc main_v2) ↦{fullShare.left} V m c main_v2) ∗ (((c : Thread nD τ).loc main_v2) ↦{fullShare.right} V m c main_v2)) :=
    pointsTo_share (PosShare.mem_left_op_right fullShare)
  constructor
  · iintro ⟨H0, H1, H2⟩
    isplitl [H0 H1]
    · iapply hs.2; isplitl [H0] <;> iassumption
    · iexact H2
  · iintro ⟨H, H2⟩
    ihave H' := hs.1 $$ H
    icases H' with ⟨H0, H1⟩
    isplitl [H0]; · iexact H0
    isplitl [H1] <;> iassumption

/-- The distinct buffers behind the windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v3) ↦{fullShare} W main_v3)) := by
  unfold Pipeline.arrBufs
  rw [arr_image, bigSep_insert (by decide), bigSep_singleton]
  rfl

/-- The value the region leaves in a buffer other than its result is the entry value; in its result, what it computed. -/
theorem W₁_ne (c : Dev nD) {b : Ref sig .tc} (h : b ≠ main_v3) : W₁ m c (Proc.devRef .tc b) = V m c b :=
  StableHlo.nullary_result_ne main_v3 _ _ _ h
theorem W₁_v3 (c : Dev nD) : W₁ m c (Proc.devRef .tc main_v3) = out m c :=
  StableHlo.nullary_result main_v3 _ _ _

theorem W₁_tbl (c : Dev nD) : (fun k => W₁ m c (Proc.devRef .tc (pre0.ref k))) = (adm (F := F) 0).1 := by
  funext k
  match k with
  | ⟨0, _⟩ => exact (W₁_ne m c (b := main_c) (by decide)).trans (V_c m c)
  | ⟨1, _⟩ => exact (W₁_ne m c (b := main_c_0) (by decide)).trans (V_c_0 m c)

/-- The buffers the region does not touch, after it as before it. -/
theorem restP_W₁ (c : Dev nD) :
    (Pipeline.unscopedRestP (Ix := Unit) (Name := ℕ) (U := UR sig nD τ) (Lvl := ℕ) pre0 spec0 c (fun b => W₁ m c (Proc.devRef .tc b)) : sProp 𝕄)
      = Pipeline.unscopedRestP pre0 spec0 c (V m c) := by
  unfold Pipeline.unscopedRestP
  refine bigSep_congr fun b hb => ?_
  have hne : b ≠ main_v3 := fun e => by
    subst e
    exact (Finset.mem_sdiff.mp (Finset.mem_sdiff.mp hb).1).2 (Finset.mem_image.mpr ⟨2, Finset.mem_univ _, rfl⟩)
  exact congrArg (fun f => (((c : Thread nD τ).loc b) ↦{fullShare} f : sProp 𝕄)) (W₁_ne m c hne)

/-! ## The segments -/

/-- THE HOST SEGMENT before the region: the five operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- THE HOST SEGMENT after the region: the twenty operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

theorem N_pin : (Pipeline.pin (pcfgs (F := F)) adm 0).N = 48 := N_0

set_option backward.isDefEq.respectTransparency.types false in
/-- THE REGION: entered from what the first segment left — the stacked array dealt to the two reading windows by halves, the
    result array to the writing window, the tables to the pipeline, everything else bypassing —, left with the stacked
    array whole again, the result array at what the region computed, the rest as at entry. -/
def reg0 (hb : ∀ c, Pipeline.BodyObligationLoose (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody := hb
  hwaits := Pipeline.hwaits_of_owed_zero _ _ _ _ L lv 0 fun c t => owed_eq adm c (V m c) t
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := Pipeline.prefHeld pre0 c (fun _ => fullShare) (adm (F := F) 0).1
  Z c := Pipeline.unscopedRestP (Ix := Unit) (Name := ℕ) (U := UR sig nD τ) (Lvl := ℕ) pre0 spec0 c (V m c)
  hentry c := by
    have hub := Pipeline.unscopedBufs_split₀ (Pipeline.pin (pcfgs (F := F)) adm) 0 winFacts₀0.arr_unscoped c (Ix := Unit) (Name := ℕ) (U := UR sig nD τ) (Lvl := ℕ) (V m c)
    have hur := Pipeline.unscopedRest_split (Ix := Unit) (Name := ℕ) (U := UR sig nD τ) (Lvl := ℕ) preFacts0 c (V m c)
    rw [V_tbl m c] at hur
    rw [arrBufs_eq] at hub
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave Hub' := (Entails.of_eq hub) $$ Hub
    icases Hub' with ⟨Harr, Hur0⟩
    ihave Hur1 := (Entails.of_eq hur) $$ Hur0
    icases Hur1 with ⟨Hpf, Hur⟩
    imodintro
    isplitl [Harr]
    · iapply (arrays_iff m c (fun w => (dats m 0 c).arrAt w 0) (V m c main_v3) (A_eq adm c (V m c) 0) (A_eq adm c (V m c) 1) (A_eq adm c (V m c) 2)).2
      iexact Harr
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = _ from Phi_first adm c (V m c),
      show (Pipeline.scopedRest (Pipeline.pin (pcfgs (F := F)) adm 0).spec c : sProp 𝕄) = Pipeline.scopedRest spec0 c from rfl, scopedRest0_eq]
    simp only [owns_whole]
    iintro ⟨-, Hp, Hs⟩
    isplitl [Hp] <;> iassumption
  hout c := by
    rw [show (dats m 0 c).Φ (Fin.last _) = _ from Phi_last adm c (V m c), Pipeline.ownSems0_none,
      show (Pipeline.scopedRest (Pipeline.pin (pcfgs (F := F)) adm 0).spec c : sProp 𝕄) = Pipeline.scopedRest spec0 c from rfl, scopedRest0_eq]
    simp only [owns_whole]
    iintro ⟨Hp, Hs⟩
    isplitl [Hp]; · iexact Hp
    isplitr; · iempintro
    iexists _; iexact Hs
  hexit c := by
    have hub := Pipeline.unscopedBufs_split₀ (Pipeline.pin (pcfgs (F := F)) adm) 0 winFacts₀0.arr_unscoped c (Ix := Unit) (Name := ℕ) (U := UR sig nD τ) (Lvl := ℕ) (fun b => W₁ m c (Proc.devRef .tc b))
    have hur := Pipeline.unscopedRest_split (Ix := Unit) (Name := ℕ) (U := UR sig nD τ) (Lvl := ℕ) preFacts0 c (fun b => W₁ m c (Proc.devRef .tc b))
    rw [W₁_tbl m c, restP_W₁ m c] at hur
    rw [arrBufs_eq, W₁_ne m c (b := main_v2) (by decide), W₁_v3 m c] at hub
    rw [show StableHlo.held (c : Thread nD τ) (Pipeline.ucRefs τ sig) (W₁ m c) = unscopedBufs c (fun b => W₁ m c (Proc.devRef .tc b)) from (Pipeline.unscopedBufs_held c _).symm]
    have h0 : (dats m 0 c).arrAt 0 (Pipeline.pin (pcfgs (F := F)) adm 0).N = V m c main_v2 :=
      ((dats m 0 c).arrAt_in 0 rfl _).trans (A_eq adm c (V m c) 0)
    have h1 : (dats m 0 c).arrAt 1 (Pipeline.pin (pcfgs (F := F)) adm 0).N = V m c main_v2 :=
      ((dats m 0 c).arrAt_in 1 rfl _).trans (A_eq adm c (V m c) 1)
    iintro ⟨Ha, HO, HY, HZ⟩
    have h2 : (dats m 0 c).arrAt 2 (Pipeline.pin (pcfgs (F := F)) adm 0).N = out m c := congrArg ((dats m 0 c).arrAt 2) N_pin
    ihave Ha' := (arrays_iff m c (fun w => (dats m 0 c).arrAt w (Pipeline.pin (pcfgs (F := F)) adm 0).N) (out m c) h0 h1 h2).1 $$ Ha
    imodintro
    isplitr [HO]
    · iapply (Entails.of_eq hub.symm)
      isplitl [Ha']; · iexact Ha'
      iapply (Entails.of_eq hur.symm)
      isplitl [HY] <;> iassumption
    · unfold Pipeline.Dat.owesAt Pipeline.owesWithin
      icases HO with ⟨%W, -, HO⟩; iexists W; iexact HO

end Cert.KernelIdeal.Hand

end
-- ==== Proof.KBodyRun.lean ====
/-
  The kernel body run once per case of its two conditionals, on symbolic whole staging tiles.

  At a grid point (p, i, j) the body resets the carried scratch tile when i = j = 0, adds the tile sum of
  the two input blocks to it, and when i = j = 3 copies it into the output tile. So there are three cases
  a point can be in (both conditions at once is impossible): first point of a pair, a middle point, last
  point of a pair. In each, from the input tiles held at contents x0, x1 and the scratch at xs (at anything
  in the first case), the body runs to the inputs as they were and the scratch at
  pay1 xs (pay4 x0 x1) — with xs := pay3 (zero) in the first case — and in the last case the output tile at
  pay2 of that.
-/
import proofs.«148633_j32633161515875_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if` (reset the scratch), from the grid coordinates. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- The condition of the second `scf.if` (copy the scratch out). -/
abbrev cond2 (i : grid0.Coords) : Prop := k0_cond2 i = 1#1

theorem hcond1 : ∀ t : Fin grid0.N, cond1 (grid0.coords t) ↔ t.val % 16 = 0 := by decide +kernel
theorem hcond2 : ∀ t : Fin grid0.N, cond2 (grid0.coords t) ↔ t.val % 16 = 15 := by decide +kernel

/-- A store of a whole 8×128 tile reads back as its payload, whatever was stored before. -/
theorem read_writes_tile {sp : Space} (v : View sig .tc sp S8x128 .f32) (f : v.ty.Contents (Elt F)) (w : Vec F S8x128 .f32)
    (L : List (View.Piece (Elt F) S8x128 .f32)) :
    v.read (Elt F) (v.writes (Elt F) f (⟨Rect.unit (s := S8x128) ![0, 0] S8x128.size inb_S8x128_S8x128_0_0, w⟩ :: L)) = w := by
  funext y
  have h := View.read_writes_cons_emb v f (Rect.unit (s := S8x128) ![0, 0] S8x128.size inb_S8x128_S8x128_0_0) w L y
  have e : (Rect.unit (s := S8x128) ![0, 0] S8x128.size inb_S8x128_S8x128_0_0).emb y = y := by
    funext a; apply Fin.ext; rw [Rect.emb_apply]; fin_cases a <;> simp [Rect.unit]
  rwa [e] at h

/-- The same for a 1×8×128 tile. -/
theorem read_writes_tile3 {sp : Space} (v : View sig .tc sp S1x8x128 .f32) (f : v.ty.Contents (Elt F)) (w : Vec F S1x8x128 .f32)
    (L : List (View.Piece (Elt F) S1x8x128 .f32)) :
    v.read (Elt F) (v.writes (Elt F) f (⟨Rect.unit (s := S1x8x128) ![0, 0, 0] S1x8x128.size inb_S1x8x128_S1x8x128_0_0_0, w⟩ :: L)) = w := by
  funext y
  have h := View.read_writes_cons_emb v f (Rect.unit (s := S1x8x128) ![0, 0, 0] S1x8x128.size inb_S1x8x128_S1x8x128_0_0_0) w L y
  have e : (Rect.unit (s := S1x8x128) ![0, 0, 0] S1x8x128.size inb_S1x8x128_S1x8x128_0_0_0).emb y = y := by
    funext a; apply Fin.ext; rw [Rect.emb_apply]; fin_cases a <;> simp [Rect.unit]
  rwa [e] at h

/-- A load of the whole tile is the view's contents. -/
theorem readAt_tile {sp : Space} (v : View sig .tc sp S8x128 .f32) (f : v.ty.Contents (Elt F)) :
    View.readAt (Elt F) v (Rect.unit (s := S8x128) ![0, 0] S8x128.size inb_S8x128_S8x128_0_0).toLoadRect f = v.read (Elt F) f := by
  funext y; rw [View.readAt_apply]; refine congrArg _ ?_
  funext a; apply Fin.ext; rw [LoadRect.idx_apply]; fin_cases a <;> simp [Rect.unit]

theorem readAt_tile3 {sp : Space} (v : View sig .tc sp S1x8x128 .f32) (f : v.ty.Contents (Elt F)) :
    View.readAt (Elt F) v (Rect.unit (s := S1x8x128) ![0, 0, 0] S1x8x128.size inb_S1x8x128_S1x8x128_0_0_0).toLoadRect f = v.read (Elt F) f := by
  funext y; rw [View.readAt_apply]; refine congrArg _ ?_
  funext a; apply Fin.ext; rw [LoadRect.idx_apply]; fin_cases a <;> simp [Rect.unit]

theorem readAt_block {sp : Space} (v : View sig .tc sp S1x1024x1024 .f32) (f : v.ty.Contents (Elt F)) :
    View.readAt (Elt F) v (Rect.unit (s := S1x1024x1024) ![0, 0, 0] S1x1024x1024.size inb_S1x1024x1024_S1x1024x1024_0_0_0).toLoadRect f = v.read (Elt F) f := by
  funext y; rw [View.readAt_apply]; refine congrArg _ ?_
  funext a; apply Fin.ext; rw [LoadRect.idx_apply]; fin_cases a <;> simp [Rect.unit]

theorem run_B (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : ¬cond1 i) (hc2 : ¬cond2 i)
    (x0 x1 : Vec F S1x1024x1024 .f32) (xs : Vec F S8x128 .f32) (E : Set ℕ) (K : PUnit → sProp 𝕄) :
    iprop(owns (c : Thread nD τ) arg5 fullShare x0 ∗ owns (c : Thread nD τ) arg6 fullShare x1 ∗ owns (c : Thread nD τ) scM fullShare xs
        ∗ (iprop(owns (c : Thread nD τ) arg5 fullShare x0 ∗ owns (c : Thread nD τ) arg6 fullShare x1
            ∗ owns (c : Thread nD τ) scM fullShare (k0_pay1 xs (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%fs, %hfs, HS⟩, Hk⟩
  obtain rfl := harg5.eq_unread hf0; obtain rfl := harg6.eq_unread hf1
  obtain rfl := (Memref.isWhole_whole cc0_scratch0).eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_tile]
  sl_unfold_run_names
  rw [readAt_tile, readAt_block, readAt_block, hf0, hf1, hfs]

theorem run_A (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : cond1 i) (hc2 : ¬cond2 i)
    (x0 x1 : Vec F S1x1024x1024 .f32) (E : Set ℕ) (K : PUnit → sProp 𝕄) :
    iprop(owns (c : Thread nD τ) arg5 fullShare x0 ∗ owns (c : Thread nD τ) arg6 fullShare x1 ∗ (∃ d, owns (c : Thread nD τ) scM fullShare d)
        ∗ (iprop(owns (c : Thread nD τ) arg5 fullShare x0 ∗ owns (c : Thread nD τ) arg6 fullShare x1
            ∗ owns (c : Thread nD τ) scM fullShare (k0_pay1 (k0_pay3 (F := F)) (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d, %fs, -, HS⟩, Hk⟩
  obtain rfl := harg5.eq_unread hf0; obtain rfl := harg6.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_tile]
  sl_unfold_run_names
  rw [View.readCov_cons_toLoadRect, readAt_block, readAt_block, hf0, hf1]

theorem run_C (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : ¬cond1 i) (hc2 : cond2 i)
    (x0 x1 : Vec F S1x1024x1024 .f32) (xs : Vec F S8x128 .f32) (E : Set ℕ) (K : PUnit → sProp 𝕄) :
    iprop(owns (c : Thread nD τ) arg5 fullShare x0 ∗ owns (c : Thread nD τ) arg6 fullShare x1 ∗ (∃ d, owns (c : Thread nD τ) arg7 fullShare d)
        ∗ owns (c : Thread nD τ) scM fullShare xs
        ∗ (iprop(owns (c : Thread nD τ) arg5 fullShare x0 ∗ owns (c : Thread nD τ) arg6 fullShare x1
            ∗ owns (c : Thread nD τ) arg7 fullShare (k0_pay2 (k0_pay1 xs (k0_pay4 x0 x1)))
            ∗ owns (c : Thread nD τ) scM fullShare (k0_pay1 xs (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d7, %f7, -, H7⟩, ⟨%fs, %hfs, HS⟩, Hk⟩
  obtain rfl := harg5.eq_unread hf0; obtain rfl := harg6.eq_unread hf1
  obtain rfl := (Memref.isWhole_whole cc0_scratch0).eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H7]
  · iexists _; isplitr
    swap; · iexact H7
    ipureintro
    rw [read_writes_tile3]
    sl_unfold_run_names
    rw [View.readCov_cons_toLoadRect, readAt_tile, readAt_block, readAt_block, hf0, hf1, hfs]
  iexists _; isplitr
  swap; · iexact HS
  ipureintro
  sl_unfold_run_names
  rw [read_writes_tile, readAt_tile, readAt_block, readAt_block, hf0, hf1, hfs]

end Cert.KernelIdeal.Hand

end
-- ==== Proof.KBody.lean ====
/-
  The body obligation of the pipelined launch: at every grid point the kernel body, handed the two input
  tiles at their blocks, the output tile, the tables and the carried scratch, runs to the next point's
  invariant. By cases on the point's place in its pair — first (t ≡ 0 mod 16: the scratch is reset),
  last (t ≡ 15: the scratch is copied to the output tile, which the pipeline then writes back), middle
  (the output tile is idle: handed back as found).
-/
import proofs.«148633_j32633161515875_1_alg».proof.Proof.KBodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Points

variable (a : (p : Fin 1) → (pcfgs (F := F) p).Adm)

/-- Window 2's block index at a point: the pair, whatever the tables hold. -/
theorem index_2 (t : Fin (cfgA a).N) : ((cfgA a).win 2).index t = cc0_transform_2 (grid0.coords t) := rfl

theorem tr2_step : ∀ t : Fin grid0.N, ∀ h : t.val + 1 < grid0.N, t.val % 16 ≠ 15 →
    cc0_transform_2 (grid0.coords ⟨t.val + 1, h⟩) = cc0_transform_2 (grid0.coords t) := by decide +kernel
theorem tr2_jump : ∀ t : Fin grid0.N, ∀ h : t.val + 1 < grid0.N, t.val % 16 = 15 →
    cc0_transform_2 (grid0.coords ⟨t.val + 1, h⟩) ≠ cc0_transform_2 (grid0.coords t) := by decide +kernel

/-- Window 2 is written back exactly at the last point of each pair. -/
theorem flush_2_iff (t : Fin (cfgA a).N) : ((cfgA a).win 2).flush t = true ↔ t.val % 16 = 15 := by
  have hN : (cfgA a).N = 48 := N_cfgA a
  unfold Window.flush
  rw [show ((cfgA a).win 2).isOut = true from rfl, Bool.true_and, Bool.or_eq_true, decide_eq_true_eq, decide_eq_true_eq]
  constructor
  · rintro (h | ⟨h, hne⟩)
    · have : t.val + 1 = 48 := h.trans hN
      omega
    · by_contra h15
      exact hne (tr2_step t h h15)
  · intro h15
    have ht : t.val < 48 := lt_of_lt_of_eq t.isLt hN
    by_cases hl : t.val + 1 = 48
    · exact .inl (hl.trans hN.symm)
    · have hlt : t.val + 1 < 48 := by omega
      exact .inr ⟨lt_of_lt_of_eq hlt hN.symm, tr2_jump t (lt_of_lt_of_eq hlt N_0.symm) h15⟩

/-- The inputs are never idle; the output is idle exactly where the second conditional fails. -/
theorem live_0 (t : Fin (cfgA a).N) : (cfgA a).idle 0 ((cfgA a).grid.coords t) = false := rfl
theorem live_1 (t : Fin (cfgA a).N) : (cfgA a).idle 1 ((cfgA a).grid.coords t) = false := rfl
theorem idle_2_of_not (t : Fin (cfgA a).N) (h : ¬cond2 (grid0.coords t)) : (cfgA a).idle 2 ((cfgA a).grid.coords t) = true := by
  show (!(k0_cond2 (grid0.coords t) == 1#1)) = true
  rw [Bool.not_eq_true', beq_eq_false_iff_ne]; exact h
theorem live_2_of (t : Fin (cfgA a).N) (h : cond2 (grid0.coords t)) : (cfgA a).idle 2 ((cfgA a).grid.coords t) = false := by
  show (!(k0_cond2 (grid0.coords t) == 1#1)) = false
  rw [Bool.not_eq_false', beq_iff_eq]; exact h

/-- Each window's current staging tile at point `t`, as the pipeline passes it to the body. -/
abbrev ms0 (t : Fin (cfgA a).N) : Memref sig .tc .vmem S1x1024x1024 .f32 := spec0_0.stage ((cfgA a).slots t 0)
abbrev hs0 (t : Fin (cfgA a).N) : (ms0 a t).IsWhole := hstage0_0 (((cfgA a).slots t 0).cast nbuf0_0)
abbrev ms1 (t : Fin (cfgA a).N) : Memref sig .tc .vmem S1x1024x1024 .f32 := spec0_1.stage ((cfgA a).slots t 1)
abbrev hs1 (t : Fin (cfgA a).N) : (ms1 a t).IsWhole := hstage0_1 (((cfgA a).slots t 1).cast nbuf0_1)
abbrev ms2 (t : Fin (cfgA a).N) : Memref sig .tc .vmem S1x8x128 .f32 := spec0_2.stage ((cfgA a).slots t 2)
abbrev hs2 (t : Fin (cfgA a).N) : (ms2 a t).IsWhole := hstage0_2 (((cfgA a).slots t 2).cast nbuf0_2)

/-- The body's call at point `t`. -/
abbrev bodyAt (t : Fin (cfgA a).N) : Prog (TpuEff nD τ sig (Elt F) Λ₀ .tc) PUnit :=
  cc0__pair_kernel (grid0.coords t) (Memref.whole main_c) (Memref.isWhole_whole _) (Memref.whole main_c_0) (Memref.isWhole_whole _)
    (ms0 a t) (hs0 a t) (ms1 a t) (hs1 a t) (ms2 a t) (hs2 a t) scM (Memref.isWhole_whole _)

set_option maxHeartbeats 100000 in
theorem bodyAt_eq (t : Fin (cfgA a).N) :
    (defs₀ (F := F)) .tc (cfgA a).body ((cfgA a).bodyArgs t ((cfgA a).slots t)) = bodyAt a t := rfl

end Points

section Body

variable (a : (p : Fin 1) → (pcfgs (F := F) p).Adm) (c : Dev nD)
  (V : (b : Ref sig .tc) → Buf (Elt F) ((c.tc : Thread nD τ).loc b))

/-- Window 2 is not written back where the second conditional fails. -/
theorem noFlush_2 (t : Fin (cfgA a).N) (h : t.val % 16 ≠ 15) : ((cfgA a).win 2).flush t = false :=
  Bool.eq_false_iff.mpr fun hf => h ((flush_2_iff a t).mp hf)

/-- The invariant at any point hands over the tables and the scratch at some contents. -/
theorem Phi_weaken (n : ℕ) (h : n ≤ (cfgA a).N) :
    Phi a c V n h ⊢ iprop(Pipeline.prefHeld pre0 c (fun _ => fullShare) (a 0).1 ∗ (∃ d, owns (c.tc : Thread nD τ) scM fullShare d)) := by
  cases n with
  | zero => exact .rfl
  | succ n =>
    rw [Phi_succ]
    iintro ⟨Hp, Hs⟩
    isplitl [Hp]; · iexact Hp
    iexists _; iexact Hs

/-- What the body is called with at point `t`, the windows one by one, -/
def bodyPre (t : Fin (cfgA a).N) : sProp 𝕄 :=
  iprop((dat a c V).Φ t.castSucc ∗ (dat a c V).owesAt () t.castSucc
    ∗ (∃ d, owns (c : Thread nD τ) (ms0 a t) fullShare ((dat a c V).before 0 t d))
    ∗ (∃ d, owns (c : Thread nD τ) (ms1 a t) fullShare ((dat a c V).before 1 t d))
    ∗ (∃ d, owns (c : Thread nD τ) (ms2 a t) fullShare ((dat a c V).before 2 t d)))

/-- and what it returns. -/
def bodyPost (t : Fin (cfgA a).N) : sProp 𝕄 :=
  iprop((dat a c V).Φ t.succ ∗ (dat a c V).owesAt () t.succ
    ∗ (dat a c V).leavesExact 0 t
    ∗ (dat a c V).leavesExact 1 t
    ∗ (dat a c V).leavesExact 2 t)

set_option maxHeartbeats 1600000 in
/-- The body at any point. -/
theorem sound_body (t : Fin (cfgA a).N) :
    bodyPre a c V t ⊢ wp frame (wpE (defs₀ (F := F)) Variants.none c none) Set.univ (bodyAt a t) (fun _ => bodyPost a c V t) := by
  unfold bodyPre bodyPost
  simp only [before_0, before_1]
  rw [show (dat a c V).owesAt () t.succ = (dat a c V).owesAt () t.castSucc from rfl]
  rw [show (dat a c V).Φ t.succ = Phi a c V (t.val + 1) t.isLt from rfl, Phi_succ, Phi_castSucc]
  rw [show (dat a c V).leavesExact 0 t = owns (c : Thread nD τ) (ms0 a t) fullShare ((dat a c V).after 0 t) from by
    unfold Dat.leavesExact; rw [live_0 a t]; rfl, after_0]
  rw [show (dat a c V).leavesExact 1 t = owns (c : Thread nD τ) (ms1 a t) fullShare ((dat a c V).after 1 t) from by
    unfold Dat.leavesExact; rw [live_1 a t]; rfl, after_1]
  have hN : t.val < 48 := lt_of_lt_of_eq t.isLt (N_cfgA a)
  by_cases h0 : t.val % 16 = 0
  · -- first point of a pair
    have hc1 : cond1 (grid0.coords t) := (hcond1 t).mpr h0
    have hc2 : ¬cond2 (grid0.coords t) := fun h => by have := (hcond2 t).mp h; omega
    rw [Dat.leavesExact_idle (dat a c V) 2 t (idle_2_of_not a t hc2) (noFlush_2 a t (by omega))]
    rw [accAt_first a c V t h0]
    refine (sep_mono (Phi_weaken a c V _ _) .rfl).trans ?_
    iintro ⟨⟨Hp, HS⟩, Ho, ⟨%d0, H0⟩, ⟨%d1, H1⟩, ⟨%d2, H2⟩⟩
    iapply (run_A c (grid0.coords t) _ (hs0 a t) _ (hs1 a t) _ (hs2 a t) hc1 hc2 (blkA a c V t) (blkB a c V t) Set.univ _)
    isplitl [H0]; · iexact H0
    isplitl [H1]; · iexact H1
    isplitl [HS]; · iexact HS
    iintro ⟨H0, H1, HS⟩
    isplitl [Hp HS]
    · isplitl [Hp]; · iexact Hp
      iexact HS
    isplitl [Ho]; · iexact Ho
    isplitl [H0]; · iexact H0
    isplitl [H1]; · iexact H1
    iexists _; iexact H2
  · have hz : t.val ≠ 0 := fun h => h0 (by rw [h])
    have hc1 : ¬cond1 (grid0.coords t) := fun h => h0 ((hcond1 t).mp h)
    rw [Phi_pos a c V _ _ hz, accAt_next a c V t h0]
    by_cases h15 : t.val % 16 = 15
    · -- last point of a pair
      have hc2 : cond2 (grid0.coords t) := (hcond2 t).mpr h15
      rw [show (dat a c V).leavesExact 2 t = owns (c : Thread nD τ) (ms2 a t) fullShare ((dat a c V).after 2 t) from by
        unfold Dat.leavesExact; rw [live_2_of a t hc2]; rfl, after_2, accAt_next a c V t h0]
      iintro ⟨⟨Hp, HS⟩, Ho, ⟨%d0, H0⟩, ⟨%d1, H1⟩, ⟨%d2, H2⟩⟩
      iapply (run_C c (grid0.coords t) _ (hs0 a t) _ (hs1 a t) _ (hs2 a t) hc1 hc2 (blkA a c V t) (blkB a c V t) _ Set.univ _)
      isplitl [H0]; · iexact H0
      isplitl [H1]; · iexact H1
      isplitl [H2]; · iexists _; iexact H2
      isplitl [HS]; · iexact HS
      iintro ⟨H0, H1, H2, HS⟩
      isplitl [Hp HS]
      · isplitl [Hp]; · iexact Hp
        iexact HS
      isplitl [Ho]; · iexact Ho
      isplitl [H0]; · iexact H0
      isplitl [H1]; · iexact H1
      iexact H2
    · -- a middle point
      have hc2 : ¬cond2 (grid0.coords t) := fun h => h15 ((hcond2 t).mp h)
      rw [Dat.leavesExact_idle (dat a c V) 2 t (idle_2_of_not a t hc2) (noFlush_2 a t h15)]
      iintro ⟨⟨Hp, HS⟩, Ho, ⟨%d0, H0⟩, ⟨%d1, H1⟩, ⟨%d2, H2⟩⟩
      iapply (run_B c (grid0.coords t) _ (hs0 a t) _ (hs1 a t) _ (hs2 a t) hc1 hc2 (blkA a c V t) (blkB a c V t) _ Set.univ _)
      isplitl [H0]; · iexact H0
      isplitl [H1]; · iexact H1
      isplitl [HS]; · iexact HS
      iintro ⟨H0, H1, HS⟩
      isplitl [Hp HS]
      · isplitl [Hp]; · iexact Hp
        iexact HS
      isplitl [Ho]; · iexact Ho
      isplitl [H0]; · iexact H0
      isplitl [H1]; · iexact H1
      iexists _; iexact H2

/-- The library's body obligation, at every point, -/
theorem body_exact : BodyObligation (dat a c V) (defs₀ (F := F)) Variants.none () Set.univ := fun t => by
  rw [bigSep_W0, bigSep_W0]
  exact sound_body a c V t

/-- and in the form the launch takes. -/
theorem body : Pipeline.BodyObligationLoose (dat a c V) (defs₀ (F := F)) Variants.none () Set.univ :=
  (body_exact a c V).loose

end Body

end Cert.KernelIdeal.Hand

end
-- ==== Proof.Spec.lean ====
/-
  The two quantities this certificate compares, as closed formulas over the extended reals.

  For matrices `a, b` with 4096 rows of length 1024 let
    rowSq a i   = Σₖ a(i,k)²,
    rowDot a b i j = Σₖ a(i,k)·b(j,k),
    sqDist a b i j = max (rowSq a i + rowSq b j − 2·rowDot a b i j) 0   (the squared distance of row i of a and row j of b),
  and let the Gaussian kernel of bandwidth 1 be read in the two spellings the programs use:
    kerK = exp (sqDist · (−1/2))        refK = exp ((−sqDist) / 2).
  The squared maximum mean discrepancy of the samples x and y is
    ((Sxx − Txx)/(n(n−1)) + (Syy − Tyy)/(n(n−1))) − 2·Sxy/n²        (n = 4096)
  with S the sum of all kernel values of a pair and T the sum of the diagonal ones. One program takes T to be the
  number n itself (every diagonal value is exp 0 = 1); the other sums the diagonal of its kernel matrix.
  The float literals stay as the words the programs carry: 2, −1/2, 0, 4096, 4096·4095 and 4096².
-/
import Idealize.ShloMosaic.PureOps.Ideal
import Idealize.ShloMosaic.PureOps.Ideal.Laws
import Idealize.ShloMosaic.Lib.ValueIdx

noncomputable section

namespace Cert.Mmd

open Idealize.ShloMosaic Idealize.ShloMosaic.ValueIdx

/-- A sample: 4096 points of dimension 1024, entries extended reals. -/
abbrev Mat : Type := (⟨2, ![4096, 1024]⟩ : Shape).Idx → EReal

/-- The literal words of the programs. -/
def w2 : EReal := Ideal.ofBits .f32 0x40000000#32
def wNegHalf : EReal := Ideal.ofBits .f32 0xBF000000#32
def w0 : EReal := Ideal.ofBits .f32 0x00000000#32
def wN : EReal := Ideal.ofBits .f32 0x45800000#32
def wD1 : EReal := Ideal.ofBits .f32 0x4B7FF000#32
def wD2 : EReal := Ideal.ofBits .f32 0x4B800000#32

/-- The squared norm of row `i`. -/
def rowSq (a : Mat) (i : Fin 4096) : EReal := ∑ k : Fin 1024, a (ix2 i k) * a (ix2 i k)

/-- The inner product of row `i` of `a` and row `j` of `b`. -/
def rowDot (a b : Mat) (i j : Fin 4096) : EReal := ∑ k : Fin 1024, a (ix2 i k) * b (ix2 j k)

/-- The squared distance of the two rows through the Gram matrix, cut at zero. -/
def sqDist (a b : Mat) (i j : Fin 4096) : EReal := max (rowSq a i + rowSq b j - w2 * rowDot a b i j) w0

/-- The kernel value as the product with −1/2 spells it. -/
def kerK (a b : Mat) (i j : Fin 4096) : EReal := Ideal.exp (sqDist a b i j * wNegHalf)

/-- The kernel value as the negation and the quotient by 2 spell it. -/
def refK (a b : Mat) (i j : Fin 4096) : EReal := Ideal.exp (Ideal.div (-(sqDist a b i j)) w2)

/-- The sums of all kernel values of a pair of samples, and of the diagonal ones. -/
def kerSum (a b : Mat) : EReal := ∑ i : Fin 4096, ∑ j : Fin 4096, kerK a b i j
def refSum (a b : Mat) : EReal := ∑ i : Fin 4096, ∑ j : Fin 4096, refK a b i j
def refTrace (a : Mat) : EReal := ∑ i : Fin 4096, refK a a i i

/-- The estimator from the three sums and the two diagonal terms. -/
def tail (sxx txx syy tyy sxy : EReal) : EReal :=
  (Ideal.div (sxx - txx) wD1 + Ideal.div (syy - tyy) wD1) - Ideal.div (w2 * sxy) wD2

/-- The estimator with the diagonal terms taken to be the number of points. -/
def kerVal (x y : Mat) : EReal := tail (kerSum x x) wN (kerSum y y) wN (kerSum x y)

/-- The estimator with the diagonal terms summed. -/
def refVal (x y : Mat) : EReal := tail (refSum x x) (refTrace x) (refSum y y) (refTrace y) (refSum x y)

end Cert.Mmd

end
-- ==== Proof.KTail.lean ====
/-
  The last host arithmetic of the kernel's program as one function of the [3, 8, 128] array of block sums.

  The program reads the entries (0, 0, 0), (1, 0, 0) and (2, 0, 0) — the three sums of kernel values — as scalars,
  subtracts the number of points 4096 from the first two, divides each by 4096·4095, adds them, and subtracts 2 times
  the third divided by 4096². At the exact (extended-real) instance this is the specification's estimator with the
  diagonal terms taken to be the number of points.
-/
import proofs.«148633_j32633161515875_1_alg».proof.Proof.Gen.KernelIdeal.Launch
import proofs.«148633_j32633161515875_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Hand

open Idealize.ShloMosaic Idealize.ShloMosaic.ValueIdx Cert.KernelIdeal Cert.KernelIdeal.Facts₀

/-- The host operations after the kernel, composed: from the array of the three sums to the estimator. -/
def hostTail {F : FTy → Type} [FloatOps F] (o : FVec F S3x8x128 .f32) : FVec F S_ .f32 :=
  subf
    (addf
      (Host.divf
        (subf (shapeCast S_ ((extractStridedSlice S1x1x1 ![0, 0, 0] · slices_S3x8x128_S1x1x1_0_0_0) o) shapeCasts_S1x1x1_S_)
          (constant S_ .f32 0x45800000#32))
        (constant S_ .f32 0x4B7FF000#32))
      (Host.divf
        (subf (shapeCast S_ ((extractStridedSlice S1x1x1 ![1, 0, 0] · slices_S3x8x128_S1x1x1_1_0_0) o) shapeCasts_S1x1x1_S_)
          (constant S_ .f32 0x45800000#32))
        (constant S_ .f32 0x4B7FF000#32)))
    (Host.divf
      (mulf (constant S_ .f32 0x40000000#32)
        (shapeCast S_ ((extractStridedSlice S1x1x1 ![2, 0, 0] · slices_S3x8x128_S1x1x1_2_0_0) o) shapeCasts_S1x1x1_S_))
      (constant S_ .f32 0x4B800000#32))

/-- The one entry of a [1, 1, 1] corner cut at (h, 0, 0), read as a scalar: the array's entry (h, 0, 0). -/
theorem corner_apply {α : Type} (o : S3x8x128.Idx → α) (h : Fin 3) (hs : S3x8x128.Slices ![h.val, 0, 0] S1x1x1)
    (hc : S1x1x1.ShapeCasts S_) :
    shapeCast S_ (extractStridedSlice S1x1x1 ![h.val, 0, 0] o hs) hc ValueIdx.ix0 = o (ix3 h (0 : Fin 8) (0 : Fin 128)) := by
  refine (shapeCast_apply _ hc ValueIdx.ix0 (ix3 (0 : Fin 1) (0 : Fin 1) (0 : Fin 1)) rfl).trans ?_
  refine extractStridedSlice_apply _ o hs _ _ fun ax => ?_
  match ax with
  | ⟨0, _⟩ => rfl
  | ⟨1, _⟩ => rfl
  | ⟨2, _⟩ => rfl

/-- At the exact instance the tail is the specification's estimator of the three sums, the diagonal terms being the
    word of 4096. -/
theorem hostTail_apply (o : FVec Ideal S3x8x128 .f32) :
    hostTail o ValueIdx.ix0
      = Cert.Mmd.tail (o (ix3 (0 : Fin 3) (0 : Fin 8) (0 : Fin 128))) Cert.Mmd.wN (o (ix3 (1 : Fin 3) (0 : Fin 8) (0 : Fin 128)))
          Cert.Mmd.wN (o (ix3 (2 : Fin 3) (0 : Fin 8) (0 : Fin 128))) := by
  unfold hostTail Cert.Mmd.tail
  show Ideal.div (_ - Cert.Mmd.wN) Cert.Mmd.wD1 + Ideal.div (_ - Cert.Mmd.wN) Cert.Mmd.wD1 - Ideal.div (Cert.Mmd.w2 * _) Cert.Mmd.wD2 = _
  refine congrArg₂ (· - ·) (congrArg₂ (· + ·) (congrArg₂ Ideal.div (congrArg₂ (· - ·) ?_ rfl) rfl)
    (congrArg₂ Ideal.div (congrArg₂ (· - ·) ?_ rfl) rfl)) (congrArg₂ Ideal.div (congrArg₂ (· * ·) rfl ?_) rfl)
  · exact corner_apply o (0 : Fin 3) _ _
  · exact corner_apply o (1 : Fin 3) _ _
  · exact corner_apply o (2 : Fin 3) _ _

end Cert.KernelIdeal.Hand

end
-- ==== Proof.KRun.lean ====
/-
  The kernel's run: from any memory with zero counters every weakly fair execution of @main terminates, the scalar
  result is the tail — the twenty host operations composed — of the result array the region leaves, and both
  arguments end as launched.

  @main is the list of three segments of the launch module (five host operations, the region, twenty host
  operations); the last thread state holds every unscoped buffer at the contents after the twenty operations, and is
  read against the final memory at the scalar result and at the two arguments.
-/
import proofs.«148633_j32633161515875_1_alg».proof.Proof.KLaunch
import proofs.«148633_j32633161515875_1_alg».proof.Proof.KBody
import proofs.«148633_j32633161515875_1_alg».proof.Proof.KTail

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run -/

/-- An unscoped TensorCore reference is among the buffers the host operations run within. -/
theorem mem_uc (b : Ref sig .tc) (h : (Proc.devRef (τ := τ) .tc b).isScoped = false) : Proc.devRef .tc b ∈ Pipeline.ucRefs τ sig :=
  Finset.mem_filter.mpr ⟨StableHlo.devRef_mem_tcRefs b, by rw [h]; exact Bool.false_ne_true⟩

/-- The scalar result after the twenty operations behind the region, from any contents: the tail of the result array. -/
theorem tail_eq (W : Valuation τ sig (Elt F)) :
    StableHlo.after hostOps1 W (Proc.devRef .tc main_v17) = hostTail (W (Proc.devRef .tc main_v3)) := by
  after_results
  rfl

/-- None of them writes an argument. -/
theorem after1_arg0 (W : Valuation τ sig (Elt F)) : StableHlo.after hostOps1 W (Proc.devRef .tc main_arg0) = W (Proc.devRef .tc main_arg0) := by
  after_results
theorem after1_arg1 (W : Valuation τ sig (Elt F)) : StableHlo.after hostOps1 W (Proc.devRef .tc main_arg1) = W (Proc.devRef .tc main_arg1) := by
  after_results

/-- @main as the list of its three segments. -/
abbrev segs (hb : ∀ c, Pipeline.BodyObligationLoose (dats m 0 c) (defs₀ (F := F)) 𝒱₀ () Set.univ) :
    List (Pipeline.Seg (pcfgs (F := F)) adm (dats m) () defs₀ 𝒱₀ L lv) := [.host (seg0 m), .region (reg0 m hb), .host (seg1 m)]

set_option backward.isDefEq.respectTransparency.types false in
/-- At the compiled mesh, from any memory with zero counters: every weakly fair execution of @main on the TensorCores
    terminates, and every final state has the scalar result at the tail of what the region computed and both
    arguments unchanged. -/
theorem run_main_of (hb : ∀ c, Pipeline.BodyObligationLoose (dats m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v17) = hostTail (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () (cellOf_inj adm) EP defs₀ 𝒱₀ L lv m ρ main (segs m hb)
    (fun c Q => by rw [main_segs adm (dats m) () 𝒱₀ L lv (seg0 m) (seg1 m) (reg0 m hb) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v17) = hostTail (out m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (StableHlo.after hostOps1 (W₁ m c)) s') $$ [Hh HSI]
      · isplitl [Hh]; · iexact Hh
        iexact HSI
      icases Hr with ⟨%hr, HSI⟩
      imodintro
      isplitr
      · ipureintro
        refine ⟨(hr _ (mem_uc main_v17 rfl)).trans ?_, (hr _ (mem_uc main_arg0 rfl)).trans ?_, (hr _ (mem_uc main_arg1 rfl)).trans ?_⟩
        · rw [tail_eq, W₁_v3]
        · rw [after1_arg0, W₁_ne m c (b := main_arg0) (by decide)]; exact V_arg0 m c
        · rw [after1_arg1, W₁_ne m c (b := main_arg1) (by decide)]; exact V_arg1 m c
      iexact HSI)
    (hQ := fun _ h => h)

/-- The run, with the body obligation of the body module. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v17) = hostTail ((dat adm c (V m c)).arrAt 2 48)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m (fun c => body adm c (V m c)) ρ

/-- info: 'Cert.KernelIdeal.Hand.run_main' depends on axioms: [propext, Classical.choice, Quot.sound] -/
#guard_msgs in #print axioms run_main

end Cert.KernelIdeal.Hand

end
-- ==== Proof.KBAdm.lean ====
/-
  The contents of the two index tables of the kernel's launch, and that they are admissible.

  The launch reads two tables of three words each, one per pair of samples: which half of the stacked array the
  rows come from (table 0) and which half the columns come from (table 1). Both are literal: [0, 1, 0] and
  [0, 1, 1]. The side condition of the launch asks that at each of the 48 grid points both blocks lie inside the
  stacked array [2, 4096, 1024]: the leading block index is a table word, so it has to be below 2; the row block
  index is a grid coordinate below 4; the last is 0. It is proved for ANY contents whose words are below 2, and
  then read at the literals.
-/
import proofs.«148633_j32633161515875_1_alg».proof.Proof.Gen.Kernel.Launch
import Idealize.ShloMosaic.Lib.ValueIdx

noncomputable section

namespace Cert.Kernel.Hand

open Cert.Kernel Cert.Kernel.Gen
open Idealize.ShloMosaic Idealize.ShloMosaic.ValueIdx
open Facts₀ Facts

variable {F : FTy → Type} [FloatOps F]

/-- Contents of the two tables whose every word is below 2 pass the side condition. -/
theorem ok_of_lt (pf : pre0.Contents (Elt F)) (h0 : ∀ x, (pf 0 x).toNat < 2) (h1 : ∀ x, (pf 1 x).toNat < 2) : ok0 (F := F) pf := by
  unfold ok0
  refine ⟨fun i => ⟨?_, Or.inl rfl⟩, fun i => ⟨?_, Or.inl rfl⟩⟩
  · intro a
    have hi : (i 1).val < 4 := (i 1).isLt
    fin_cases a
    · show ((pf.at 0 _ _).toNat + 1) * 1 ≤ 2
      exact (Nat.mul_one _).le.trans (Nat.succ_le_of_lt (h0 _))
    · show ((BitVec.ofNat 32 (i 1).val).toNat + 1) * 1024 ≤ 4096
      rw [BitVec.toNat_ofNat, Nat.mod_eq_of_lt (by omega)]; omega
    · show ((0#32 : BitVec 32).toNat + 1) * 1024 ≤ 1024
      decide
  · intro a
    have hi : (i 2).val < 4 := (i 2).isLt
    fin_cases a
    · show ((pf.at 1 _ _).toNat + 1) * 1 ≤ 2
      exact (Nat.mul_one _).le.trans (Nat.succ_le_of_lt (h1 _))
    · show ((BitVec.ofNat 32 (i 2).val).toNat + 1) * 1024 ≤ 4096
      rw [BitVec.toNat_ofNat, Nat.mod_eq_of_lt (by omega)]; omega
    · show ((0#32 : BitVec 32).toNat + 1) * 1024 ≤ 1024
      decide

/-- The tables' contents: the two literal tables, as the buffers hold them. -/
def tbl : pre0.Contents (Elt F) := fun k => match k with
  | ⟨0, _⟩ => fun i => lit0 (S3.rowMajor i)
  | ⟨1, _⟩ => fun i => lit1 (S3.rowMajor i)

theorem lit0_lt : ∀ j : Fin 3, (lit0 j).toNat < 2 := by decide
theorem lit1_lt : ∀ j : Fin 3, (lit1 j).toNat < 2 := by decide

/-- The admissible contents of the tables: the literals, the same on every run. -/
def adm : (p : Fin 1) → (pcfgs (F := F) p).Adm := fun _ => ⟨tbl, ok_of_lt tbl (fun _ => lit0_lt _) (fun _ => lit1_lt _)⟩

theorem adm_tbl (p : Fin 1) : (adm (F := F) p).1 = tbl := rfl

/-- Word `p` of table 0 and of table 1. -/
theorem rowMajor_ix1 (p : Fin 3) : S3.rowMajor (ix1 p) = p := by fin_cases p <;> rfl
theorem adm_zero (p : Fin 3) : (adm (F := F) 0).1 0 (ix1 p) = lit0 p := congrArg lit0 (rowMajor_ix1 p)
theorem adm_one (p : Fin 3) : (adm (F := F) 0).1 1 (ix1 p) = lit1 p := congrArg lit1 (rowMajor_ix1 p)

/-- Which half each pair reads its rows and its columns from, as numbers. -/
theorem adm_zero_toNat : ∀ p : Fin 3, ((adm (F := F) 0).1 0 (ix1 p)).toNat = (![0, 1, 0] : Fin 3 → Nat) p := fun p => by
  rw [adm_zero]; revert p; decide
theorem adm_one_toNat : ∀ p : Fin 3, ((adm (F := F) 0).1 1 (ix1 p)).toNat = (![0, 1, 1] : Fin 3 → Nat) p := fun p => by
  rw [adm_one]; revert p; decide

end Cert.Kernel.Hand

end
-- ==== Proof.KBData.lean ====
/-
  The proof data of the one pipelined launch, over any admissible contents `a` of the two prefetched
  tables and any contents `V` of the core's buffers at the region's entry.

  The grid is (3, 4, 4), point t = 16·p + 4·i + j. Windows 0 and 1 read blocks of the same stacked array
  (rows 1024·i … of half `table₀[p]`, rows 1024·j … of half `table₁[p]`); window 2 writes block p of the
  result. A scratch tile is carried from point to point: at the first point of a pair (i = j = 0) it is
  reset, every point adds its tile's sum to it, and at the last point of a pair (i = j = 3) it is copied
  into window 2's staging tile, which the pipeline then writes back.

  `acc p n` is the scratch after the first n points of pair p; `accAt t` the scratch after point t.
-/
import proofs.«148633_j32633161515875_1_alg».proof.Proof.Gen.Kernel.Launch
import proofs.«148633_j32633161515875_1_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline at the tables' contents `a`. -/
abbrev cfgA (a : (p : Fin 1) → (pcfgs (F := F) p).Adm) : Cfg sig Λ₀ := Pipeline.pin (pcfgs (F := F)) a 0

/-- It has 48 points. -/
theorem N_cfgA (a : (p : Fin 1) → (pcfgs (F := F) p).Adm) : (cfgA a).N = 48 := N_0

/-- The scratch tile, as the memref the body is handed. -/
abbrev scM : Memref sig .tc .vmem S8x128 .f32 := Memref.whole cc0_scratch0

section Data

variable (a : (p : Fin 1) → (pcfgs (F := F) p).Adm) (c : Dev nD)
  (V : (b : Ref sig .tc) → Buf (Elt F) ((c.tc : Thread nD τ).loc b))

/-- Window `w`'s block at point `t`, read off its array as the region finds it. -/
def iblk (w : Fin (cfgA a).W) (t : Fin (cfgA a).N) :
    (((cfgA a).win w).xblock ((cfgA a).grid.coords t)).Idx → Elt F ((cfgA a).win w).elt :=
  (((cfgA a).win w).blk t).view.read (Elt F) (V (Pipeline.arrRef spec0 w))

/-- The two input tiles of point `t`. -/
def blkA (t : Fin (cfgA a).N) : Vec F S1x1024x1024 .f32 := iblk a c V 0 t
def blkB (t : Fin (cfgA a).N) : Vec F S1x1024x1024 .f32 := iblk a c V 1 t

/-- Point `n` (taken mod 16) of pair `p`. -/
def pt (p : Fin 3) (n : ℕ) : Fin (cfgA a).N := ⟨16 * p.val + n % 16, by have h := N_cfgA a; have := p.isLt; omega⟩

/-- The scratch after the first `n` points of pair `p`: zero, then one tile's sum more per point. -/
def acc (p : Fin 3) : ℕ → Vec F S8x128 .f32
  | 0 => k0_pay3
  | n + 1 => k0_pay1 (acc p n) (k0_pay4 (blkA a c V (pt a p n)) (blkB a c V (pt a p n)))

/-- The pair a point belongs to. -/
def pairOf (t : Fin (cfgA a).N) : Fin 3 := ⟨t.val / 16, by have h := N_cfgA a; have := t.isLt; omega⟩

/-- The scratch after point `t`. -/
def accAt (t : Fin (cfgA a).N) : Vec F S8x128 .f32 := acc a c V (pairOf a t) (t.val % 16 + 1)

theorem pt_pairOf (t : Fin (cfgA a).N) : pt a (pairOf a t) (t.val % 16) = t := by
  apply Fin.ext; show 16 * (t.val / 16) + t.val % 16 % 16 = t.val; omega

/-- At the first point of a pair the scratch ends at zero plus the tile's sum. -/
theorem accAt_first (t : Fin (cfgA a).N) (h : t.val % 16 = 0) :
    accAt a c V t = k0_pay1 (k0_pay3 (F := F)) (k0_pay4 (blkA a c V t) (blkB a c V t)) := by
  unfold accAt; rw [h]
  show k0_pay1 (acc a c V (pairOf a t) 0) (k0_pay4 (blkA a c V (pt a (pairOf a t) 0)) (blkB a c V (pt a (pairOf a t) 0))) = _
  have e : pt a (pairOf a t) 0 = t := by have := pt_pairOf a t; rwa [h] at this
  rw [e]; rfl

/-- At any other point it ends at what the point before left plus the tile's sum. -/
theorem accAt_next (t : Fin (cfgA a).N) (h : t.val % 16 ≠ 0) :
    accAt a c V t = k0_pay1 (accAt a c V ⟨t.val - 1, Nat.lt_of_le_of_lt (Nat.sub_le _ _) t.isLt⟩)
      (k0_pay4 (blkA a c V t) (blkB a c V t)) := by
  unfold accAt
  show k0_pay1 (acc a c V (pairOf a t) (t.val % 16)) (k0_pay4 (blkA a c V (pt a (pairOf a t) (t.val % 16))) (blkB a c V (pt a (pairOf a t) (t.val % 16)))) = _
  rw [pt_pairOf]
  have e1 : pairOf a ⟨t.val - 1, Nat.lt_of_le_of_lt (Nat.sub_le _ _) t.isLt⟩ = pairOf a t := by
    apply Fin.ext; show (t.val - 1) / 16 = t.val / 16; omega
  have e2 : (t.val - 1) % 16 + 1 = t.val % 16 := by omega
  show _ = k0_pay1 (acc a c V (pairOf a ⟨t.val - 1, _⟩) ((t.val - 1) % 16 + 1)) _
  rw [e1, e2]

/-- The body's invariant between points: the two tables held whole at `a`'s contents, and the scratch tile —
    before the first point at anything, afterwards at what the point before left. -/
def Phi : (n : ℕ) → n ≤ (cfgA a).N → sProp 𝕄
  | 0, _ => iprop(Pipeline.prefHeld pre0 c (fun _ => fullShare) (a 0).1 ∗ (∃ d, owns (c.tc : Thread nD τ) scM fullShare d))
  | n + 1, hn => iprop(Pipeline.prefHeld pre0 c (fun _ => fullShare) (a 0).1 ∗ owns (c.tc : Thread nD τ) scM fullShare (accAt a c V ⟨n, hn⟩))

/-- The proof data: the arrays as the region finds them; the stacked array's ownership halved between the two
    windows that read it; after the body each input tile as fetched, the output tile at the scratch's copy;
    nothing owed. -/
def dat : Dat τ (Elt F) Unit ℕ (UR sig nD τ) ℕ (cfgA a) c where
  A w := V (Pipeline.arrRef spec0 w)
  after w t := match w with
    | ⟨0, _⟩ => iblk a c V 0 t
    | ⟨1, _⟩ => iblk a c V 1 t
    | ⟨2, _⟩ => k0_pay2 (accAt a c V t)
  Φ t := Phi a c V t.val (Nat.le_of_lt_succ t.isLt)
  q w := match w with
    | ⟨0, _⟩ => fullShare.left
    | ⟨1, _⟩ => fullShare.right
    | ⟨2, _⟩ => fullShare
  owed _ := 0

end Data

section Facts

variable (a : (p : Fin 1) → (pcfgs (F := F) p).Adm) (c : Dev nD)
  (V : (b : Ref sig .tc) → Buf (Elt F) ((c.tc : Thread nD τ).loc b))

/-- The proof data's arrays are the region-entry contents. -/
theorem A_eq (w : Fin (cfgA a).W) : (dat a c V).A w = V (Pipeline.arrRef spec0 w) := by
  dsimp only [dat]

/-- What the body leaves, window by window. -/
theorem after_0 (t : Fin (cfgA a).N) : (dat a c V).after 0 t = iblk a c V 0 t := by dsimp only [dat]; rfl
theorem after_1 (t : Fin (cfgA a).N) : (dat a c V).after 1 t = iblk a c V 1 t := by dsimp only [dat]; rfl
theorem after_2 (t : Fin (cfgA a).N) : (dat a c V).after 2 t = k0_pay2 (accAt a c V t) := by dsimp only [dat]; rfl

/-- The shares: the stacked array's full ownership is split between the two windows that read it. -/
theorem q_0 : (dat a c V).q 0 = fullShare.left := by dsimp only [dat]; rfl
theorem q_1 : (dat a c V).q 1 = fullShare.right := by dsimp only [dat]; rfl
theorem q_2 : (dat a c V).q 2 = fullShare := by dsimp only [dat]; rfl
theorem share_0 : (dat a c V).share 0 = fullShare.left := by unfold Dat.share; rw [q_0]; rfl
theorem share_1 : (dat a c V).share 1 = fullShare.right := by unfold Dat.share; rw [q_1]; rfl
theorem share_2 : (dat a c V).share 2 = fullShare := by unfold Dat.share; rfl
theorem owed_eq (t : Fin ((cfgA a).N + 1)) : (dat a c V).owed t = 0 := by dsimp only [dat]

/-- The invariant, restated at a natural number. -/
theorem Phi_eq (t : Fin ((cfgA a).N + 1)) : (dat a c V).Φ t = Phi a c V t.val (Nat.le_of_lt_succ t.isLt) := by
  dsimp only [dat]

theorem Phi_castSucc (t : Fin (cfgA a).N) : (dat a c V).Φ t.castSucc = Phi a c V t.val (Nat.le_of_lt t.isLt) := by
  dsimp only [dat]; simp only [Fin.coe_castSucc]

theorem Phi_zero (n : ℕ) (h : n ≤ (cfgA a).N) (hz : n = 0) :
    Phi a c V n h = iprop(Pipeline.prefHeld pre0 c (fun _ => fullShare) (a 0).1 ∗ (∃ d, owns (c.tc : Thread nD τ) scM fullShare d)) := by
  subst hz; rfl

theorem Phi_succ (n : ℕ) (hn : n < (cfgA a).N) :
    Phi a c V (n + 1) hn = iprop(Pipeline.prefHeld pre0 c (fun _ => fullShare) (a 0).1 ∗ owns (c.tc : Thread nD τ) scM fullShare (accAt a c V ⟨n, hn⟩)) := rfl

theorem Phi_pos (n : ℕ) (h : n ≤ (cfgA a).N) (hz : n ≠ 0) :
    Phi a c V n h = iprop(Pipeline.prefHeld pre0 c (fun _ => fullShare) (a 0).1
      ∗ owns (c.tc : Thread nD τ) scM fullShare (accAt a c V ⟨n - 1, by omega⟩)) := by
  cases n with
  | zero => exact absurd rfl hz
  | succ n => rfl

/-- Before the first point: the tables and the scratch at anything. -/
theorem Phi_first : (dat a c V).Φ 0
    = iprop(Pipeline.prefHeld pre0 c (fun _ => fullShare) (a 0).1 ∗ (∃ d, owns (c.tc : Thread nD τ) scM fullShare d)) := by
  rw [Phi_eq]; exact Phi_zero a c V _ _ rfl

/-- After the last point: the tables and the scratch at what point 47 left. -/
theorem Phi_last : (dat a c V).Φ (Fin.last (cfgA a).N)
    = iprop(Pipeline.prefHeld pre0 c (fun _ => fullShare) (a 0).1
      ∗ owns (c.tc : Thread nD τ) scM fullShare (accAt a c V ⟨(cfgA a).N - 1, by have := N_cfgA a; omega⟩)) := by
  rw [Phi_eq]; exact Phi_pos a c V _ _ (by rw [Fin.val_last]; have := N_cfgA a; omega)

/-- Each input window's current staging tile holds its block at every point, fetched there or not: an input
    not fetched at a point has the block index of the point before, and the body leaves the tile as it was. -/
theorem before_0 (t : Fin (cfgA a).N) (d) : (dat a c V).before 0 t d = iblk a c V 0 t :=
  ((dat a c V).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)

theorem before_1 (t : Fin (cfgA a).N) (d) : (dat a c V).before 1 t d = iblk a c V 1 t :=
  ((dat a c V).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)

end Facts

end Cert.Kernel.Hand

end
-- ==== Proof.KBStack.lean ====
/-
  The two samples stacked into one [2, 4096, 1024] array, read at an index, at any element type.

  Each [4096, 1024] sample is given a leading unit axis and the two are joined along it: the stacked array at (0, r, k)
  is the first sample at (r, k), and at (1, r, k) the second.
-/
import proofs.«148633_j32633161515875_1_alg».proof.Kernel
import Idealize.ShloMosaic.Lib.ValueIdx
import Idealize.ShloMosaic.Lib.Pipeline.Value

noncomputable section

namespace Cert.Kernel.Hand

open Idealize.ShloMosaic Idealize.ShloMosaic.ValueIdx Cert.Kernel

variable {α : Type}

/-- A [4096, 1024] array with a leading unit axis added reads, at (0, r, k), the array at (r, k). -/
theorem lead_apply (a : S4096x1024.Idx → α)
    (hb : S4096x1024.BroadcastsInDim S1x4096x1024 (![1, 2] : Fin 2 → Fin S1x4096x1024.rank)) (u : Fin 1) (r : Fin 4096) (k : Fin 1024) :
    broadcastInDim S1x4096x1024 ![1, 2] hb a (ix3 u r k) = a (ix2 r k) :=
  broadcastInDim_apply _ hb a (ix3 u r k) (ix2 r k) fun ax => by
    match ax with
    | ⟨0, _⟩ => rfl
    | ⟨1, _⟩ => rfl

/-- The stacked array at (0, r, k) is the first sample at (r, k). -/
theorem stack_apply_zero (a b : S4096x1024.Idx → α)
    (hb : S4096x1024.BroadcastsInDim S1x4096x1024 (![1, 2] : Fin 2 → Fin S1x4096x1024.rank))
    (hc : Shape.Concatenates [S1x4096x1024, S1x4096x1024] S2x4096x1024 0) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 (0 : Fin 2) r k)
      = a (ix2 r k) :=
  (concatenate_pair_apply_left (0 : Fin S2x4096x1024.rank) _ _ hc (ix3 (0 : Fin 2) r k) rfl (ix3 (0 : Fin 1) r k) fun ax => by
    match ax with
    | ⟨0, _⟩ => rfl
    | ⟨1, _⟩ => rfl
    | ⟨2, _⟩ => rfl).trans (lead_apply a hb 0 r k)

/-- The stacked array at (1, r, k) is the second sample at (r, k). -/
theorem stack_apply_one (a b : S4096x1024.Idx → α)
    (hb : S4096x1024.BroadcastsInDim S1x4096x1024 (![1, 2] : Fin 2 → Fin S1x4096x1024.rank))
    (hc : Shape.Concatenates [S1x4096x1024, S1x4096x1024] S2x4096x1024 0) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 (1 : Fin 2) r k)
      = b (ix2 r k) :=
  (concatenate_pair_apply_right (0 : Fin S2x4096x1024.rank) _ _ hc (ix3 (1 : Fin 2) r k) rfl rfl (ix3 (0 : Fin 1) r k)
    (fun ax hax => by
      match ax with
      | ⟨0, _⟩ => exact absurd rfl hax
      | ⟨1, _⟩ => rfl
      | ⟨2, _⟩ => rfl)
    rfl).trans (lead_apply b hb 0 r k)

/-- The stacked array at (h, r, k): the first sample for h = 0, the second for h = 1. -/
theorem stack_apply (a b : S4096x1024.Idx → α)
    (hb : S4096x1024.BroadcastsInDim S1x4096x1024 (![1, 2] : Fin 2 → Fin S1x4096x1024.rank))
    (hc : Shape.Concatenates [S1x4096x1024, S1x4096x1024] S2x4096x1024 0) (h : Fin 2) (r : Fin 4096) (k : Fin 1024) :
    concatenate S2x4096x1024 0
        [⟨S1x4096x1024, broadcastInDim S1x4096x1024 ![1, 2] hb a⟩, ⟨S1x4096x1024, broadcastInDim S1x4096x1024 ![1, 2] hb b⟩] hc
        (ix3 h r k)
      = (if h = 0 then a else b) (ix2 r k) := by
  match h with
  | ⟨0, _⟩ => exact stack_apply_zero a b hb hc r k
  | ⟨1, _⟩ => exact stack_apply_one a b hb hc r k

end Cert.Kernel.Hand

end
-- ==== Proof.KBLaunch.lean ====
/-
  The launch side of the kernel's run: the host operations around the one pipelined region, and the region's
  entry and exit.

  @main is five host operations (the two literal index tables, the two samples given a leading unit axis, their
  concatenation into the stacked array [2, 4096, 1024]), the region, and twenty host operations that turn the
  region's result array [3, 8, 128] into the scalar estimator.

  Two of the region's three windows read blocks of the SAME stacked array, so at entry the array's ownership is
  divided between them, half each, and at exit the two halves — an input array is never written — make the whole
  again. The third window writes the result array, held whole. The two tables go to the pipeline whole and come
  back; every other buffer bypasses the region. After the region the buffers are the entry contents with the
  result array replaced by what the region computed (`W₁`), so the twenty operations run from one valuation.
-/
import proofs.«148633_j32633161515875_1_alg».proof.Proof.KBAdm
import proofs.«148633_j32633161515875_1_alg».proof.Proof.KBData
import proofs.«148633_j32633161515875_1_alg».proof.Proof.KBStack
import Idealize.ShloMosaic.Lib.Pipeline.Regions
import Idealize.ShloMosaic.Lib.Pipeline.Frame
import Idealize.ShloMosaic.Lib.Pipeline.Value

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The five host operations before the region -/

/-- Core `c`'s buffers at launch, as the operations' valuation; -/
abbrev V₀ (c : Dev nD) : Valuation τ sig (Elt F) := fun b => m (c, b)
/-- and when the region is entered: the five operations before it have run. -/
abbrev V (c : Dev nD) (b : Ref sig .tc) : Buf (Elt F) ((c : Thread nD τ).loc b) := StableHlo.after hostOps0 (V₀ m c) b

/-- The two tables hold their literals. -/
theorem V_c (c : Dev nD) : V m c main_c = fun i => lit0 (S3.rowMajor i) := by
  show StableHlo.after hostOps0 (V₀ m c) (Proc.devRef .tc main_c) = _
  after_results
  rfl

theorem V_c_0 (c : Dev nD) : V m c main_c_0 = fun i => lit1 (S3.rowMajor i) := by
  show StableHlo.after hostOps0 (V₀ m c) (Proc.devRef .tc main_c_0) = _
  after_results
  rfl

/-- The two samples stacked along a new leading axis. -/
def stacked (x y : (⟨S4096x1024, .f32⟩ : BufTy).Contents (Elt F)) : (⟨S2x4096x1024, .f32⟩ : BufTy).Contents (Elt F) :=
  concatenate S2x4096x1024 0 [⟨S1x4096x1024, broadcastInDim S1x4096x1024 ![1, 2] Facts₀.bcast_S4096x1024_S1x4096x1024_1_2 x⟩, ⟨S1x4096x1024, broadcastInDim S1x4096x1024 ![1, 2] Facts₀.bcast_S4096x1024_S1x4096x1024_1_2 y⟩] Facts₀.concatenates_S1x4096x1024_S1x4096x1024_S2x4096x1024_d0

/-- The stacked array at the region's entry is the two arguments stacked. -/
theorem V_v2 (c : Dev nD) : V m c main_v2 = stacked (m ((c : Thread nD τ).loc main_arg0)) (m ((c : Thread nD τ).loc main_arg1)) := by
  show StableHlo.after hostOps0 (V₀ m c) (Proc.devRef .tc main_v2) = _
  after_results
  rfl

/-- No operation before the region writes an argument. -/
theorem V_arg0 (c : Dev nD) : V m c main_arg0 = m ((c : Thread nD τ).loc main_arg0) := by
  show StableHlo.after hostOps0 (V₀ m c) (Proc.devRef .tc main_arg0) = _
  after_results

theorem V_arg1 (c : Dev nD) : V m c main_arg1 = m ((c : Thread nD τ).loc main_arg1) := by
  show StableHlo.after hostOps0 (V₀ m c) (Proc.devRef .tc main_arg1) = _
  after_results

/-- The tables at the region's entry are the admissible contents. -/
theorem V_tbl (c : Dev nD) : (fun k => V m c (pre0.ref k)) = (adm (F := F) 0).1 := by
  funext k
  match k with
  | ⟨0, _⟩ => exact V_c m c
  | ⟨1, _⟩ => exact V_c_0 m c

/-- The stacked array at (h, r, k) is argument h at (r, k). -/
theorem V_v2_apply (c : Dev nD) (h : Fin 2) (r : Fin 4096) (k : Fin 1024) :
    V m c main_v2 (ix3 h r k)
      = (if h = 0 then m ((c : Thread nD τ).loc main_arg0) else m ((c : Thread nD τ).loc main_arg1)) (ix2 r k) := by
  rw [V_v2]
  exact stack_apply _ _ _ _ h r k

/-! ## The launch's parameters -/

abbrev 𝒱₀ : Variants := Variants.none
/-- No core owes another anything: no level is assigned. -/
abbrev L : GSem nD τ sig → Finset Unit := fun _ => ∅
abbrev lv : GSem nD τ sig → Unit → ℕ := fun _ _ => 0
/-- The pipeline library's algebra is the whole user algebra. -/
abbrev EP : Emb (UR sig nD τ) 𝕄 := emb₁

/-- The proof data at the tables' literals and the entry contents. -/
abbrev dats (_ : Fin 1) (c : Dev nD) : Dat τ (Elt F) Unit ℕ (UR sig nD τ) ℕ (Pipeline.pin (pcfgs (F := F)) adm 0) c := dat adm c (V m c)

/-- What rides beside the buffers: the core owes nothing. -/
abbrev R (c : Dev nD) : sProp 𝕄 := iprop(∃ W, owes (c : Thread nD τ) (0 : CellTallies nD τ sig Unit) W)

/-- The result array as the region leaves it. -/
abbrev out (c : Dev nD) : Buf (Elt F) ((c : Thread nD τ).loc main_v3) := (dats m 0 c).arrAt 2 48

/-- The buffers after the region: the result array at what the region computed, every other as at entry. -/
abbrev W₁ (c : Dev nD) : Valuation τ sig (Elt F) :=
  (StableHlo.nullary main_v3 (out m c)).result (StableHlo.after hostOps0 (V₀ m c))

/-! ## The windows' arrays: one stacked array read by two windows, the result array -/

/-- The buffers behind the windows are the stacked array and the result array. -/
theorem arr_image : Finset.univ.image (Pipeline.arrRef spec0) = {main_v2, main_v3} := by decide

/-- The windows' arrays, at contents that agree on the shared array, are the stacked array whole and the result
    array: the two reading windows hold the two halves of the stacked array's ownership. -/
theorem arrays_iff (c : Dev nD) (G : (w : Fin (cfgA (F := F) adm).W) → Buf (Elt F) (((cfgA (F := F) adm).win w).arr.view.loc (c : Thread nD τ)))
    (X : Buf (Elt F) ((c : Thread nD τ).loc main_v3))
    (h0 : G 0 = V m c main_v2) (h1 : G 1 = V m c main_v2) (h2 : G 2 = X) :
    ((dats m 0 c).arrays G : sProp 𝕄)
      ⊣⊢ iprop((((c : Thread nD τ).loc main_v2) ↦{fullShare} V m c main_v2) ∗ (((c : Thread nD τ).loc main_v3) ↦{fullShare} X)) := by
  unfold Dat.arrays
  rw [bigSep_W0, (arr_whole0 0).set_eq_univ, (arr_whole0 2).set_eq_univ,
    share_0 adm c (V m c), share_1 adm c (V m c), share_2 adm c (V m c), h0, h1, h2]
  have hs : ((((c : Thread nD τ).loc main_v2) ↦{fullShare} V m c main_v2 : sProp 𝕄))
      ⊣⊢ iprop((((c : Thread nD τ).loc main_v2) ↦{fullShare.left} V m c main_v2) ∗ (((c : Thread nD τ).loc main_v2) ↦{fullShare.right} V m c main_v2)) :=
    pointsTo_share (PosShare.mem_left_op_right fullShare)
  constructor
  · iintro ⟨H0, H1, H2⟩
    isplitl [H0 H1]
    · iapply hs.2; isplitl [H0] <;> iassumption
    · iexact H2
  · iintro ⟨H, H2⟩
    ihave H' := hs.1 $$ H
    icases H' with ⟨H0, H1⟩
    isplitl [H0]; · iexact H0
    isplitl [H1] <;> iassumption

/-- The distinct buffers behind the windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v3) ↦{fullShare} W main_v3)) := by
  unfold Pipeline.arrBufs
  rw [arr_image, bigSep_insert (by decide), bigSep_singleton]
  rfl

/-- The value the region leaves in a buffer other than its result is the entry value; in its result, what it computed. -/
theorem W₁_ne (c : Dev nD) {b : Ref sig .tc} (h : b ≠ main_v3) : W₁ m c (Proc.devRef .tc b) = V m c b :=
  StableHlo.nullary_result_ne main_v3 _ _ _ h
theorem W₁_v3 (c : Dev nD) : W₁ m c (Proc.devRef .tc main_v3) = out m c :=
  StableHlo.nullary_result main_v3 _ _ _

theorem W₁_tbl (c : Dev nD) : (fun k => W₁ m c (Proc.devRef .tc (pre0.ref k))) = (adm (F := F) 0).1 := by
  funext k
  match k with
  | ⟨0, _⟩ => exact (W₁_ne m c (b := main_c) (by decide)).trans (V_c m c)
  | ⟨1, _⟩ => exact (W₁_ne m c (b := main_c_0) (by decide)).trans (V_c_0 m c)

/-- The buffers the region does not touch, after it as before it. -/
theorem restP_W₁ (c : Dev nD) :
    (Pipeline.unscopedRestP (Ix := Unit) (Name := ℕ) (U := UR sig nD τ) (Lvl := ℕ) pre0 spec0 c (fun b => W₁ m c (Proc.devRef .tc b)) : sProp 𝕄)
      = Pipeline.unscopedRestP pre0 spec0 c (V m c) := by
  unfold Pipeline.unscopedRestP
  refine bigSep_congr fun b hb => ?_
  have hne : b ≠ main_v3 := fun e => by
    subst e
    exact (Finset.mem_sdiff.mp (Finset.mem_sdiff.mp hb).1).2 (Finset.mem_image.mpr ⟨2, Finset.mem_univ _, rfl⟩)
  exact congrArg (fun f => (((c : Thread nD τ).loc b) ↦{fullShare} f : sProp 𝕄)) (W₁_ne m c hne)

/-! ## The segments -/

/-- THE HOST SEGMENT before the region: the five operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- THE HOST SEGMENT after the region: the twenty operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

theorem N_pin : (Pipeline.pin (pcfgs (F := F)) adm 0).N = 48 := N_0

set_option backward.isDefEq.respectTransparency.types false in
/-- THE REGION: entered from what the first segment left — the stacked array dealt to the two reading windows by halves, the
    result array to the writing window, the tables to the pipeline, everything else bypassing —, left with the stacked
    array whole again, the result array at what the region computed, the rest as at entry. -/
def reg0 (hb : ∀ c, Pipeline.BodyObligationLoose (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody := hb
  hwaits := Pipeline.hwaits_of_owed_zero _ _ _ _ L lv 0 fun c t => owed_eq adm c (V m c) t
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := Pipeline.prefHeld pre0 c (fun _ => fullShare) (adm (F := F) 0).1
  Z c := Pipeline.unscopedRestP (Ix := Unit) (Name := ℕ) (U := UR sig nD τ) (Lvl := ℕ) pre0 spec0 c (V m c)
  hentry c := by
    have hub := Pipeline.unscopedBufs_split₀ (Pipeline.pin (pcfgs (F := F)) adm) 0 winFacts₀0.arr_unscoped c (Ix := Unit) (Name := ℕ) (U := UR sig nD τ) (Lvl := ℕ) (V m c)
    have hur := Pipeline.unscopedRest_split (Ix := Unit) (Name := ℕ) (U := UR sig nD τ) (Lvl := ℕ) preFacts0 c (V m c)
    rw [V_tbl m c] at hur
    rw [arrBufs_eq] at hub
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave Hub' := (Entails.of_eq hub) $$ Hub
    icases Hub' with ⟨Harr, Hur0⟩
    ihave Hur1 := (Entails.of_eq hur) $$ Hur0
    icases Hur1 with ⟨Hpf, Hur⟩
    imodintro
    isplitl [Harr]
    · iapply (arrays_iff m c (fun w => (dats m 0 c).arrAt w 0) (V m c main_v3) (A_eq adm c (V m c) 0) (A_eq adm c (V m c) 1) (A_eq adm c (V m c) 2)).2
      iexact Harr
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = _ from Phi_first adm c (V m c),
      show (Pipeline.scopedRest (Pipeline.pin (pcfgs (F := F)) adm 0).spec c : sProp 𝕄) = Pipeline.scopedRest spec0 c from rfl, scopedRest0_eq]
    simp only [owns_whole]
    iintro ⟨-, Hp, Hs⟩
    isplitl [Hp] <;> iassumption
  hout c := by
    rw [show (dats m 0 c).Φ (Fin.last _) = _ from Phi_last adm c (V m c), Pipeline.ownSems0_none,
      show (Pipeline.scopedRest (Pipeline.pin (pcfgs (F := F)) adm 0).spec c : sProp 𝕄) = Pipeline.scopedRest spec0 c from rfl, scopedRest0_eq]
    simp only [owns_whole]
    iintro ⟨Hp, Hs⟩
    isplitl [Hp]; · iexact Hp
    isplitr; · iempintro
    iexists _; iexact Hs
  hexit c := by
    have hub := Pipeline.unscopedBufs_split₀ (Pipeline.pin (pcfgs (F := F)) adm) 0 winFacts₀0.arr_unscoped c (Ix := Unit) (Name := ℕ) (U := UR sig nD τ) (Lvl := ℕ) (fun b => W₁ m c (Proc.devRef .tc b))
    have hur := Pipeline.unscopedRest_split (Ix := Unit) (Name := ℕ) (U := UR sig nD τ) (Lvl := ℕ) preFacts0 c (fun b => W₁ m c (Proc.devRef .tc b))
    rw [W₁_tbl m c, restP_W₁ m c] at hur
    rw [arrBufs_eq, W₁_ne m c (b := main_v2) (by decide), W₁_v3 m c] at hub
    rw [show StableHlo.held (c : Thread nD τ) (Pipeline.ucRefs τ sig) (W₁ m c) = unscopedBufs c (fun b => W₁ m c (Proc.devRef .tc b)) from (Pipeline.unscopedBufs_held c _).symm]
    have h0 : (dats m 0 c).arrAt 0 (Pipeline.pin (pcfgs (F := F)) adm 0).N = V m c main_v2 :=
      ((dats m 0 c).arrAt_in 0 rfl _).trans (A_eq adm c (V m c) 0)
    have h1 : (dats m 0 c).arrAt 1 (Pipeline.pin (pcfgs (F := F)) adm 0).N = V m c main_v2 :=
      ((dats m 0 c).arrAt_in 1 rfl _).trans (A_eq adm c (V m c) 1)
    iintro ⟨Ha, HO, HY, HZ⟩
    have h2 : (dats m 0 c).arrAt 2 (Pipeline.pin (pcfgs (F := F)) adm 0).N = out m c := congrArg ((dats m 0 c).arrAt 2) N_pin
    ihave Ha' := (arrays_iff m c (fun w => (dats m 0 c).arrAt w (Pipeline.pin (pcfgs (F := F)) adm 0).N) (out m c) h0 h1 h2).1 $$ Ha
    imodintro
    isplitr [HO]
    · iapply (Entails.of_eq hub.symm)
      isplitl [Ha']; · iexact Ha'
      iapply (Entails.of_eq hur.symm)
      isplitl [HY] <;> iassumption
    · unfold Pipeline.Dat.owesAt Pipeline.owesWithin
      icases HO with ⟨%W, -, HO⟩; iexists W; iexact HO

end Cert.Kernel.Hand

end
-- ==== Proof.KBBodyRun.lean ====
/-
  The kernel body run once per case of its two conditionals, on symbolic whole staging tiles.

  At a grid point (p, i, j) the body resets the carried scratch tile when i = j = 0, adds the tile sum of
  the two input blocks to it, and when i = j = 3 copies it into the output tile. So there are three cases
  a point can be in (both conditions at once is impossible): first point of a pair, a middle point, last
  point of a pair. In each, from the input tiles held at contents x0, x1 and the scratch at xs (at anything
  in the first case), the body runs to the inputs as they were and the scratch at
  pay1 xs (pay4 x0 x1) — with xs := pay3 (zero) in the first case — and in the last case the output tile at
  pay2 of that.
-/
import proofs.«148633_j32633161515875_1_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if` (reset the scratch), from the grid coordinates. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- The condition of the second `scf.if` (copy the scratch out). -/
abbrev cond2 (i : grid0.Coords) : Prop := k0_cond2 i = 1#1

theorem hcond1 : ∀ t : Fin grid0.N, cond1 (grid0.coords t) ↔ t.val % 16 = 0 := by decide +kernel
theorem hcond2 : ∀ t : Fin grid0.N, cond2 (grid0.coords t) ↔ t.val % 16 = 15 := by decide +kernel

/-- A store of a whole 8×128 tile reads back as its payload, whatever was stored before. -/
theorem read_writes_tile {sp : Space} (v : View sig .tc sp S8x128 .f32) (f : v.ty.Contents (Elt F)) (w : Vec F S8x128 .f32)
    (L : List (View.Piece (Elt F) S8x128 .f32)) :
    v.read (Elt F) (v.writes (Elt F) f (⟨Rect.unit (s := S8x128) ![0, 0] S8x128.size inb_S8x128_S8x128_0_0, w⟩ :: L)) = w := by
  funext y
  have h := View.read_writes_cons_emb v f (Rect.unit (s := S8x128) ![0, 0] S8x128.size inb_S8x128_S8x128_0_0) w L y
  have e : (Rect.unit (s := S8x128) ![0, 0] S8x128.size inb_S8x128_S8x128_0_0).emb y = y := by
    funext a; apply Fin.ext; rw [Rect.emb_apply]; fin_cases a <;> simp [Rect.unit]
  rwa [e] at h

/-- The same for a 1×8×128 tile. -/
theorem read_writes_tile3 {sp : Space} (v : View sig .tc sp S1x8x128 .f32) (f : v.ty.Contents (Elt F)) (w : Vec F S1x8x128 .f32)
    (L : List (View.Piece (Elt F) S1x8x128 .f32)) :
    v.read (Elt F) (v.writes (Elt F) f (⟨Rect.unit (s := S1x8x128) ![0, 0, 0] S1x8x128.size inb_S1x8x128_S1x8x128_0_0_0, w⟩ :: L)) = w := by
  funext y
  have h := View.read_writes_cons_emb v f (Rect.unit (s := S1x8x128) ![0, 0, 0] S1x8x128.size inb_S1x8x128_S1x8x128_0_0_0) w L y
  have e : (Rect.unit (s := S1x8x128) ![0, 0, 0] S1x8x128.size inb_S1x8x128_S1x8x128_0_0_0).emb y = y := by
    funext a; apply Fin.ext; rw [Rect.emb_apply]; fin_cases a <;> simp [Rect.unit]
  rwa [e] at h

/-- A load of the whole tile is the view's contents. -/
theorem readAt_tile {sp : Space} (v : View sig .tc sp S8x128 .f32) (f : v.ty.Contents (Elt F)) :
    View.readAt (Elt F) v (Rect.unit (s := S8x128) ![0, 0] S8x128.size inb_S8x128_S8x128_0_0).toLoadRect f = v.read (Elt F) f := by
  funext y; rw [View.readAt_apply]; refine congrArg _ ?_
  funext a; apply Fin.ext; rw [LoadRect.idx_apply]; fin_cases a <;> simp [Rect.unit]

theorem readAt_tile3 {sp : Space} (v : View sig .tc sp S1x8x128 .f32) (f : v.ty.Contents (Elt F)) :
    View.readAt (Elt F) v (Rect.unit (s := S1x8x128) ![0, 0, 0] S1x8x128.size inb_S1x8x128_S1x8x128_0_0_0).toLoadRect f = v.read (Elt F) f := by
  funext y; rw [View.readAt_apply]; refine congrArg _ ?_
  funext a; apply Fin.ext; rw [LoadRect.idx_apply]; fin_cases a <;> simp [Rect.unit]

theorem readAt_block {sp : Space} (v : View sig .tc sp S1x1024x1024 .f32) (f : v.ty.Contents (Elt F)) :
    View.readAt (Elt F) v (Rect.unit (s := S1x1024x1024) ![0, 0, 0] S1x1024x1024.size inb_S1x1024x1024_S1x1024x1024_0_0_0).toLoadRect f = v.read (Elt F) f := by
  funext y; rw [View.readAt_apply]; refine congrArg _ ?_
  funext a; apply Fin.ext; rw [LoadRect.idx_apply]; fin_cases a <;> simp [Rect.unit]

theorem run_B (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : ¬cond1 i) (hc2 : ¬cond2 i)
    (x0 x1 : Vec F S1x1024x1024 .f32) (xs : Vec F S8x128 .f32) (E : Set ℕ) (K : PUnit → sProp 𝕄) :
    iprop(owns (c : Thread nD τ) arg5 fullShare x0 ∗ owns (c : Thread nD τ) arg6 fullShare x1 ∗ owns (c : Thread nD τ) scM fullShare xs
        ∗ (iprop(owns (c : Thread nD τ) arg5 fullShare x0 ∗ owns (c : Thread nD τ) arg6 fullShare x1
            ∗ owns (c : Thread nD τ) scM fullShare (k0_pay1 xs (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%fs, %hfs, HS⟩, Hk⟩
  obtain rfl := harg5.eq_unread hf0; obtain rfl := harg6.eq_unread hf1
  obtain rfl := (Memref.isWhole_whole cc0_scratch0).eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_tile]
  sl_unfold_run_names
  rw [readAt_tile, readAt_block, readAt_block, hf0, hf1, hfs]

theorem run_A (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : cond1 i) (hc2 : ¬cond2 i)
    (x0 x1 : Vec F S1x1024x1024 .f32) (E : Set ℕ) (K : PUnit → sProp 𝕄) :
    iprop(owns (c : Thread nD τ) arg5 fullShare x0 ∗ owns (c : Thread nD τ) arg6 fullShare x1 ∗ (∃ d, owns (c : Thread nD τ) scM fullShare d)
        ∗ (iprop(owns (c : Thread nD τ) arg5 fullShare x0 ∗ owns (c : Thread nD τ) arg6 fullShare x1
            ∗ owns (c : Thread nD τ) scM fullShare (k0_pay1 (k0_pay3 (F := F)) (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d, %fs, -, HS⟩, Hk⟩
  obtain rfl := harg5.eq_unread hf0; obtain rfl := harg6.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_tile]
  sl_unfold_run_names
  rw [View.readCov_cons_toLoadRect, readAt_block, readAt_block, hf0, hf1]

theorem run_C (c : Dev nD) (i : grid0.Coords)
    (arg5 : Memref sig .tc .vmem S1x1024x1024 .f32) (harg5 : arg5.IsWhole)
    (arg6 : Memref sig .tc .vmem S1x1024x1024 .f32) (harg6 : arg6.IsWhole)
    (arg7 : Memref sig .tc .vmem S1x8x128 .f32) (harg7 : arg7.IsWhole)
    (hc1 : ¬cond1 i) (hc2 : cond2 i)
    (x0 x1 : Vec F S1x1024x1024 .f32) (xs : Vec F S8x128 .f32) (E : Set ℕ) (K : PUnit → sProp 𝕄) :
    iprop(owns (c : Thread nD τ) arg5 fullShare x0 ∗ owns (c : Thread nD τ) arg6 fullShare x1 ∗ (∃ d, owns (c : Thread nD τ) arg7 fullShare d)
        ∗ owns (c : Thread nD τ) scM fullShare xs
        ∗ (iprop(owns (c : Thread nD τ) arg5 fullShare x0 ∗ owns (c : Thread nD τ) arg6 fullShare x1
            ∗ owns (c : Thread nD τ) arg7 fullShare (k0_pay2 (k0_pay1 xs (k0_pay4 x0 x1)))
            ∗ owns (c : Thread nD τ) scM fullShare (k0_pay1 xs (k0_pay4 x0 x1))) -∗ K ⟨⟩))
      ⊢ wp frame (wpE (defs₀ (F := F)) Variants.none c none) E
          (cc0__pair_kernel i (Memref.whole main_c) (Memref.isWhole_whole _) (Memref.whole main_c_0) (Memref.isWhole_whole _)
            arg5 harg5 arg6 harg6 arg7 harg7 scM (Memref.isWhole_whole _)) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d7, %f7, -, H7⟩, ⟨%fs, %hfs, HS⟩, Hk⟩
  obtain rfl := harg5.eq_unread hf0; obtain rfl := harg6.eq_unread hf1
  obtain rfl := (Memref.isWhole_whole cc0_scratch0).eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H7]
  · iexists _; isplitr
    swap; · iexact H7
    ipureintro
    rw [read_writes_tile3]
    sl_unfold_run_names
    rw [View.readCov_cons_toLoadRect, readAt_tile, readAt_block, readAt_block, hf0, hf1, hfs]
  iexists _; isplitr
  swap; · iexact HS
  ipureintro
  sl_unfold_run_names
  rw [read_writes_tile, readAt_tile, readAt_block, readAt_block, hf0, hf1, hfs]

end Cert.Kernel.Hand

end
-- ==== Proof.KBBody.lean ====
/-
  The body obligation of the pipelined launch: at every grid point the kernel body, handed the two input
  tiles at their blocks, the output tile, the tables and the carried scratch, runs to the next point's
  invariant. By cases on the point's place in its pair — first (t ≡ 0 mod 16: the scratch is reset),
  last (t ≡ 15: the scratch is copied to the output tile, which the pipeline then writes back), middle
  (the output tile is idle: handed back as found).
-/
import proofs.«148633_j32633161515875_1_alg».proof.Proof.KBBodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Points

variable (a : (p : Fin 1) → (pcfgs (F := F) p).Adm)

/-- Window 2's block index at a point: the pair, whatever the tables hold. -/
theorem index_2 (t : Fin (cfgA a).N) : ((cfgA a).win 2).index t = cc0_transform_2 (grid0.coords t) := rfl

theorem tr2_step : ∀ t : Fin grid0.N, ∀ h : t.val + 1 < grid0.N, t.val % 16 ≠ 15 →
    cc0_transform_2 (grid0.coords ⟨t.val + 1, h⟩) = cc0_transform_2 (grid0.coords t) := by decide +kernel
theorem tr2_jump : ∀ t : Fin grid0.N, ∀ h : t.val + 1 < grid0.N, t.val % 16 = 15 →
    cc0_transform_2 (grid0.coords ⟨t.val + 1, h⟩) ≠ cc0_transform_2 (grid0.coords t) := by decide +kernel

/-- Window 2 is written back exactly at the last point of each pair. -/
theorem flush_2_iff (t : Fin (cfgA a).N) : ((cfgA a).win 2).flush t = true ↔ t.val % 16 = 15 := by
  have hN : (cfgA a).N = 48 := N_cfgA a
  unfold Window.flush
  rw [show ((cfgA a).win 2).isOut = true from rfl, Bool.true_and, Bool.or_eq_true, decide_eq_true_eq, decide_eq_true_eq]
  constructor
  · rintro (h | ⟨h, hne⟩)
    · have : t.val + 1 = 48 := h.trans hN
      omega
    · by_contra h15
      exact hne (tr2_step t h h15)
  · intro h15
    have ht : t.val < 48 := lt_of_lt_of_eq t.isLt hN
    by_cases hl : t.val + 1 = 48
    · exact .inl (hl.trans hN.symm)
    · have hlt : t.val + 1 < 48 := by omega
      exact .inr ⟨lt_of_lt_of_eq hlt hN.symm, tr2_jump t (lt_of_lt_of_eq hlt N_0.symm) h15⟩

/-- The inputs are never idle; the output is idle exactly where the second conditional fails. -/
theorem live_0 (t : Fin (cfgA a).N) : (cfgA a).idle 0 ((cfgA a).grid.coords t) = false := rfl
theorem live_1 (t : Fin (cfgA a).N) : (cfgA a).idle 1 ((cfgA a).grid.coords t) = false := rfl
theorem idle_2_of_not (t : Fin (cfgA a).N) (h : ¬cond2 (grid0.coords t)) : (cfgA a).idle 2 ((cfgA a).grid.coords t) = true := by
  show (!(k0_cond2 (grid0.coords t) == 1#1)) = true
  rw [Bool.not_eq_true', beq_eq_false_iff_ne]; exact h
theorem live_2_of (t : Fin (cfgA a).N) (h : cond2 (grid0.coords t)) : (cfgA a).idle 2 ((cfgA a).grid.coords t) = false := by
  show (!(k0_cond2 (grid0.coords t) == 1#1)) = false
  rw [Bool.not_eq_false', beq_iff_eq]; exact h

/-- Each window's current staging tile at point `t`, as the pipeline passes it to the body. -/
abbrev ms0 (t : Fin (cfgA a).N) : Memref sig .tc .vmem S1x1024x1024 .f32 := spec0_0.stage ((cfgA a).slots t 0)
abbrev hs0 (t : Fin (cfgA a).N) : (ms0 a t).IsWhole := hstage0_0 (((cfgA a).slots t 0).cast nbuf0_0)
abbrev ms1 (t : Fin (cfgA a).N) : Memref sig .tc .vmem S1x1024x1024 .f32 := spec0_1.stage ((cfgA a).slots t 1)
abbrev hs1 (t : Fin (cfgA a).N) : (ms1 a t).IsWhole := hstage0_1 (((cfgA a).slots t 1).cast nbuf0_1)
abbrev ms2 (t : Fin (cfgA a).N) : Memref sig .tc .vmem S1x8x128 .f32 := spec0_2.stage ((cfgA a).slots t 2)
abbrev hs2 (t : Fin (cfgA a).N) : (ms2 a t).IsWhole := hstage0_2 (((cfgA a).slots t 2).cast nbuf0_2)

/-- The body's call at point `t`. -/
abbrev bodyAt (t : Fin (cfgA a).N) : Prog (TpuEff nD τ sig (Elt F) Λ₀ .tc) PUnit :=
  cc0__pair_kernel (grid0.coords t) (Memref.whole main_c) (Memref.isWhole_whole _) (Memref.whole main_c_0) (Memref.isWhole_whole _)
    (ms0 a t) (hs0 a t) (ms1 a t) (hs1 a t) (ms2 a t) (hs2 a t) scM (Memref.isWhole_whole _)

set_option maxHeartbeats 100000 in
theorem bodyAt_eq (t : Fin (cfgA a).N) :
    (defs₀ (F := F)) .tc (cfgA a).body ((cfgA a).bodyArgs t ((cfgA a).slots t)) = bodyAt a t := rfl

end Points

section Body

variable (a : (p : Fin 1) → (pcfgs (F := F) p).Adm) (c : Dev nD)
  (V : (b : Ref sig .tc) → Buf (Elt F) ((c.tc : Thread nD τ).loc b))

/-- Window 2 is not written back where the second conditional fails. -/
theorem noFlush_2 (t : Fin (cfgA a).N) (h : t.val % 16 ≠ 15) : ((cfgA a).win 2).flush t = false :=
  Bool.eq_false_iff.mpr fun hf => h ((flush_2_iff a t).mp hf)

/-- The invariant at any point hands over the tables and the scratch at some contents. -/
theorem Phi_weaken (n : ℕ) (h : n ≤ (cfgA a).N) :
    Phi a c V n h ⊢ iprop(Pipeline.prefHeld pre0 c (fun _ => fullShare) (a 0).1 ∗ (∃ d, owns (c.tc : Thread nD τ) scM fullShare d)) := by
  cases n with
  | zero => exact .rfl
  | succ n =>
    rw [Phi_succ]
    iintro ⟨Hp, Hs⟩
    isplitl [Hp]; · iexact Hp
    iexists _; iexact Hs

/-- What the body is called with at point `t`, the windows one by one, -/
def bodyPre (t : Fin (cfgA a).N) : sProp 𝕄 :=
  iprop((dat a c V).Φ t.castSucc ∗ (dat a c V).owesAt () t.castSucc
    ∗ (∃ d, owns (c : Thread nD τ) (ms0 a t) fullShare ((dat a c V).before 0 t d))
    ∗ (∃ d, owns (c : Thread nD τ) (ms1 a t) fullShare ((dat a c V).before 1 t d))
    ∗ (∃ d, owns (c : Thread nD τ) (ms2 a t) fullShare ((dat a c V).before 2 t d)))

/-- and what it returns. -/
def bodyPost (t : Fin (cfgA a).N) : sProp 𝕄 :=
  iprop((dat a c V).Φ t.succ ∗ (dat a c V).owesAt () t.succ
    ∗ (dat a c V).leavesExact 0 t
    ∗ (dat a c V).leavesExact 1 t
    ∗ (dat a c V).leavesExact 2 t)

set_option maxHeartbeats 1600000 in
/-- The body at any point. -/
theorem sound_body (t : Fin (cfgA a).N) :
    bodyPre a c V t ⊢ wp frame (wpE (defs₀ (F := F)) Variants.none c none) Set.univ (bodyAt a t) (fun _ => bodyPost a c V t) := by
  unfold bodyPre bodyPost
  simp only [before_0, before_1]
  rw [show (dat a c V).owesAt () t.succ = (dat a c V).owesAt () t.castSucc from rfl]
  rw [show (dat a c V).Φ t.succ = Phi a c V (t.val + 1) t.isLt from rfl, Phi_succ, Phi_castSucc]
  rw [show (dat a c V).leavesExact 0 t = owns (c : Thread nD τ) (ms0 a t) fullShare ((dat a c V).after 0 t) from by
    unfold Dat.leavesExact; rw [live_0 a t]; rfl, after_0]
  rw [show (dat a c V).leavesExact 1 t = owns (c : Thread nD τ) (ms1 a t) fullShare ((dat a c V).after 1 t) from by
    unfold Dat.leavesExact; rw [live_1 a t]; rfl, after_1]
  have hN : t.val < 48 := lt_of_lt_of_eq t.isLt (N_cfgA a)
  by_cases h0 : t.val % 16 = 0
  · -- first point of a pair
    have hc1 : cond1 (grid0.coords t) := (hcond1 t).mpr h0
    have hc2 : ¬cond2 (grid0.coords t) := fun h => by have := (hcond2 t).mp h; omega
    rw [Dat.leavesExact_idle (dat a c V) 2 t (idle_2_of_not a t hc2) (noFlush_2 a t (by omega))]
    rw [accAt_first a c V t h0]
    refine (sep_mono (Phi_weaken a c V _ _) .rfl).trans ?_
    iintro ⟨⟨Hp, HS⟩, Ho, ⟨%d0, H0⟩, ⟨%d1, H1⟩, ⟨%d2, H2⟩⟩
    iapply (run_A c (grid0.coords t) _ (hs0 a t) _ (hs1 a t) _ (hs2 a t) hc1 hc2 (blkA a c V t) (blkB a c V t) Set.univ _)
    isplitl [H0]; · iexact H0
    isplitl [H1]; · iexact H1
    isplitl [HS]; · iexact HS
    iintro ⟨H0, H1, HS⟩
    isplitl [Hp HS]
    · isplitl [Hp]; · iexact Hp
      iexact HS
    isplitl [Ho]; · iexact Ho
    isplitl [H0]; · iexact H0
    isplitl [H1]; · iexact H1
    iexists _; iexact H2
  · have hz : t.val ≠ 0 := fun h => h0 (by rw [h])
    have hc1 : ¬cond1 (grid0.coords t) := fun h => h0 ((hcond1 t).mp h)
    rw [Phi_pos a c V _ _ hz, accAt_next a c V t h0]
    by_cases h15 : t.val % 16 = 15
    · -- last point of a pair
      have hc2 : cond2 (grid0.coords t) := (hcond2 t).mpr h15
      rw [show (dat a c V).leavesExact 2 t = owns (c : Thread nD τ) (ms2 a t) fullShare ((dat a c V).after 2 t) from by
        unfold Dat.leavesExact; rw [live_2_of a t hc2]; rfl, after_2, accAt_next a c V t h0]
      iintro ⟨⟨Hp, HS⟩, Ho, ⟨%d0, H0⟩, ⟨%d1, H1⟩, ⟨%d2, H2⟩⟩
      iapply (run_C c (grid0.coords t) _ (hs0 a t) _ (hs1 a t) _ (hs2 a t) hc1 hc2 (blkA a c V t) (blkB a c V t) _ Set.univ _)
      isplitl [H0]; · iexact H0
      isplitl [H1]; · iexact H1
      isplitl [H2]; · iexists _; iexact H2
      isplitl [HS]; · iexact HS
      iintro ⟨H0, H1, H2, HS⟩
      isplitl [Hp HS]
      · isplitl [Hp]; · iexact Hp
        iexact HS
      isplitl [Ho]; · iexact Ho
      isplitl [H0]; · iexact H0
      isplitl [H1]; · iexact H1
      iexact H2
    · -- a middle point
      have hc2 : ¬cond2 (grid0.coords t) := fun h => h15 ((hcond2 t).mp h)
      rw [Dat.leavesExact_idle (dat a c V) 2 t (idle_2_of_not a t hc2) (noFlush_2 a t h15)]
      iintro ⟨⟨Hp, HS⟩, Ho, ⟨%d0, H0⟩, ⟨%d1, H1⟩, ⟨%d2, H2⟩⟩
      iapply (run_B c (grid0.coords t) _ (hs0 a t) _ (hs1 a t) _ (hs2 a t) hc1 hc2 (blkA a c V t) (blkB a c V t) _ Set.univ _)
      isplitl [H0]; · iexact H0
      isplitl [H1]; · iexact H1
      isplitl [HS]; · iexact HS
      iintro ⟨H0, H1, HS⟩
      isplitl [Hp HS]
      · isplitl [Hp]; · iexact Hp
        iexact HS
      isplitl [Ho]; · iexact Ho
      isplitl [H0]; · iexact H0
      isplitl [H1]; · iexact H1
      iexists _; iexact H2

/-- The library's body obligation, at every point, -/
theorem body_exact : BodyObligation (dat a c V) (defs₀ (F := F)) Variants.none () Set.univ := fun t => by
  rw [bigSep_W0, bigSep_W0]
  exact sound_body a c V t

/-- and in the form the launch takes. -/
theorem body : Pipeline.BodyObligationLoose (dat a c V) (defs₀ (F := F)) Variants.none () Set.univ :=
  (body_exact a c V).loose

end Body

end Cert.Kernel.Hand

end
-- ==== Proof.KBTail.lean ====
/-
  The last host arithmetic of the kernel's program as one function of the [3, 8, 128] array of block sums.

  The program reads the entries (0, 0, 0), (1, 0, 0) and (2, 0, 0) — the three sums of kernel values — as scalars,
  subtracts the number of points 4096 from the first two, divides each by 4096·4095, adds them, and subtracts 2 times
  the third divided by 4096².
-/
import proofs.«148633_j32633161515875_1_alg».proof.Proof.Gen.Kernel.Launch
import Idealize.ShloMosaic.Lib.ValueIdx

noncomputable section

namespace Cert.Kernel.Hand

open Idealize.ShloMosaic Idealize.ShloMosaic.ValueIdx Cert.Kernel Cert.Kernel.Facts₀

/-- The host operations after the kernel, composed: from the array of the three sums to the estimator. -/
def hostTail {F : FTy → Type} [FloatOps F] (o : FVec F S3x8x128 .f32) : FVec F S_ .f32 :=
  subf
    (addf
      (Host.divf
        (subf (shapeCast S_ ((extractStridedSlice S1x1x1 ![0, 0, 0] · slices_S3x8x128_S1x1x1_0_0_0) o) shapeCasts_S1x1x1_S_)
          (constant S_ .f32 0x45800000#32))
        (constant S_ .f32 0x4B7FF000#32))
      (Host.divf
        (subf (shapeCast S_ ((extractStridedSlice S1x1x1 ![1, 0, 0] · slices_S3x8x128_S1x1x1_1_0_0) o) shapeCasts_S1x1x1_S_)
          (constant S_ .f32 0x45800000#32))
        (constant S_ .f32 0x4B7FF000#32)))
    (Host.divf
      (mulf (constant S_ .f32 0x40000000#32)
        (shapeCast S_ ((extractStridedSlice S1x1x1 ![2, 0, 0] · slices_S3x8x128_S1x1x1_2_0_0) o) shapeCasts_S1x1x1_S_))
      (constant S_ .f32 0x4B800000#32))

end Cert.Kernel.Hand

end
-- ==== Proof.KBRun.lean ====
/-
  The kernel's run: from any memory with zero counters every weakly fair execution of @main terminates, the scalar
  result is the tail — the twenty host operations composed — of the result array the region leaves, and both
  arguments end as launched.

  @main is the list of three segments of the launch module (five host operations, the region, twenty host
  operations); the last thread state holds every unscoped buffer at the contents after the twenty operations, and is
  read against the final memory at the scalar result and at the two arguments.
-/
import proofs.«148633_j32633161515875_1_alg».proof.Proof.KBLaunch
import proofs.«148633_j32633161515875_1_alg».proof.Proof.KBBody
import proofs.«148633_j32633161515875_1_alg».proof.Proof.KBTail

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run -/

/-- An unscoped TensorCore reference is among the buffers the host operations run within. -/
theorem mem_uc (b : Ref sig .tc) (h : (Proc.devRef (τ := τ) .tc b).isScoped = false) : Proc.devRef .tc b ∈ Pipeline.ucRefs τ sig :=
  Finset.mem_filter.mpr ⟨StableHlo.devRef_mem_tcRefs b, by rw [h]; exact Bool.false_ne_true⟩

/-- The scalar result after the twenty operations behind the region, from any contents: the tail of the result array. -/
theorem tail_eq (W : Valuation τ sig (Elt F)) :
    StableHlo.after hostOps1 W (Proc.devRef .tc main_v17) = hostTail (W (Proc.devRef .tc main_v3)) := by
  after_results
  rfl

/-- None of them writes an argument. -/
theorem after1_arg0 (W : Valuation τ sig (Elt F)) : StableHlo.after hostOps1 W (Proc.devRef .tc main_arg0) = W (Proc.devRef .tc main_arg0) := by
  after_results
theorem after1_arg1 (W : Valuation τ sig (Elt F)) : StableHlo.after hostOps1 W (Proc.devRef .tc main_arg1) = W (Proc.devRef .tc main_arg1) := by
  after_results

/-- @main as the list of its three segments. -/
abbrev segs (hb : ∀ c, Pipeline.BodyObligationLoose (dats m 0 c) (defs₀ (F := F)) 𝒱₀ () Set.univ) :
    List (Pipeline.Seg (pcfgs (F := F)) adm (dats m) () defs₀ 𝒱₀ L lv) := [.host (seg0 m), .region (reg0 m hb), .host (seg1 m)]

set_option backward.isDefEq.respectTransparency.types false in
/-- At the compiled mesh, from any memory with zero counters: every weakly fair execution of @main on the TensorCores
    terminates, and every final state has the scalar result at the tail of what the region computed and both
    arguments unchanged. -/
theorem run_main_of (hb : ∀ c, Pipeline.BodyObligationLoose (dats m 0 c) (defs₀ (F := F)) 𝒱₀ () Set.univ) (ρ : Dev nD → PrngReg) :
    θ_run (defs (F := F)) (onTc (τ := τ) (main (F := F))) ⟨m, fun _ => 0, ρ⟩ (fun r => ∀ c : Dev nD,
      r.2.mem ((c.tc : Thread nD τ).loc main_v17) = hostTail (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () (cellOf_inj adm) EP defs₀ 𝒱₀ L lv m ρ main (segs m hb)
    (fun c Q => by rw [main_segs adm (dats m) () 𝒱₀ L lv (seg0 m) (seg1 m) (reg0 m hb) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v17) = hostTail (out m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (StableHlo.after hostOps1 (W₁ m c)) s') $$ [Hh HSI]
      · isplitl [Hh]; · iexact Hh
        iexact HSI
      icases Hr with ⟨%hr, HSI⟩
      imodintro
      isplitr
      · ipureintro
        refine ⟨(hr _ (mem_uc main_v17 rfl)).trans ?_, (hr _ (mem_uc main_arg0 rfl)).trans ?_, (hr _ (mem_uc main_arg1 rfl)).trans ?_⟩
        · rw [tail_eq, W₁_v3]
        · rw [after1_arg0, W₁_ne m c (b := main_arg0) (by decide)]; exact V_arg0 m c
        · rw [after1_arg1, W₁_ne m c (b := main_arg1) (by decide)]; exact V_arg1 m c
      iexact HSI)
    (hQ := fun _ h => h)

/-- The run, with the body obligation of the body module. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v17) = hostTail ((dat adm c (V m c)).arrAt 2 48)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m (fun c => body adm c (V m c)) ρ

/-- info: 'Cert.Kernel.Hand.run_main' depends on axioms: [propext, Classical.choice, Quot.sound] -/
#guard_msgs in #print axioms run_main

end Cert.Kernel.Hand

end
-- ==== Proof.KOut.lean ====
/-
  The result array after the last grid point.

  Window 2's block at a point is row `pair` of the 3×8×128 result; the pipeline writes it back exactly at the
  last point of each pair (t ≡ 15 mod 16). The three written rows are disjoint, so after the 48 points row p of
  the result holds what point 16·p + 15 left in the output tile: the carried scratch after the pair's 16 points,
  `acc p 16`, under the cast that adds the leading unit axis.
-/
import proofs.«148633_j32633161515875_1_alg».proof.Proof.KBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

section Out

variable (a : (p : Fin 1) → (pcfgs (F := F) p).Adm) (c : Dev nD)
  (V : (b : Ref sig .tc) → Buf (Elt F) ((c.tc : Thread nD τ).loc b))

/-- Window 2's block index is (pair, 0, 0). -/
theorem tr2_eq : ∀ t : Fin grid0.N, cc0_transform_2 (grid0.coords t) = ![t.val / 16, 0, 0] := by decide +kernel

theorem index_2_eq (t : Fin (cfgA a).N) (k : Fin 3) : ((cfgA a).win 2).index t k = (![t.val / 16, 0, 0] : Fin 3 → ℕ) k := by
  rw [index_2, tr2_eq]

set_option backward.isDefEq.respectTransparency.types false in
/-- An index of the result lies under point `t`'s block iff its leading coordinate is the point's pair. -/
theorem mem_blk_2 (t : Fin (cfgA a).N) (i : S3x8x128.Idx) :
    i ∈ (((cfgA a).win 2).blk t).view.set ↔ (i 0 : ℕ) = t.val / 16 := by
  have h0 := index_2_eq a t 0; have h1 := index_2_eq a t 1; have h2 := index_2_eq a t 2
  change ((cfgA a).win 2).index t (0 : Fin 3) = t.val / 16 at h0
  change ((cfgA a).win 2).index t (1 : Fin 3) = 0 at h1
  change ((cfgA a).win 2).index t (2 : Fin 3) = 0 at h2
  show i ∈ ((View.whole main_v3).slice (((cfgA a).win 2).rect t)).set ↔ _
  rw [View.set_slice_whole, LoadRect.mem_set]
  have b1 : (i 1 : ℕ) < 8 := (i 1).isLt
  have b2 : (i 2 : ℕ) < 128 := (i 2).isLt
  constructor
  · intro hm
    obtain ⟨j, hj, ej⟩ := hm (0 : Fin 3)
    change j < 1 at hj
    change (i 0 : ℕ) = ((cfgA a).win 2).index t (0 : Fin 3) * 1 + 1 * j at ej
    rw [h0] at ej; omega
  · intro hi k
    fin_cases k
    · refine ⟨0, ?_, ?_⟩
      · change 0 < 1; omega
      · change (i 0 : ℕ) = ((cfgA a).win 2).index t (0 : Fin 3) * 1 + 1 * 0
        rw [h0]; omega
    · refine ⟨(i 1 : ℕ), ?_, ?_⟩
      · change (i 1 : ℕ) < 8; exact b1
      · change (i 1 : ℕ) = ((cfgA a).win 2).index t (1 : Fin 3) * 8 + 1 * (i 1 : ℕ)
        rw [h1]; omega
    · refine ⟨(i 2 : ℕ), ?_, ?_⟩
      · change (i 2 : ℕ) < 128; exact b2
      · change (i 2 : ℕ) = ((cfgA a).win 2).index t (2 : Fin 3) * 128 + 1 * (i 2 : ℕ)
        rw [h2]; omega

/-- The written-back blocks are pairwise disjoint: three different rows. -/
theorem disj_2 : ∀ t t' : Fin (cfgA a).N, ((cfgA a).win 2).flush t = true → ((cfgA a).win 2).flush t' = true →
    t ≠ t' → Disjoint (((cfgA a).win 2).blk t).view.set (((cfgA a).win 2).blk t').view.set := by
  intro t t' ht ht' hne
  rw [flush_2_iff] at ht ht'
  refine Finset.disjoint_left.mpr fun {i} hi hi' => hne (Fin.ext ?_)
  have gi := (mem_blk_2 a t i).1 hi; have gi' := (mem_blk_2 a t' i).1 hi'
  omega

/-- The last point of pair `p`. -/
theorem pt_last_val (p : Fin 3) : (pt a p 15).val = 16 * p.val + 15 := rfl

/-- The result under the block of pair `p`'s last point is what that point left in the output tile. -/
theorem arr_emb_2 (p : Fin 3) (y : (((cfgA a).win 2).xblock ((cfgA a).grid.coords (pt a p 15))).Idx) :
    (dat a c V).arrAt 2 (cfgA a).N ((((cfgA a).win 2).blk (pt a p 15)).view.emb y)
      = k0_pay2 (accAt a c V (pt a p 15)) (((cfgA a).win 2).xinj ((cfgA a).grid.coords (pt a p 15)) y) := by
  rw [Dat.arrAt_emb_eq_flushed _ 2 (disj_2 a) (pt a p 15) ((flush_2_iff a _).2 (by rw [pt_last_val]; omega)) y]
  rw [show (dat a c V).flushed 2 (pt a p 15) y
      = (dat a c V).after 2 (pt a p 15) (((cfgA a).win 2).xinj ((cfgA a).grid.coords (pt a p 15)) y) from rfl, after_2]
  exact cast_eq _ _

end Out

section ResultArray

variable (a : (p : Fin 1) → (pcfgs (F := F) p).Adm) (c : Dev nD)
  (V : (b : Ref sig .tc) → Buf (Elt F) ((c.tc : Thread nD τ).loc b))

/-- The last point of pair `p` belongs to pair `p`, and is the pair's 16th point. -/
theorem pairOf_last (p : Fin 3) : pairOf a (pt a p 15) = p :=
  Fin.ext (by show (16 * p.val + 15 % 16) / 16 = p.val; omega)

theorem accAt_last (p : Fin 3) : accAt a c V (pt a p 15) = acc a c V p 16 := by
  unfold accAt; rw [pairOf_last]
  have e : (pt a p 15).val % 16 + 1 = 16 := by rw [pt_last_val]; omega
  rw [e]

set_option backward.isDefEq.respectTransparency.types false in
/-- Element (p, r, q) of the result sits under the block of pair `p`'s last point, at (0, r, q). -/
theorem ix3_eq_emb (p : Fin 3) (r : Fin 8) (q : Fin 128) :
    (ix3 p r q : S3x8x128.Idx) = (((cfgA a).win 2).blk (pt a p 15)).view.emb (ix3 (0 : Fin 1) r q) := by
  funext k; apply Fin.ext
  show ((ix3 p r q : S3x8x128.Idx) k : ℕ) = ((((cfgA a).win 2).rect (pt a p 15)).emb (ix3 (0 : Fin 1) r q) k : ℕ)
  rw [Window.rect_emb_val, index_2_eq, pt_last_val]
  fin_cases k
  · show p.val = (16 * p.val + 15) / 16 * 1 + 0; omega
  · show r.val = 0 * 8 + r.val; omega
  · show q.val = 0 * 128 + q.val; omega

set_option backward.isDefEq.respectTransparency.types false in
/-- After the 48 points, element (p, r, q) of the result is the scratch after pair p's 16 points at (r, q). -/
theorem arrAt_2 (p : Fin 3) (r : Fin 8) (q : Fin 128) :
    (dat a c V).arrAt 2 48 (ix3 p r q) = acc a c V p 16 (ix2 r q) := by
  have e : (dat a c V).arrAt 2 48 = (dat a c V).arrAt 2 (cfgA a).N := by rw [N_cfgA a]
  rw [e, ix3_eq_emb a p r q, arr_emb_2, accAt_last]
  unfold k0_pay2
  refine (shapeCast_addUnit_apply _ _ _ _).trans ?_
  refine congrArg _ ?_
  funext k
  match k with
  | ⟨0, _⟩ => rfl
  | ⟨1, _⟩ => rfl

end ResultArray

end Cert.KernelIdeal.Hand

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.Tiles.lean ====
/-
  Sums over a 4096 × 4096 index square, tile by tile.

  The square is cut into 4 × 4 tiles of 1024 × 1024; position (r, c) of tile (I, J) is index (1024·I + r, 1024·J + c).
  In a commutative additive monoid the double sum over the square is the sum over the tiles of the double sums inside a
  tile; a program that visits the tiles in the order n = 4·I + J, n = 0 … 15, adding each tile's sum to a running total
  started at zero, ends at the whole double sum. Only commutativity and associativity of addition are used, so all of
  this holds on the extended reals with no finiteness hypothesis.
-/
import proofs.«148633_j32633161515875_1_alg».proof.Proof.LibChunkSum

namespace Cert.Tiles

variable {M : Type*} [AddCommMonoid M]

/-- Position `r` of tile `I` along one axis. -/
def tileIdx (I : Fin 4) (r : Fin 1024) : Fin 4096 := ⟨1024 * I.val + r.val, by omega⟩

@[simp] theorem tileIdx_val (I : Fin 4) (r : Fin 1024) : (tileIdx I r).val = 1024 * I.val + r.val := rfl

/-- The double sum over the square is the sum over the tiles of the double sums inside them. -/
theorem sum_tiles (f : Fin 4096 → Fin 4096 → M) :
    ∑ i : Fin 4096, ∑ j : Fin 4096, f i j
      = ∑ I : Fin 4, ∑ J : Fin 4, ∑ r : Fin 1024, ∑ c : Fin 1024, f (tileIdx I r) (tileIdx J c) := by
  have h1 : ∑ i : Fin 4096, ∑ j : Fin 4096, f i j = ∑ I : Fin 4, ∑ r : Fin 1024, ∑ j : Fin 4096, f (tileIdx I r) j :=
    Cert.LibChunkSum.sum_chunks 4 1024 (fun i : Fin 4096 => ∑ j : Fin 4096, f i j) tileIdx (fun _ _ => rfl)
  rw [h1]
  refine Finset.sum_congr rfl fun I _ => ?_
  have h2 : ∀ r : Fin 1024, ∑ j : Fin 4096, f (tileIdx I r) j = ∑ J : Fin 4, ∑ c : Fin 1024, f (tileIdx I r) (tileIdx J c) :=
    fun r => Cert.LibChunkSum.sum_chunks 4 1024 (fun j : Fin 4096 => f (tileIdx I r) j) tileIdx (fun _ _ => rfl)
  rw [Finset.sum_congr rfl fun r _ => h2 r, Finset.sum_comm]

/-- A running total started at zero that adds `P n` at step `n` is the sum of the steps taken. -/
theorem running_total (P acc : ℕ → M) (h0 : acc 0 = 0) (hs : ∀ n, acc (n + 1) = acc n + P n) (n : ℕ) :
    acc n = ∑ k ∈ Finset.range n, P k := by
  induction n with
  | zero => rw [h0, Finset.range_zero, Finset.sum_empty]
  | succ n ih => rw [hs, ih, Finset.sum_range_succ]

/-- The sixteen steps n = 4·I + J in their running order are the tiles (I, J). -/
theorem sum_range16 (Q : ℕ → ℕ → M) :
    ∑ k ∈ Finset.range 16, Q (k / 4) (k % 4) = ∑ I : Fin 4, ∑ J : Fin 4, Q I.val J.val := by
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [Finset.sum_range_succ, Finset.range_zero, Finset.sum_empty, Fin.sum_univ_four, zero_add, e0, e1, e2, e3,
    Nat.reduceDiv, Nat.reduceMod, add_assoc]

end Cert.Tiles
-- ==== Proof.KBlk.lean ====
/-
  The two input tiles of a grid point, as rows of the stacked array.

  Window 0's block at a point has block index (h, I, 0): half h of the stacked array, row tile I, the whole row. Its entry
  (0, r, k) is therefore the stacked array's entry (h, 1024·I + r, k) — a block's coordinate on an axis is the block
  index times the block's extent plus the coordinate inside the block. The same holds for window 1.
-/
import proofs.«148633_j32633161515875_1_alg».proof.Proof.KData
import proofs.«148633_j32633161515875_1_alg».proof.Proof.Tiles
import Idealize.ShloMosaic.Lib.ValueIdx

noncomputable section

namespace Cert.KernelIdeal.Hand

open Cert.KernelIdeal Cert.KernelIdeal.Gen Cert.Tiles
open Idealize.ShloMosaic Idealize.ShloMosaic.TcCoe Idealize.ShloMosaic.ValueIdx
open Idealize.SL.Sem

variable {F : FTy → Type} [FloatOps F]
variable (a : (p : Fin 1) → (pcfgs (F := F) p).Adm) (c : Dev nD)
  (V : (b : Ref sig .tc) → Buf (Elt F) ((c.tc : Thread nD τ).loc b))

/-- Window 0's tile at a point whose block index is (h, I, 0). -/
theorem blkA_apply (t : Fin (cfgA a).N) (h : Fin 2) (I : Fin 4)
    (h0 : ((cfgA a).win 0).index t (0 : Fin 3) = h.val) (h1 : ((cfgA a).win 0).index t (1 : Fin 3) = I.val)
    (h2 : ((cfgA a).win 0).index t (2 : Fin 3) = 0) (r k : Fin 1024) :
    blkA a c V t (ix3 (0 : Fin 1) r k) = V main_v2 (ix3 h (tileIdx I r) k) := by
  show V main_v2 ((((cfgA a).win 0).blk t).view.emb (ix3 (0 : Fin 1) r k)) = _
  refine congrArg (V main_v2) ?_
  funext d; apply Fin.ext
  match d with
  | ⟨0, _⟩ => show ((cfgA a).win 0).index t (0 : Fin 3) * 1 + 1 * 0 = h.val; omega
  | ⟨1, _⟩ => show ((cfgA a).win 0).index t (1 : Fin 3) * 1024 + 1 * r.val = 1024 * I.val + r.val; omega
  | ⟨2, _⟩ => show ((cfgA a).win 0).index t (2 : Fin 3) * 1024 + 1 * k.val = k.val; omega

/-- Window 1's tile at a point whose block index is (h, J, 0). -/
theorem blkB_apply (t : Fin (cfgA a).N) (h : Fin 2) (J : Fin 4)
    (h0 : ((cfgA a).win 1).index t (0 : Fin 3) = h.val) (h1 : ((cfgA a).win 1).index t (1 : Fin 3) = J.val)
    (h2 : ((cfgA a).win 1).index t (2 : Fin 3) = 0) (r k : Fin 1024) :
    blkB a c V t (ix3 (0 : Fin 1) r k) = V main_v2 (ix3 h (tileIdx J r) k) := by
  show V main_v2 ((((cfgA a).win 1).blk t).view.emb (ix3 (0 : Fin 1) r k)) = _
  refine congrArg (V main_v2) ?_
  funext d; apply Fin.ext
  match d with
  | ⟨0, _⟩ => show ((cfgA a).win 1).index t (0 : Fin 3) * 1 + 1 * 0 = h.val; omega
  | ⟨1, _⟩ => show ((cfgA a).win 1).index t (1 : Fin 3) * 1024 + 1 * r.val = 1024 * J.val + r.val; omega
  | ⟨2, _⟩ => show ((cfgA a).win 1).index t (2 : Fin 3) * 1024 + 1 * k.val = k.val; omega

end Cert.KernelIdeal.Hand

end
-- ==== Proof.PayRows.lean ====
/-
  The three small stored values of the kernel body, read at one index of the exact (extended-real) instance.

  * the accumulator update: the old [8, 128] accumulator plus the new block, entry by entry;
  * the accumulator's start: the zero word, which is the extended real 0;
  * the output block: the accumulator recast with a leading unit axis, unchanged at each entry.
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Idealize.ShloMosaic Idealize.ShloMosaic.ValueIdx Cert.KernelIdeal Cert.KernelIdeal.Gen

/-- The stored accumulator is the loaded one plus the block's value, at every entry (the recast to the same shape
    changes nothing). -/
theorem pay1_apply (v34 : Vec Ideal S8x128 .f32) (v36 : FVec Ideal S8x128 .f32) (j : S8x128.Idx) :
    k0_pay1 (F := Ideal) v34 v36 j = v34 j + v36 j := by
  unfold k0_pay1
  exact congrFun (shapeCast_self _ _) j

/-- The accumulator starts as the splat of the zero word: the extended real 0 at every entry. -/
theorem pay3_apply (j : S8x128.Idx) : k0_pay3 (F := Ideal) j = 0 := by
  unfold k0_pay3
  refine (congrFun (shapeCast_self _ _) j).trans ?_
  exact Ideal.ofBits_zero_f32

/-- The output block is the accumulator with a leading unit axis added: at (0, a, b) the accumulator at (a, b). -/
theorem pay2_apply (v46 : Vec Ideal S8x128 .f32) (a : Fin 8) (b : Fin 128) :
    k0_pay2 (F := Ideal) v46 (ix3 (0 : Fin 1) a b) = v46 (ix2 a b) := by
  unfold k0_pay2
  exact shapeCast_ab_1ab_apply _ _ 0 a b

end Cert.KernelIdeal.PayVal

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.PayDot.lean ====
/-
  The Gram entry of the kernel body at the exact (extended-real) instance.

  The body rounds both [1024, 1024] blocks to bf16 (the identity on exact values) and multiplies the first by the
  transpose of the second into a zero accumulator: at (r, c) that is the inner product of row r of the first block
  and row c of the second. A block arrives with a leading unit axis, which the first recast drops.
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.LibDenseRows

noncomputable section

open scoped BigOperators

namespace Cert.KernelIdeal.PayVal

open Idealize.ShloMosaic Idealize.ShloMosaic.ValueIdx Cert.KernelIdeal Cert.KernelIdeal.Gen

/-- A [1, 1024, 1024] block recast to [1024, 1024] reads, at (r, k), the block at (0, r, k). -/
theorem block_apply (v : Vec Ideal S1x1024x1024 .f32) (h : S1x1024x1024.ShapeCasts S1024x1024) (r k : Fin 1024) :
    shapeCast S1024x1024 v h (ix2 r k) = v (ix3 (0 : Fin 1) r k) :=
  shapeCast_1ab_ab_apply v h r k

/-- The product of the two rounded blocks over their last axes, into the zero accumulator, at (r, c): the inner
    product of row r of the first and row c of the second. -/
theorem gram_apply (x y : FVec Ideal S1024x1024 .f32) (hb : FTy.bits .bf16 < FTy.bits .f32) (r c : Fin 1024) :
    matmul dot_S1024x1024_S1024x1024_S1024x1024_1_1_0_0_n_n none (truncf .bf16 x hb) (truncf .bf16 y hb)
        (constant S1024x1024 .f32 0x00000000#32) (ix2 r c)
      = ∑ k : Fin 1024, x (ix2 r k) * y (ix2 c k) :=
  Cert.DenseRows.matmulT_zero_apply (M := 1024) (K := 1024) (N := 1024) none (truncf .bf16 x hb) (truncf .bf16 y hb) r c

end Cert.KernelIdeal.PayVal

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.PayNorms.lean ====
/-
  The squared row norms of the kernel body at the exact (extended-real) instance.

  The body squares a [1024, 1024] block entry by entry, sums each row from the zero word and keeps the sums as a
  [1024, 1] column. The first block's column is repeated along the rows: at (r, c) it is the norm of row r. The second
  block's column is transposed to a [1, 1024] row and repeated down the rows: at (r, c) it is the norm of row c.
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.LibDenseRows
import proofs.«148633_j32633161515875_1_alg».proof.Proof.LibColumns

noncomputable section

open scoped BigOperators

namespace Cert.KernelIdeal.PayVal

open Idealize.ShloMosaic Idealize.ShloMosaic.ValueIdx Cert.KernelIdeal Cert.KernelIdeal.Gen

/-- The column of squared row norms: at (r, u) the sum over k of the square of the block's entry (r, k). -/
theorem normCol_apply (x : FVec Ideal S1024x1024 .f32) (h : S1024x1024.Reduces [1] S1024) (hφ : FKind.Formats .f32)
    (hacc : (0x00000000#32 : BitVec FTy.f32.bits) = FKind.add.neutral .f32 hφ) (hs : S1024.ShapeCasts S1024x1)
    (r : Fin 1024) (u : Fin 1) :
    shapeCast S1024x1 (multiReduction .add [1] S1024 (mulf x x) 0x00000000#32 h hφ hacc) hs (ix2 r u)
      = ∑ k : Fin 1024, x (ix2 r k) * x (ix2 r k) :=
  Cert.Columns.keepdimsSum_apply (mulf x x) 0x00000000#32 h hφ hacc hs r u

/-- The column repeated along the rows: at (r, c) the squared norm of row r. -/
theorem normRows_apply (x : FVec Ideal S1024x1024 .f32) (h : S1024x1024.Reduces [1] S1024) (hφ : FKind.Formats .f32)
    (hacc : (0x00000000#32 : BitVec FTy.f32.bits) = FKind.add.neutral .f32 hφ) (hs : S1024.ShapeCasts S1024x1)
    (hb : S1024x1.Broadcasts S1024x1024) (r c : Fin 1024) :
    broadcastTo S1024x1024 (shapeCast S1024x1 (multiReduction .add [1] S1024 (mulf x x) 0x00000000#32 h hφ hacc) hs) hb (ix2 r c)
      = ∑ k : Fin 1024, x (ix2 r k) * x (ix2 r k) :=
  (Cert.Columns.broadcastTo_a1_ab_apply _ hb r c).trans (normCol_apply x h hφ hacc hs r 0)

/-- The column transposed to a row and repeated down the rows: at (r, c) the squared norm of row c. -/
theorem normCols_apply (y : FVec Ideal S1024x1024 .f32) (h : S1024x1024.Reduces [1] S1024) (hφ : FKind.Formats .f32)
    (hacc : (0x00000000#32 : BitVec FTy.f32.bits) = FKind.add.neutral .f32 hφ) (hs : S1024.ShapeCasts S1024x1)
    (ht : S1024x1.Transposes [1, 0] S1x1024) (hb : S1x1024.Broadcasts S1024x1024) (r c : Fin 1024) :
    broadcastTo S1024x1024
        (transpose S1x1024 [1, 0] (shapeCast S1024x1 (multiReduction .add [1] S1024 (mulf y y) 0x00000000#32 h hφ hacc) hs) ht)
        hb (ix2 r c)
      = ∑ k : Fin 1024, y (ix2 c k) * y (ix2 c k) :=
  ((broadcastTo_1b_ab_apply _ hb r c).trans (transpose_ix2_apply _ ht (0 : Fin 1) c)).trans (normCol_apply y h hφ hacc hs c 0)

end Cert.KernelIdeal.PayVal

end
-- ==== Proof.PayKer.lean ====
/-
  One kernel value of the kernel body at the exact (extended-real) instance.

  From two [1024, 1024] blocks x and y the body forms, entry by entry, the squared norm of row r of x plus the squared
  norm of row c of y minus 2 times their inner product, cuts it at 0 from below, multiplies by −1/2 and takes the
  exponential. The three literals stay as the words the program carries.
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.Spec
import proofs.«148633_j32633161515875_1_alg».proof.Proof.PayDot
import proofs.«148633_j32633161515875_1_alg».proof.Proof.PayNorms

noncomputable section

open scoped BigOperators

namespace Cert.KernelIdeal.PayVal

open Idealize.ShloMosaic Idealize.ShloMosaic.ValueIdx Cert.KernelIdeal Cert.KernelIdeal.Gen

/-- The body's [1024, 1024] array of kernel values, as the program spells it from the two recast blocks. -/
def kerArr (x y : FVec Ideal S1024x1024 .f32) (hb16 : FTy.bits .bf16 < FTy.bits .f32) (h : S1024x1024.Reduces [1] S1024)
    (hφ : FKind.Formats .f32) (hacc : (0x00000000#32 : BitVec FTy.f32.bits) = FKind.add.neutral .f32 hφ)
    (hs : S1024.ShapeCasts S1024x1) (ht : S1024x1.Transposes [1, 0] S1x1024) (hbc : S1024x1.Broadcasts S1024x1024)
    (hbr : S1x1024.Broadcasts S1024x1024) : FVec Ideal S1024x1024 .f32 :=
  exp (mulf
    (maximumf
      (subf
        (addf
          (broadcastTo S1024x1024 (shapeCast S1024x1 (multiReduction .add [1] S1024 (mulf x x) 0x00000000#32 h hφ hacc) hs) hbc)
          (broadcastTo S1024x1024
            (transpose S1x1024 [1, 0] (shapeCast S1024x1 (multiReduction .add [1] S1024 (mulf y y) 0x00000000#32 h hφ hacc) hs) ht)
            hbr))
        (mulf (broadcast S1024x1024 (Scalar.ofBits (F := Ideal) .f32 0x40000000#32))
          (matmul dot_S1024x1024_S1024x1024_S1024x1024_1_1_0_0_n_n none (truncf .bf16 x hb16) (truncf .bf16 y hb16)
            (constant S1024x1024 .f32 0x00000000#32))))
      (broadcast S1024x1024 (Scalar.ofBits (F := Ideal) .f32 0x00000000#32)))
    (broadcast S1024x1024 (Scalar.ofBits (F := Ideal) .f32 0xBF000000#32)))

/-- The kernel value at (r, c): exp (max (‖x r‖² + ‖y c‖² − 2·⟨x r, y c⟩) 0 · (−1/2)). -/
theorem kerArr_apply (x y : FVec Ideal S1024x1024 .f32) (hb16 : FTy.bits .bf16 < FTy.bits .f32) (h : S1024x1024.Reduces [1] S1024)
    (hφ : FKind.Formats .f32) (hacc : (0x00000000#32 : BitVec FTy.f32.bits) = FKind.add.neutral .f32 hφ)
    (hs : S1024.ShapeCasts S1024x1) (ht : S1024x1.Transposes [1, 0] S1x1024) (hbc : S1024x1.Broadcasts S1024x1024)
    (hbr : S1x1024.Broadcasts S1024x1024) (r c : Fin 1024) :
    kerArr x y hb16 h hφ hacc hs ht hbc hbr (ix2 r c)
      = Ideal.exp (max ((∑ k : Fin 1024, x (ix2 r k) * x (ix2 r k)) + (∑ k : Fin 1024, y (ix2 c k) * y (ix2 c k))
                          - Cert.Mmd.w2 * (∑ k : Fin 1024, x (ix2 r k) * y (ix2 c k))) Cert.Mmd.w0 * Cert.Mmd.wNegHalf) := by
  unfold kerArr
  show Ideal.exp (max (_ + _ - Cert.Mmd.w2 * _) Cert.Mmd.w0 * Cert.Mmd.wNegHalf) = _
  refine congrArg Ideal.exp (congrArg₂ (· * ·) (congrArg₂ max (congrArg₂ (· - ·) (congrArg₂ (· + ·) ?_ ?_)
    (congrArg₂ (· * ·) rfl ?_)) rfl) rfl)
  · exact normRows_apply x h hφ hacc hs hbc r c
  · exact normCols_apply y h hφ hacc hs ht hbr r c
  · exact gram_apply x y hb16 r c

end Cert.KernelIdeal.PayVal

end
-- ==== Proof.LibColSums.lean ====
/-
  General lemmas for kernels that keep a per-column number as a [1, b] row, read at the exact (extended-real) instance.

  * `colSum_apply`: a sum of an [a, b] array along its FIRST axis is, at q, the plain sum over k of the array at (k, q).
  * `keepdimsColSum_apply`: that sum kept as a [1, b] row reads, at (u, q), the same sum.
  * `broadcast_keepdimsColSum_apply`: the row repeated down the rows of an [m, b] array reads, at (p, q), the same sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ColSums

open Idealize.ShloMosaic Idealize.ShloMosaic.ValueIdx

/-- The sum of an [a, b] array along its first axis, at q, is the sum over k of the array at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum kept as a [1, b] row: at (u, q) the sum over k of the array at (k, q). -/
theorem keepdimsColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (u : Fin 1) (q : Fin b) :
    shapeCast ⟨2, ![1, b]⟩ (multiReduction .add [0] ⟨1, ![b]⟩ src acc h hφ hacc) hs (ix2 u q) = ∑ k : Fin a, src (ix2 k q) :=
  (shapeCast_a_1a_apply _ hs u q).trans (colSum_apply src acc h hφ hacc q)

/-- The row of column sums repeated down the rows of an [m, b] array: at (p, q) the sum over k of the array at (k, q). -/
theorem broadcast_keepdimsColSum_apply {a b m : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![m, b]⟩) (p : Fin m) (q : Fin b) :
    broadcastTo ⟨2, ![m, b]⟩ (shapeCast ⟨2, ![1, b]⟩ (multiReduction .add [0] ⟨1, ![b]⟩ src acc h hφ hacc) hs) hb (ix2 p q)
      = ∑ k : Fin a, src (ix2 k q) :=
  (broadcastTo_1b_ab_apply _ hb p q).trans (keepdimsColSum_apply src acc h hφ hacc hs 0 q)

end Cert.ColSums

end
-- ==== Proof.PaySums.lean ====
/-
  The sum of all entries of a [1024, 1024] array as the kernel body takes it, at the exact (extended-real) instance.

  The body sums each row from the zero word and keeps the sums as a [1024, 1] column, sums that column along its first
  axis from the zero word, recasts the one number as a [1, 1] array and repeats it over an [8, 128] tile. At every entry
  of the tile that is the plain double sum over rows and columns: no order of summation is left in it.
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.LibDenseRows
import proofs.«148633_j32633161515875_1_alg».proof.Proof.LibColumns
import proofs.«148633_j32633161515875_1_alg».proof.Proof.LibColSums

noncomputable section

open scoped BigOperators

namespace Cert.KernelIdeal.PayVal

open Idealize.ShloMosaic Idealize.ShloMosaic.ValueIdx Cert.KernelIdeal Cert.KernelIdeal.Gen

/-- A [1, 1] array repeated over an [a, b] tile reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The body's total of a [1024, 1024] array, read at any entry of the [8, 128] tile: the sum over rows r of the sum
    over columns c of the array at (r, c). -/
theorem total_apply (z : FVec Ideal S1024x1024 .f32) (h1 : S1024x1024.Reduces [1] S1024) (hφ : FKind.Formats .f32)
    (hacc : (0x00000000#32 : BitVec FTy.f32.bits) = FKind.add.neutral .f32 hφ) (hs : S1024.ShapeCasts S1024x1)
    (h0 : S1024x1.Reduces [0] S1) (hφ' : FKind.Formats .f32)
    (hacc' : (0x00000000#32 : BitVec FTy.f32.bits) = FKind.add.neutral .f32 hφ') (hc : S1.ShapeCasts S1x1)
    (hc' : S1x1.ShapeCasts S1x1) (hb : S1x1.Broadcasts S8x128) (a : Fin 8) (b : Fin 128) :
    broadcastTo S8x128
        (shapeCast S1x1
          (shapeCast S1x1
            (multiReduction .add [0] S1
              (shapeCast S1024x1 (multiReduction .add [1] S1024 z 0x00000000#32 h1 hφ hacc) hs) 0x00000000#32 h0 hφ' hacc')
            hc)
          hc')
        hb (ix2 a b)
      = ∑ r : Fin 1024, ∑ c : Fin 1024, z (ix2 r c) := by
  refine (broadcastTo_11_ab_apply _ hb a b).trans ?_
  refine (congrFun (shapeCast_self _ hc') _).trans ?_
  refine (shapeCast_a_1a_apply _ hc (0 : Fin 1) (0 : Fin 1)).trans ?_
  refine (Cert.ColSums.colSum_apply _ 0x00000000#32 h0 hφ' hacc' (0 : Fin 1)).trans ?_
  exact Finset.sum_congr rfl fun r _ => Cert.Columns.keepdimsSum_apply z 0x00000000#32 h1 hφ hacc hs r (0 : Fin 1)

end Cert.KernelIdeal.PayVal

end
-- ==== Proof.Pay.lean ====
/-
  The four values the kernel body stores or hands on, each read at one index of the exact (extended-real) instance.

  The block's value is the sum, over the rows r of the first [1024, 1024] block and the rows c of the second, of the
  Gaussian kernel value exp (max (‖r‖² + ‖c‖² − 2·⟨r, c⟩) 0 · (−1/2)), repeated over the [8, 128] tile; the other three
  are the accumulator's start (zero), its update (old plus new) and the output block (the accumulator recast).
-/
import proofs.«148633_j32633161515875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«148633_j32633161515875_1_alg».proof.Proof.Spec
import proofs.«148633_j32633161515875_1_alg».proof.Proof.PayRows
import proofs.«148633_j32633161515875_1_alg».proof.Proof.PayDot
import proofs.«148633_j32633161515875_1_alg».proof.Proof.PayKer
import proofs.«148633_j32633161515875_1_alg».proof.Proof.PaySums

noncomputable section

open scoped BigOperators

namespace Cert.KernelIdeal.PayVal

open Idealize.ShloMosaic Idealize.ShloMosaic.ValueIdx Cert.KernelIdeal Cert.KernelIdeal.Gen

/-- The block's value at any entry (a, b) of the tile: the double sum of kernel values over the rows of the two blocks. -/
theorem pay4_apply (v5 v7 : Vec Ideal S1x1024x1024 .f32) (a : Fin 8) (b : Fin 128) :
    k0_pay4 (F := Ideal) v5 v7 (ix2 a b)
      = ∑ r : Fin 1024, ∑ c : Fin 1024,
          Ideal.exp (max ((∑ k : Fin 1024, v5 (ix3 (0 : Fin 1) r k) * v5 (ix3 (0 : Fin 1) r k))
                            + (∑ k : Fin 1024, v7 (ix3 (0 : Fin 1) c k) * v7 (ix3 (0 : Fin 1) c k))
                            - Cert.Mmd.w2 * (∑ k : Fin 1024, v5 (ix3 (0 : Fin 1) r k) * v7 (ix3 (0 : Fin 1) c k)))
                        Cert.Mmd.w0 * Cert.Mmd.wNegHalf) := by
  unfold k0_pay4
  refine (total_apply
    (kerArr (shapeCast S1024x1024 v5 shapeCasts_S1x1024x1024_S1024x1024) (shapeCast S1024x1024 v7 shapeCasts_S1x1024x1024_S1024x1024)
      bitsLt_bf16_f32 reduces_S1024x1024_S1024 (.inl rfl) rfl shapeCasts_S1024_S1024x1 transposes_S1024x1_p1_0_S1x1024
      broadcasts_S1024x1_S1024x1024 broadcasts_S1x1024_S1024x1024)
    reduces_S1024x1024_S1024 (.inl rfl) rfl shapeCasts_S1024_S1024x1 reduces_S1024x1_S1 (.inl rfl) rfl shapeCasts_S1_S1x1
    shapeCasts_S1x1_S1x1 broadcasts_S1x1_S8x128 a b).trans ?_
  refine Finset.sum_congr rfl fun r _ => Finset.sum_congr rfl fun c _ => ?_
  refine (kerArr_apply _ _ _ _ _ _ _ _ _ _ r c).trans ?_
  have hx : ∀ (i k : Fin 1024), shapeCast S1024x1024 v5 shapeCasts_S1x1024x1024_S1024x1024 (ix2 i k) = v5 (ix3 (0 : Fin 1) i k) :=
    fun i k => block_apply v5 _ i k
  have hy : ∀ (i k : Fin 1024), shapeCast S1024x1024 v7 shapeCasts_S1x1024x1024_S1024x1024 (ix2 i k) = v7 (ix3 (0 : Fin 1) i k) :=
    fun i k => block_apply v7 _ i k
  exact congrArg Ideal.exp (congrArg₂ (· * ·) (congrArg₂ max (congrArg₂ (· - ·)
    (congrArg₂ (· + ·) (Finset.sum_congr rfl fun k _ => congrArg₂ (· * ·) (hx r k) (hx r k))
      (Finset.sum_congr rfl fun k _ => congrArg₂ (· * ·) (hy c k) (hy c k)))
    (congrArg₂ (· * ·) rfl (Finset.sum_congr rfl fun k _ => congrArg₂ (· * ·) (hx r k) (hy c k)))) rfl) rfl)

end Cert.KernelIdeal.PayVal

end
-- ==== Proof.TilesKer.lean ====
/-
  A pair's kernel sum, accumulated tile by tile.

  A running total that starts at zero and at step n = 4·I + J (n = 0 … 15) adds the double sum of the kernel values
  over tile (I, J) — rows 1024·I … 1024·I + 1023 of the first sample against rows 1024·J … 1024·J + 1023 of the second —
  holds after sixteen steps the sum of all 4096 × 4096 kernel values of the pair.
-/
import proofs.«148633_j32633161515875_1_alg».proof.Proof.Spec
import proofs.«148633_j32633161515875_1_alg».proof.Proof.Tiles

noncomputable section

namespace Cert.Mmd

open Cert.Tiles

/-- The double sum of the kernel values over tile (I, J). -/
def tileSum (a b : Mat) (I J : Fin 4) : EReal :=
  ∑ r : Fin 1024, ∑ c : Fin 1024, kerK a b (tileIdx I r) (tileIdx J c)

/-- Sixteen steps of the running total reach the pair's whole sum. -/
theorem pair_sum (a b : Mat) (accv P : ℕ → EReal) (h0 : accv 0 = 0) (hs : ∀ n, accv (n + 1) = accv n + P n)
    (hP : ∀ n (hn : n < 16), P n = tileSum a b ⟨n / 4, by omega⟩ ⟨n % 4, by omega⟩) :
    accv 16 = kerSum a b := by
  let Q : ℕ → ℕ → EReal := fun I J => if h : I < 4 ∧ J < 4 then tileSum a b ⟨I, h.1⟩ ⟨J, h.2⟩ else 0
  rw [running_total P accv h0 hs 16]
  have hQ : ∀ k ∈ Finset.range 16, P k = Q (k / 4) (k % 4) := fun k hk => by
    have hk' : k < 16 := Finset.mem_range.1 hk
    rw [hP k hk']
    show _ = if h : k / 4 < 4 ∧ k % 4 < 4 then tileSum a b ⟨k / 4, h.1⟩ ⟨k % 4, h.2⟩ else 0
    rw [dif_pos ⟨by omega, by omega⟩]
  rw [Finset.sum_congr rfl hQ, sum_range16 Q]
  unfold kerSum
  rw [sum_tiles]
  refine Finset.sum_congr rfl fun I _ => Finset.sum_congr rfl fun J _ => ?_
  show (if h : I.val < 4 ∧ J.val < 4 then tileSum a b ⟨I.val, h.1⟩ ⟨J.val, h.2⟩ else 0) = _
  rw [dif_pos ⟨I.isLt, J.isLt⟩]
  rfl

end Cert.Mmd

end
-- ==== Proof.KVal.lean ====
/-
  The accumulated scratch value of one pair of samples, at the exact instance.

  At a grid point the body adds to the scratch the double sum, over the rows of its two input blocks, of the kernel
  values. When the two blocks are rows 1024·I … of a sample a and rows 1024·J … of a sample b, that double sum is the
  sum over tile (I, J); and a scratch started at zero and updated at the sixteen points n = 4·I + J of a pair holds the
  pair's whole kernel sum at every entry of its [8, 128] tile.
-/
import proofs.«148633_j32633161515875_1_alg».proof.Proof.Pay
import proofs.«148633_j32633161515875_1_alg».proof.Proof.TilesKer

noncomputable section

namespace Cert.KernelIdeal.KVal

open Idealize.ShloMosaic Idealize.ShloMosaic.ValueIdx Cert.KernelIdeal Cert.KernelIdeal.Gen Cert.Mmd Cert.Tiles

/-- The block value of the rows of tile (I, J) is the tile's sum. -/
theorem pay4_tile (a b : Mat) (I J : Fin 4) (v5 v7 : Vec Ideal S1x1024x1024 .f32)
    (h5 : ∀ (r k : Fin 1024), v5 (ix3 (0 : Fin 1) r k) = a (ix2 (tileIdx I r) k))
    (h7 : ∀ (r k : Fin 1024), v7 (ix3 (0 : Fin 1) r k) = b (ix2 (tileIdx J r) k)) (p : Fin 8) (q : Fin 128) :
    k0_pay4 (F := Ideal) v5 v7 (ix2 p q) = tileSum a b I J := by
  rw [Cert.KernelIdeal.PayVal.pay4_apply]
  unfold tileSum kerK sqDist rowSq rowDot
  simp only [h5, h7]

/-- Sixteen updates of a scratch started at zero hold the pair's kernel sum at every entry. -/
theorem acc_value (a b : Mat) (acc : ℕ → FVec Ideal S8x128 .f32) (bA bB : ℕ → Vec Ideal S1x1024x1024 .f32)
    (h0 : acc 0 = k0_pay3 (F := Ideal))
    (hs : ∀ n, acc (n + 1) = k0_pay1 (F := Ideal) (acc n) (k0_pay4 (F := Ideal) (bA n) (bB n)))
    (hA : ∀ n (hn : n < 16) (r k : Fin 1024), bA n (ix3 (0 : Fin 1) r k) = a (ix2 (tileIdx ⟨n / 4, by omega⟩ r) k))
    (hB : ∀ n (hn : n < 16) (r k : Fin 1024), bB n (ix3 (0 : Fin 1) r k) = b (ix2 (tileIdx ⟨n % 4, by omega⟩ r) k))
    (p : Fin 8) (q : Fin 128) : acc 16 (ix2 p q) = kerSum a b := by
  refine pair_sum a b (fun n => acc n (ix2 p q)) (fun n => k0_pay4 (F := Ideal) (bA n) (bB n) (ix2 p q)) ?_ ?_ ?_
  · show acc 0 (ix2 p q) = 0
    rw [h0]; exact Cert.KernelIdeal.PayVal.pay3_apply _
  · intro n
    show acc (n + 1) (ix2 p q) = _
    rw [hs]; exact Cert.KernelIdeal.PayVal.pay1_apply _ _ _
  · intro n hn
    exact pay4_tile a b _ _ _ _ (hA n hn) (hB n hn) p q

end Cert.KernelIdeal.KVal

end
-- ==== Proof.KPairs.lean ====
/-
  The scratch after a pair's sixteen points, at the tables' literal contents and the exact instance.

  Pair p reads its rows from half [0, 1, 0][p] of the stacked array and its columns from half [0, 1, 1][p]: pair 0 is
  (x, x), pair 1 is (y, y), pair 2 is (x, y). Point n of a pair has block indices (row half, n / 4, 0) and
  (column half, n % 4, 0), decided once over the 48 grid points. With the stacked array read as x over y, the two input
  tiles are the rows of tile (n / 4, n % 4) of the pair's samples, and the accumulated scratch is the pair's kernel sum.
-/
import proofs.«148633_j32633161515875_1_alg».proof.Proof.KAdm
import proofs.«148633_j32633161515875_1_alg».proof.Proof.KBlk
import proofs.«148633_j32633161515875_1_alg».proof.Proof.KVal

noncomputable section

namespace Cert.KernelIdeal.Hand

open Cert.KernelIdeal Cert.KernelIdeal.Gen Cert.Tiles Cert.Mmd
open Idealize.ShloMosaic Idealize.ShloMosaic.TcCoe Idealize.ShloMosaic.ValueIdx
open Idealize.SL.Sem

/-- The block indices of the two input windows at every grid point t = 16·p + 4·i + j, at the literal tables. -/
theorem idx_adm : ∀ t : Fin grid0.N,
    ((cfgA (adm (F := Ideal))).win 0).index t (0 : Fin 3) = (![0, 1, 0] : Fin 3 → ℕ) ⟨t.val / 16 % 3, Nat.mod_lt _ (by decide)⟩
    ∧ ((cfgA (adm (F := Ideal))).win 0).index t (1 : Fin 3) = t.val / 4 % 4
    ∧ ((cfgA (adm (F := Ideal))).win 0).index t (2 : Fin 3) = 0
    ∧ ((cfgA (adm (F := Ideal))).win 1).index t (0 : Fin 3) = (![0, 1, 1] : Fin 3 → ℕ) ⟨t.val / 16 % 3, Nat.mod_lt _ (by decide)⟩
    ∧ ((cfgA (adm (F := Ideal))).win 1).index t (1 : Fin 3) = t.val % 4
    ∧ ((cfgA (adm (F := Ideal))).win 1).index t (2 : Fin 3) = 0 := by
  decide +kernel

/-- The half of the stacked array pair p takes its rows from, and the one it takes its columns from. -/
def rowHalf (p : Fin 3) : Fin 2 := ⟨(![0, 1, 0] : Fin 3 → ℕ) p, by fin_cases p <;> decide⟩
def colHalf (p : Fin 3) : Fin 2 := ⟨(![0, 1, 1] : Fin 3 → ℕ) p, by fin_cases p <;> decide⟩

/-- The stacked array's halves: x first, y second. -/
def half (x y : Mat) (h : Fin 2) : Mat := if h = 0 then x else y

theorem half_zero (x y : Mat) : half x y 0 = x := if_pos rfl
theorem half_one (x y : Mat) : half x y 1 = y := if_neg (by decide)

variable (c : Dev nD) (V : (b : Ref sig .tc) → Buf (Elt Ideal) ((c.tc : Thread nD τ).loc b))

/-- The scratch after the sixteen points of pair p is the kernel sum of the pair's samples, at every entry. -/
theorem acc_pair (x y : Mat)
    (hV : ∀ (h : Fin 2) (r : Fin 4096) (k : Fin 1024), V main_v2 (ix3 h r k) = half x y h (ix2 r k))
    (p : Fin 3) (r : Fin 8) (q : Fin 128) :
    acc (adm (F := Ideal)) c V p 16 (ix2 r q) = kerSum (half x y (rowHalf p)) (half x y (colHalf p)) := by
  refine Cert.KernelIdeal.KVal.acc_value (half x y (rowHalf p)) (half x y (colHalf p)) (acc (adm (F := Ideal)) c V p)
    (fun n => blkA (adm (F := Ideal)) c V (pt (adm (F := Ideal)) p n)) (fun n => blkB (adm (F := Ideal)) c V (pt (adm (F := Ideal)) p n))
    rfl (fun n => rfl) ?_ ?_ r q
  · intro n hn r' k
    obtain ⟨e0, e1, e2, -, -, -⟩ := idx_adm (pt (adm (F := Ideal)) p n)
    have hp : p.val < 3 := p.isLt
    have hv : (pt (adm (F := Ideal)) p n).val = 16 * p.val + n := by
      show 16 * p.val + n % 16 = 16 * p.val + n; omega
    have hi : (⟨(pt (adm (F := Ideal)) p n).val / 16 % 3, Nat.mod_lt _ (by decide)⟩ : Fin 3) = p := by
      apply Fin.ext; show (pt (adm (F := Ideal)) p n).val / 16 % 3 = p.val; omega
    rw [hi] at e0
    rw [blkA_apply (adm (F := Ideal)) c V (pt (adm (F := Ideal)) p n) (rowHalf p) ⟨n / 4, by omega⟩ e0
      (by rw [e1, hv]; show (16 * p.val + n) / 4 % 4 = n / 4; omega) e2 r' k, hV]
  · intro n hn r' k
    obtain ⟨-, -, -, e0, e1, e2⟩ := idx_adm (pt (adm (F := Ideal)) p n)
    have hp : p.val < 3 := p.isLt
    have hv : (pt (adm (F := Ideal)) p n).val = 16 * p.val + n := by
      show 16 * p.val + n % 16 = 16 * p.val + n; omega
    have hi : (⟨(pt (adm (F := Ideal)) p n).val / 16 % 3, Nat.mod_lt _ (by decide)⟩ : Fin 3) = p := by
      apply Fin.ext; show (pt (adm (F := Ideal)) p n).val / 16 % 3 = p.val; omega
    rw [hi] at e0
    rw [blkB_apply (adm (F := Ideal)) c V (pt (adm (F := Ideal)) p n) (colHalf p) ⟨n % 4, by omega⟩ e0
      (by rw [e1, hv]; show (16 * p.val + n) % 4 = n % 4; omega) e2 r' k, hV]

end Cert.KernelIdeal.Hand

end
-- ==== Proof.KTailVal.lean ====
/-
  The kernel program's result, at the exact instance: the estimator of Spec.lean with the diagonal terms 4096.

  The region's result array holds, in block p, the scratch after the sixteen points of pair p; its corners (p, 0, 0) are
  the three kernel sums of (x, x), (y, y) and (x, y), and the host operations after the region turn them into
  ((Sxx − 4096)/(4096·4095) + (Syy − 4096)/(4096·4095)) − 2·Sxy/4096².
-/
import proofs.«148633_j32633161515875_1_alg».proof.Proof.KPairs
import proofs.«148633_j32633161515875_1_alg».proof.Proof.KTail

noncomputable section

namespace Cert.KernelIdeal.Hand

open Cert.KernelIdeal Cert.KernelIdeal.Gen Cert.Mmd
open Idealize.ShloMosaic Idealize.ShloMosaic.TcCoe Idealize.ShloMosaic.ValueIdx
open Idealize.SL.Sem

variable (c : Dev nD) (V : (b : Ref sig .tc) → Buf (Elt Ideal) ((c.tc : Thread nD τ).loc b))

/-- From a result array whose block p is the scratch after pair p's points, the host tail computes `kerVal x y`. -/
theorem tail_value (o : FVec Ideal S3x8x128 .f32) (x y : Mat)
    (hV : ∀ (h : Fin 2) (r : Fin 4096) (k : Fin 1024), V main_v2 (ix3 h r k) = half x y h (ix2 r k))
    (ho : ∀ (p : Fin 3) (r : Fin 8) (q : Fin 128), o (ix3 p r q) = acc (adm (F := Ideal)) c V p 16 (ix2 r q)) :
    hostTail o = fun _ => kerVal x y := by
  funext j
  rw [ValueIdx.eq_ix0 j, hostTail_apply, ho, ho, ho, acc_pair c V x y hV, acc_pair c V x y hV, acc_pair c V x y hV]
  have r0 : rowHalf 0 = 0 := rfl
  have r1 : rowHalf 1 = 1 := rfl
  have r2 : rowHalf 2 = 0 := rfl
  have c0 : colHalf 0 = 0 := rfl
  have c1 : colHalf 1 = 1 := rfl
  have c2 : colHalf 2 = 1 := rfl
  rw [r0, r1, r2, c0, c1, c2, half_zero, half_one]
  rfl

end Cert.KernelIdeal.Hand

end
-- ==== Proof.LibTypedRefs.lean ====
/-
  General lemmas about typed references (a buffer reference carrying the tensor value's type), used when a host program's
  outlined function is read operation by operation: an operation over typed references moves its operands from the buffers'
  own types to the value's type and its result back, by transport along the reference's type equation.

  * `ofBuf_toBuf` / `toBuf_ofBuf`: the two transports are inverse to each other, so a value written by one such operation and
    read by the next is read as it was written.
-/
import Idealize.ShloMosaic.Lib.StableHlo

noncomputable section

namespace Cert.TypedRefs

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h2, h3⟩ := x
  subst h
  rfl

/-- Contents moved to the value's type and back are the contents. -/
theorem toBuf_ofBuf (x : TRef sig T) (v : x.ref.ty.Contents Val) : x.toBuf (x.ofBuf v) = v := by
  obtain ⟨r, h, h2, h3⟩ := x
  subst h
  rfl

end Cert.TypedRefs

end
-- ==== Proof.RefOps.lean ====
/-
  The reference program as a straight line of host operations.

  Once the two calls of the diagonal-sum function (and, inside each, the call of the selection function) are replaced by
  the callee's operations over the call's own buffers, the program is 115 operations in a row. Every weakly fair execution
  of it terminates, and every buffer ends at the fold of the operations' results over the launch contents.
-/
import proofs.«148633_j32633161515875_1_alg».proof.ReferenceIdeal
import proofs.«148633_j32633161515875_1_alg».proof.Proof.LibTypedRefs
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- The program's 115 operations, in order: its own, and at each call of the diagonal-sum function that function's eleven
    (two index tables, their comparison, the selection against zero, the sum) over the call's buffers. -/
abbrev ops : List (HloOp τ sig (Elt F)) :=
  [
    binary main_arg0 main_arg0 main_v0 (mulf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_v0 main_cst main_v1 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    binary main_arg0 main_arg0 main_v3 (mulf : (⟨S4096x1024, .f32⟩ : BufTy).Contents (Elt F) → (⟨S4096x1024, .f32⟩ : BufTy).Contents (Elt F) → (⟨S4096x1024, .f32⟩ : BufTy).Contents (Elt F)),
    nullary main_cst_0 (constant S_ .f32 0x00000000#32),
    binary main_v3 main_cst_0 main_v4 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v4 main_v5 (broadcastInDim S1x4096 ![1] bcast_S4096_S1x4096_1 : (⟨S4096, .f32⟩ : BufTy).Contents (Elt F) → (⟨S1x4096, .f32⟩ : BufTy).Contents (Elt F)),
    unary main_arg0 main_v6 ((transpose S1024x4096 [1, 0] · transposes_S4096x1024_S1024x4096_1_0) : (⟨S4096x1024, .f32⟩ : BufTy).Contents (Elt F) → (⟨S1024x4096, .f32⟩ : BufTy).Contents (Elt F)),
    binary main_arg0 main_v6 main_v7 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_v2 main_v8 (broadcastInDim S4096x4096 ![0, 1] bcast_S4096x1_S4096x4096_0_1 : (⟨S4096x1, .f32⟩ : BufTy).Contents (Elt F) → (⟨S4096x4096, .f32⟩ : BufTy).Contents (Elt F)),
    unary main_v5 main_v9 (broadcastInDim S4096x4096 ![0, 1] bcast_S1x4096_S4096x4096_0_1 : (⟨S1x4096, .f32⟩ : BufTy).Contents (Elt F) → (⟨S4096x4096, .f32⟩ : BufTy).Contents (Elt F)),
    binary main_v8 main_v9 main_v10 (addf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x40000000#32),
    unary main_cst_1 main_v11 (broadcastInDim S4096x4096 ![] bcast_S_S4096x4096 : (⟨S_, .f32⟩ : BufTy).Contents (Elt F) → (⟨S4096x4096, .f32⟩ : BufTy).Contents (Elt F)),
    binary main_v11 main_v7 main_v12 (mulf : (⟨S4096x4096, .f32⟩ : BufTy).Contents (Elt F) → (⟨S4096x4096, .f32⟩ : BufTy).Contents (Elt F) → (⟨S4096x4096, .f32⟩ : BufTy).Contents (Elt F)),
    binary main_v10 main_v12 main_v13 (subf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    unary main_cst_2 main_v14 (broadcastInDim S4096x4096 ![] bcast_S_S4096x4096 : (⟨S_, .f32⟩ : BufTy).Contents (Elt F) → (⟨S4096x4096, .f32⟩ : BufTy).Contents (Elt F)),
    binary main_v13 main_v14 main_v15 (maximumf : (⟨S4096x4096, .f32⟩ : BufTy).Contents (Elt F) → (⟨S4096x4096, .f32⟩ : BufTy).Contents (Elt F) → (⟨S4096x4096, .f32⟩ : BufTy).Contents (Elt F)),
    unary main_v15 main_v16 (Host.negf : (⟨S4096x4096, .f32⟩ : BufTy).Contents (Elt F) → (⟨S4096x4096, .f32⟩ : BufTy).Contents (Elt F)),
    nullary main_cst_3 (constant S_ .f32 0x40000000#32),
    unary main_cst_3 main_v17 (broadcastInDim S4096x4096 ![] bcast_S_S4096x4096 : (⟨S_, .f32⟩ : BufTy).Contents (Elt F) → (⟨S4096x4096, .f32⟩ : BufTy).Contents (Elt F)),
    binary main_v16 main_v17 main_v18 (Host.divf : (⟨S4096x4096, .f32⟩ : BufTy).Contents (Elt F) → (⟨S4096x4096, .f32⟩ : BufTy).Contents (Elt F) → (⟨S4096x4096, .f32⟩ : BufTy).Contents (Elt F)),
    unary main_v18 main_v19 (Host.exp : (⟨S4096x4096, .f32⟩ : BufTy).Contents (Elt F) → (⟨S4096x4096, .f32⟩ : BufTy).Contents (Elt F)),
    binary main_arg1 main_arg1 main_v20 (mulf : (⟨S4096x1024, .f32⟩ : BufTy).Contents (Elt F) → (⟨S4096x1024, .f32⟩ : BufTy).Contents (Elt F) → (⟨S4096x1024, .f32⟩ : BufTy).Contents (Elt F)),
    nullary main_cst_4 (constant S_ .f32 0x00000000#32),
    binary main_v20 main_cst_4 main_v21 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v21 main_v22 (broadcastInDim S4096x1 ![0] bcast_S4096_S4096x1_0 : (⟨S4096, .f32⟩ : BufTy).Contents (Elt F) → (⟨S4096x1, .f32⟩ : BufTy).Contents (Elt F)),
    binary main_arg1 main_arg1 main_v23 (mulf : (⟨S4096x1024, .f32⟩ : BufTy).Contents (Elt F) → (⟨S4096x1024, .f32⟩ : BufTy).Contents (Elt F) → (⟨S4096x1024, .f32⟩ : BufTy).Contents (Elt F)),
    nullary main_cst_5 (constant S_ .f32 0x00000000#32),
    binary main_v23 main_cst_5 main_v24 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v24 main_v25 (broadcastInDim S1x4096 ![1] bcast_S4096_S1x4096_1 : (⟨S4096, .f32⟩ : BufTy).Contents (Elt F) → (⟨S1x4096, .f32⟩ : BufTy).Contents (Elt F)),
    unary main_arg1 main_v26 ((transpose S1024x4096 [1, 0] · transposes_S4096x1024_S1024x4096_1_0) : (⟨S4096x1024, .f32⟩ : BufTy).Contents (Elt F) → (⟨S1024x4096, .f32⟩ : BufTy).Contents (Elt F)),
    binary main_arg1 main_v26 main_v27 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_v22 main_v28 (broadcastInDim S4096x4096 ![0, 1] bcast_S4096x1_S4096x4096_0_1 : (⟨S4096x1, .f32⟩ : BufTy).Contents (Elt F) → (⟨S4096x4096, .f32⟩ : BufTy).Contents (Elt F)),
    unary main_v25 main_v29 (broadcastInDim S4096x4096 ![0, 1] bcast_S1x4096_S4096x4096_0_1 : (⟨S1x4096, .f32⟩ : BufTy).Contents (Elt F) → (⟨S4096x4096, .f32⟩ : BufTy).Contents (Elt F)),
    binary main_v28 main_v29 main_v30 (addf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x40000000#32),
    unary main_cst_6 main_v31 (broadcastInDim S4096x4096 ![] bcast_S_S4096x4096 : (⟨S_, .f32⟩ : BufTy).Contents (Elt F) → (⟨S4096x4096, .f32⟩ : BufTy).Contents (Elt F)),
    binary main_v31 main_v27 main_v32 (mulf : (⟨S4096x4096, .f32⟩ : BufTy).Contents (Elt F) → (⟨S4096x4096, .f32⟩ : BufTy).Contents (Elt F) → (⟨S4096x4096, .f32⟩ : BufTy).Contents (Elt F)),
    binary main_v30 main_v32 main_v33 (subf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    unary main_cst_7 main_v34 (broadcastInDim S4096x4096 ![] bcast_S_S4096x4096 : (⟨S_, .f32⟩ : BufTy).Contents (Elt F) → (⟨S4096x4096, .f32⟩ : BufTy).Contents (Elt F)),
    binary main_v33 main_v34 main_v35 (maximumf : (⟨S4096x4096, .f32⟩ : BufTy).Contents (Elt F) → (⟨S4096x4096, .f32⟩ : BufTy).Contents (Elt F) → (⟨S4096x4096, .f32⟩ : BufTy).Contents (Elt F)),
    unary main_v35 main_v36 (Host.negf : (⟨S4096x4096, .f32⟩ : BufTy).Contents (Elt F) → (⟨S4096x4096, .f32⟩ : BufTy).Contents (Elt F)),
    nullary main_cst_8 (constant S_ .f32 0x40000000#32),
    unary main_cst_8 main_v37 (broadcastInDim S4096x4096 ![] bcast_S_S4096x4096 : (⟨S_, .f32⟩ : BufTy).Contents (Elt F) → (⟨S4096x4096, .f32⟩ : BufTy).Contents (Elt F)),
    binary main_v36 main_v37 main_v38 (Host.divf : (⟨S4096x4096, .f32⟩ : BufTy).Contents (Elt F) → (⟨S4096x4096, .f32⟩ : BufTy).Contents (Elt F) → (⟨S4096x4096, .f32⟩ : BufTy).Contents (Elt F)),
    unary main_v38 main_v39 (Host.exp : (⟨S4096x4096, .f32⟩ : BufTy).Contents (Elt F) → (⟨S4096x4096, .f32⟩ : BufTy).Contents (Elt F)),
    binary main_arg0 main_arg0 main_v40 (mulf : (⟨S4096x1024, .f32⟩ : BufTy).Contents (Elt F) → (⟨S4096x1024, .f32⟩ : BufTy).Contents (Elt F) → (⟨S4096x1024, .f32⟩ : BufTy).Contents (Elt F)),
    nullary main_cst_9 (constant S_ .f32 0x00000000#32),
    binary main_v40 main_cst_9 main_v41 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v41 main_v42 (broadcastInDim S4096x1 ![0] bcast_S4096_S4096x1_0 : (⟨S4096, .f32⟩ : BufTy).Contents (Elt F) → (⟨S4096x1, .f32⟩ : BufTy).Contents (Elt F)),
    binary main_arg1 main_arg1 main_v43 (mulf : (⟨S4096x1024, .f32⟩ : BufTy).Contents (Elt F) → (⟨S4096x1024, .f32⟩ : BufTy).Contents (Elt F) → (⟨S4096x1024, .f32⟩ : BufTy).Contents (Elt F)),
    nullary main_cst_10 (constant S_ .f32 0x00000000#32),
    binary main_v43 main_cst_10 main_v44 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v44 main_v45 (broadcastInDim S1x4096 ![1] bcast_S4096_S1x4096_1 : (⟨S4096, .f32⟩ : BufTy).Contents (Elt F) → (⟨S1x4096, .f32⟩ : BufTy).Contents (Elt F)),
    unary main_arg1 main_v46 ((transpose S1024x4096 [1, 0] · transposes_S4096x1024_S1024x4096_1_0) : (⟨S4096x1024, .f32⟩ : BufTy).Contents (Elt F) → (⟨S1024x4096, .f32⟩ : BufTy).Contents (Elt F)),
    binary main_arg0 main_v46 main_v47 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_v42 main_v48 (broadcastInDim S4096x4096 ![0, 1] bcast_S4096x1_S4096x4096_0_1 : (⟨S4096x1, .f32⟩ : BufTy).Contents (Elt F) → (⟨S4096x4096, .f32⟩ : BufTy).Contents (Elt F)),
    unary main_v45 main_v49 (broadcastInDim S4096x4096 ![0, 1] bcast_S1x4096_S4096x4096_0_1 : (⟨S1x4096, .f32⟩ : BufTy).Contents (Elt F) → (⟨S4096x4096, .f32⟩ : BufTy).Contents (Elt F)),
    binary main_v48 main_v49 main_v50 (addf : (⟨S4096x4096, .f32⟩ : BufTy).Contents (Elt F) → (⟨S4096x4096, .f32⟩ : BufTy).Contents (Elt F) → (⟨S4096x4096, .f32⟩ : BufTy).Contents (Elt F)),
    nullary main_cst_11 (constant S_ .f32 0x40000000#32),
    unary main_cst_11 main_v51 (broadcastInDim S4096x4096 ![] bcast_S_S4096x4096 : (⟨S_, .f32⟩ : BufTy).Contents (Elt F) → (⟨S4096x4096, .f32⟩ : BufTy).Contents (Elt F)),
    binary main_v51 main_v47 main_v52 (mulf : (⟨S4096x4096, .f32⟩ : BufTy).Contents (Elt F) → (⟨S4096x4096, .f32⟩ : BufTy).Contents (Elt F) → (⟨S4096x4096, .f32⟩ : BufTy).Contents (Elt F)),
    binary main_v50 main_v52 main_v53 (subf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x00000000#32),
    unary main_cst_12 main_v54 (broadcastInDim S4096x4096 ![] bcast_S_S4096x4096 : (⟨S_, .f32⟩ : BufTy).Contents (Elt F) → (⟨S4096x4096, .f32⟩ : BufTy).Contents (Elt F)),
    binary main_v53 main_v54 main_v55 (maximumf : (⟨S4096x4096, .f32⟩ : BufTy).Contents (Elt F) → (⟨S4096x4096, .f32⟩ : BufTy).Contents (Elt F) → (⟨S4096x4096, .f32⟩ : BufTy).Contents (Elt F)),
    unary main_v55 main_v56 (Host.negf : (⟨S4096x4096, .f32⟩ : BufTy).Contents (Elt F) → (⟨S4096x4096, .f32⟩ : BufTy).Contents (Elt F)),
    nullary main_cst_13 (constant S_ .f32 0x40000000#32),
    unary main_cst_13 main_v57 (broadcastInDim S4096x4096 ![] bcast_S_S4096x4096 : (⟨S_, .f32⟩ : BufTy).Contents (Elt F) → (⟨S4096x4096, .f32⟩ : BufTy).Contents (Elt F)),
    binary main_v56 main_v57 main_v58 (Host.divf : (⟨S4096x4096, .f32⟩ : BufTy).Contents (Elt F) → (⟨S4096x4096, .f32⟩ : BufTy).Contents (Elt F) → (⟨S4096x4096, .f32⟩ : BufTy).Contents (Elt F)),
    unary main_v58 main_v59 (Host.exp : (⟨S4096x4096, .f32⟩ : BufTy).Contents (Elt F) → (⟨S4096x4096, .f32⟩ : BufTy).Contents (Elt F)),
    nullary main_cst_14 (constant S_ .f32 0x00000000#32),
    binary main_v19 main_cst_14 main_v60 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    TRef.nullary main_call0.v0 (iotaInDim S4096x4096 32 0),
    TRef.nullary main_call0.v1 (iotaInDim S4096x4096 32 1),
    TRef.nullary main_call0.c (constantI S_ 32 0#32),
    TRef.unary main_call0.c main_call0.v2 (broadcastInDim S4096x4096 ![] bcast_S_S4096x4096),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4096x4096 ![] bcast_S_S4096x4096),
    TRef.ternary main_call0.v4 (.of main_v19) main_call0.v5 main_call0.call0.v0 select,
    TRef.nullary main_call0.cst_0 (constant S_ .f32 0x00000000#32),
    TRef.binary main_call0.call0.v0 main_call0.cst_0 main_call0.v7 (fun x v => Host.reduceAdd x v reducesTo_S4096x4096_S_d0_1 h_S_),
    binary main_v60 main_v61 main_v62 (subf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_v39 main_cst_15 main_v63 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    TRef.nullary main_call1.v0 (iotaInDim S4096x4096 32 0),
    TRef.nullary main_call1.v1 (iotaInDim S4096x4096 32 1),
    TRef.nullary main_call1.c (constantI S_ 32 0#32),
    TRef.unary main_call1.c main_call1.v2 (broadcastInDim S4096x4096 ![] bcast_S_S4096x4096),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S4096x4096 ![] bcast_S_S4096x4096),
    TRef.ternary main_call1.v4 (.of main_v39) main_call1.v5 main_call1.call0.v0 select,
    TRef.nullary main_call1.cst_0 (constant S_ .f32 0x00000000#32),
    TRef.binary main_call1.call0.v0 main_call1.cst_0 main_call1.v7 (fun x v => Host.reduceAdd x v reducesTo_S4096x4096_S_d0_1 h_S_),
    binary main_v63 main_v64 main_v65 (subf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v59 main_cst_16 main_v66 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_17 (constant S_ .f32 0x4B7FF000#32),
    binary main_v62 main_cst_17 main_v67 (Host.divf : (⟨S_, .f32⟩ : BufTy).Contents (Elt F) → (⟨S_, .f32⟩ : BufTy).Contents (Elt F) → (⟨S_, .f32⟩ : BufTy).Contents (Elt F)),
    nullary main_cst_18 (constant S_ .f32 0x4B7FF000#32),
    binary main_v65 main_cst_18 main_v68 (Host.divf : (⟨S_, .f32⟩ : BufTy).Contents (Elt F) → (⟨S_, .f32⟩ : BufTy).Contents (Elt F) → (⟨S_, .f32⟩ : BufTy).Contents (Elt F)),
    binary main_v67 main_v68 main_v69 (addf : (⟨S_, .f32⟩ : BufTy).Contents (Elt F) → (⟨S_, .f32⟩ : BufTy).Contents (Elt F) → (⟨S_, .f32⟩ : BufTy).Contents (Elt F)),
    nullary main_cst_19 (constant S_ .f32 0x40000000#32),
    binary main_cst_19 main_v66 main_v70 (mulf : (⟨S_, .f32⟩ : BufTy).Contents (Elt F) → (⟨S_, .f32⟩ : BufTy).Contents (Elt F) → (⟨S_, .f32⟩ : BufTy).Contents (Elt F)),
    nullary main_cst_20 (constant S_ .f32 0x4B800000#32),
    binary main_v70 main_cst_20 main_v71 (Host.divf : (⟨S_, .f32⟩ : BufTy).Contents (Elt F) → (⟨S_, .f32⟩ : BufTy).Contents (Elt F) → (⟨S_, .f32⟩ : BufTy).Contents (Elt F)),
    binary main_v69 main_v71 main_v72 (subf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is that straight line: the two windows, the called functions' bodies unfolded at their calls, sequencing
    reassociated. -/
theorem main_eq (c : Dev nD) : main (F := F) c = seq ops := by
  simp only [main, main_part0, main_part1, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    unary_bufs_sub .., binary_bufs_sub .., nullary_bufs_sub .., binary_bufs_sub .., unary_bufs_sub .., binary_bufs_sub ..,
    nullary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., nullary_bufs_sub .., binary_bufs_sub .., unary_bufs_sub ..,
    binary_bufs_sub .., nullary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., nullary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., nullary_bufs_sub .., unary_bufs_sub .., ternary_bufs_sub .., nullary_bufs_sub .., binary_bufs_sub ..,
    binary_bufs_sub .., nullary_bufs_sub .., binary_bufs_sub .., nullary_bufs_sub .., binary_bufs_sub .., nullary_bufs_sub ..,
    binary_bufs_sub .., binary_bufs_sub .., nullary_bufs_sub .., binary_bufs_sub .., nullary_bufs_sub .., binary_bufs_sub ..,
    binary_bufs_sub ..⟩

/-- On every device, from any memory with zero counters: every weakly fair execution of the program terminates with each
    buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RVDefs.lean ====
/-
  The reference estimator as one composed function of the two samples, at the exact (extended-real) instance.

  Each definition composes the host operations in the order the reference program applies them:
  * `gramOf a b`: the [4096, 4096] array of Gaussian kernel values of the rows of a against the rows of b — squared
    row norms of a down the rows, squared row norms of b along the columns, minus 2 times the product of a with the
    transpose of b, cut at 0 from below, negated, divided by 2, exponentiated;
  * `totalOf K`: the sum of all entries of K from the zero word;
  * `traceOf K`: the sum of the diagonal of K — K kept where the row number equals the column number, the zero word
    elsewhere, then summed;
  * `tailOf`: the estimator from the three sums and the two diagonal sums;
  * `refTerm x y`: the whole estimator.
-/
import proofs.«148633_j32633161515875_1_alg».proof.ReferenceIdeal
import proofs.«148633_j32633161515875_1_alg».proof.Proof.Gen.ReferenceIdeal
import Idealize.ShloMosaic.Lib.ValueIdx

noncomputable section

open scoped BigOperators

namespace Cert.ReferenceIdeal.RefVal

open Idealize.ShloMosaic Idealize.ShloMosaic.ValueIdx Cert.ReferenceIdeal Cert.ReferenceIdeal.Facts₀

/-- The kernel values of the rows of `a` against the rows of `b`. -/
def gramOf (a b : FVec Ideal S4096x1024 .f32) : FVec Ideal S4096x4096 .f32 :=
  Host.exp
    (Host.divf
      (Host.negf
        (maximumf
          (subf
            (addf
              (broadcastInDim S4096x4096 ![0, 1] bcast_S4096x1_S4096x4096_0_1
                (broadcastInDim S4096x1 ![0] bcast_S4096_S4096x1_0
                  ((fun x v => Host.reduceAdd x v reducesTo_S4096x1024_S4096_d1 h_S_) (mulf a a)
                    (constant (F := Ideal) S_ .f32 0x00000000#32))))
              (broadcastInDim S4096x4096 ![0, 1] bcast_S1x4096_S4096x4096_0_1
                (broadcastInDim S1x4096 ![1] bcast_S4096_S1x4096_1
                  ((fun x v => Host.reduceAdd x v reducesTo_S4096x1024_S4096_d1 h_S_) (mulf b b)
                    (constant (F := Ideal) S_ .f32 0x00000000#32)))))
            (mulf
              (broadcastInDim S4096x4096 ![] bcast_S_S4096x4096 (constant (F := Ideal) S_ .f32 0x40000000#32))
              ((fun l r => Host.dotGeneral dot_S4096x1024_S1024x4096_S4096x4096_1_0_0_1_n_n none l r) a
                ((transpose S1024x4096 [1, 0] · transposes_S4096x1024_S1024x4096_1_0) b))))
          (broadcastInDim S4096x4096 ![] bcast_S_S4096x4096 (constant (F := Ideal) S_ .f32 0x00000000#32))))
      (broadcastInDim S4096x4096 ![] bcast_S_S4096x4096 (constant (F := Ideal) S_ .f32 0x40000000#32)))

/-- The sum of all entries, from the zero word. -/
def totalOf (K : FVec Ideal S4096x4096 .f32) : FVec Ideal S_ .f32 :=
  (fun x v => Host.reduceAdd x v reducesTo_S4096x4096_S_d0_1 h_S_) K (constant (F := Ideal) S_ .f32 0x00000000#32)

/-- The sum of the diagonal: the entries whose row number (plus the zero word) equals their column number are kept,
    the others replaced by the zero word, and all are summed from the zero word. -/
def traceOf (K : FVec Ideal S4096x4096 .f32) : FVec Ideal S_ .f32 :=
  (fun x v => Host.reduceAdd x v reducesTo_S4096x4096_S_d0_1 h_S_)
    (select
      (cmpi .eq
        (addi (iotaInDim S4096x4096 32 0) (broadcastInDim S4096x4096 ![] bcast_S_S4096x4096 (constantI S_ 32 0#32)))
        (iotaInDim S4096x4096 32 1))
      K
      (broadcastInDim S4096x4096 ![] bcast_S_S4096x4096 (constant (F := Ideal) S_ .f32 0x00000000#32)))
    (constant (F := Ideal) S_ .f32 0x00000000#32)

/-- The estimator from the sums: ((sxx − txx) / d₁ + (syy − tyy) / d₁) − (2 · sxy) / d₂. -/
def tailOf (sxx txx syy tyy sxy : FVec Ideal S_ .f32) : FVec Ideal S_ .f32 :=
  subf
    (addf (Host.divf (subf sxx txx) (constant (F := Ideal) S_ .f32 0x4B7FF000#32))
      (Host.divf (subf syy tyy) (constant (F := Ideal) S_ .f32 0x4B7FF000#32)))
    (Host.divf (mulf (constant (F := Ideal) S_ .f32 0x40000000#32) sxy) (constant (F := Ideal) S_ .f32 0x4B800000#32))

/-- The reference estimator of the two samples. -/
def refTerm (x y : FVec Ideal S4096x1024 .f32) : FVec Ideal S_ .f32 :=
  tailOf (totalOf (gramOf x x)) (traceOf (gramOf x x)) (totalOf (gramOf y y)) (traceOf (gramOf y y)) (totalOf (gramOf x y))

end Cert.ReferenceIdeal.RefVal

end
-- ==== Proof.RefRun.lean ====
/-
  The reference program's result as one term of its two arguments.

  The fold of the 115 operations, read at the result buffer, is the operations' composed term: the three kernel matrices
  (of the first sample with itself, of the second with itself, of the first with the second), the sum of each over both
  axes, the diagonal sums of the first two, and the scalar estimator of the five sums. A value written by an operation of
  a called function and read by the next is read as written (the typed references' transports cancel), and at the literal
  buffers a transport is the identity, so the fold is that term by computation. The two argument buffers are written by no
  operation.
-/
import proofs.«148633_j32633161515875_1_alg».proof.Proof.RefOps
import proofs.«148633_j32633161515875_1_alg».proof.Proof.RVDefs

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

set_option maxRecDepth 65536 in
set_option maxHeartbeats 4000000 in
/-- After the operations the result buffer holds the estimator's term of the two arguments' contents: each operation's
    result read at its own buffer is its function of its operands' contents, at any other buffer what was there; the
    transports between a called function's typed values and their buffers cancel in pairs. -/
theorem v72_eq (V : Valuation τ sig (Elt Ideal)) :
    after (ops (F := Ideal)) V (main_v72 : DevRef τ sig)
      = RefVal.refTerm (V (main_arg0 : DevRef τ sig)) (V (main_arg1 : DevRef τ sig)) := by
  after_results_simp
  simp only [Cert.TypedRefs.ofBuf_toBuf]
  rfl

set_option maxRecDepth 65536 in
set_option maxHeartbeats 4000000 in
/-- No operation writes the first argument. -/
theorem arg0_eq (V : Valuation τ sig (Elt Ideal)) :
    after (ops (F := Ideal)) V (main_arg0 : DevRef τ sig) = V (main_arg0 : DevRef τ sig) := by
  after_results_simp

set_option maxRecDepth 65536 in
set_option maxHeartbeats 4000000 in
/-- No operation writes the second argument. -/
theorem arg1_eq (V : Valuation τ sig (Elt Ideal)) :
    after (ops (F := Ideal)) V (main_arg1 : DevRef τ sig) = V (main_arg1 : DevRef τ sig) := by
  after_results_simp

/-- On every device, from any memory with zero counters: every weakly fair execution of the program terminates with the
    result buffer at the estimator's term of the arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72)
          = RefVal.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v72).trans (v72_eq (launchContents m c)),
      (h c main_arg0).trans (arg0_eq (launchContents m c)),
      (h c main_arg1).trans (arg1_eq (launchContents m c))⟩)
    (run_after m ρ)

end Cert.ReferenceIdeal.Hand

end
-- ==== Proof.RVGram.lean ====
/-
  One kernel value of the reference, read at an index of the exact (extended-real) instance.

  The reference's [4096, 4096] array is, at (i, j), the exponential of minus the squared distance of row i of the first
  sample and row j of the second, divided by 2 — the squared distance being the two squared row norms minus 2 times
  the inner product, cut at 0 from below. The row norms reach (i, j) through two repetitions each (a vector to a
  column or a row, then to the square array), the inner product through the product with the transposed sample.
-/
import proofs.«148633_j32633161515875_1_alg».proof.Proof.RVDefs
import proofs.«148633_j32633161515875_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StackMember

noncomputable section

open scoped BigOperators

namespace Cert.ReferenceIdeal.RefVal

open Idealize.ShloMosaic Idealize.ShloMosaic.ValueIdx Cert.ReferenceIdeal Cert.ReferenceIdeal.Facts₀

/-- The host's sum of a [4096, 1024] array along its rows from the zero word: at i the sum over k of the entry (i, k). -/
theorem hostRowSum_apply (x : FVec Ideal S4096x1024 .f32) (h : S4096x1024.ReducesTo [1] S4096) (hu : 0 < S_.numel) (i : Fin 4096) :
    Host.reduceAdd x (constant (F := Ideal) S_ .f32 0x00000000#32) h hu (ix1 i) = ∑ k : Fin 1024, x (ix2 i k) := by
  have hR : S4096x1024.Reduces [1] S4096 := by decide
  refine (Ideal.hostReduceAdd_single h hR x _ (ix1 i)).trans ?_
  refine (congrArg₂ (· + ·) Ideal.ofBits_zero_f32 (Finset.sum_congr rfl fun k _ => congrArg x (funext fun c => Fin.ext ?_))).trans
    (zero_add _)
  rw [hR.lift_val]
  match c with
  | ⟨0, _⟩ => rfl
  | ⟨1, _⟩ => rfl

/-- A [4096] vector repeated as a column and then along the rows of the square array reads, at (i, j), the vector at i. -/
theorem colRep_apply {α : Type} (v : S4096.Idx → α) (h1 : S4096.BroadcastsInDim S4096x1 (![0] : Fin 1 → Fin S4096x1.rank))
    (h2 : S4096x1.BroadcastsInDim S4096x4096 (![0, 1] : Fin 2 → Fin S4096x4096.rank)) (i j : Fin 4096) :
    broadcastInDim S4096x4096 ![0, 1] h2 (broadcastInDim S4096x1 ![0] h1 v) (ix2 i j) = v (ix1 i) := by
  refine (broadcastInDim_apply _ h2 _ (ix2 i j) (ix2 i (0 : Fin 1)) fun a => ?_).trans
    (broadcastInDim_apply _ h1 v (ix2 i (0 : Fin 1)) (ix1 i) fun a => ?_)
  · match a with
    | ⟨0, _⟩ => rfl
    | ⟨1, _⟩ => rfl
  · match a with
    | ⟨0, _⟩ => rfl

/-- A [4096] vector repeated as a row and then down the rows of the square array reads, at (i, j), the vector at j. -/
theorem rowRep_apply {α : Type} (v : S4096.Idx → α) (h1 : S4096.BroadcastsInDim S1x4096 (![1] : Fin 1 → Fin S1x4096.rank))
    (h2 : S1x4096.BroadcastsInDim S4096x4096 (![0, 1] : Fin 2 → Fin S4096x4096.rank)) (i j : Fin 4096) :
    broadcastInDim S4096x4096 ![0, 1] h2 (broadcastInDim S1x4096 ![1] h1 v) (ix2 i j) = v (ix1 j) := by
  refine (broadcastInDim_apply _ h2 _ (ix2 i j) (ix2 (0 : Fin 1) j) fun a => ?_).trans
    (broadcastInDim_apply _ h1 v (ix2 (0 : Fin 1) j) (ix1 j) fun a => ?_)
  · match a with
    | ⟨0, _⟩ => rfl
    | ⟨1, _⟩ => rfl
  · match a with
    | ⟨0, _⟩ => rfl

/-- The product of the first sample with the transpose of the second, at (i, j): the inner product of row i of the
    first and row j of the second. -/
theorem hostGram_apply (a b : FVec Ideal S4096x1024 .f32) (ht : S4096x1024.Transposes [1, 0] S1024x4096) (i j : Fin 4096) :
    Host.dotGeneral dot_S4096x1024_S1024x4096_S4096x4096_1_0_0_1_n_n none a (transpose S1024x4096 [1, 0] b ht) (ix2 i j)
      = ∑ k : Fin 1024, a (ix2 i k) * b (ix2 j k) :=
  (Idealize.ShloMosaic.StackMember.dotGeneral_plain_apply (m := 4096) (n := 4096) (k := 1024) none a
      (transpose S1024x4096 [1, 0] b ht) i j).trans
    (Finset.sum_congr rfl fun k _ => congrArg (a (ix2 i k) * ·) (transpose_ix2_apply b ht k j))

/-- The reference's kernel value at (i, j). -/
theorem gramOf_apply (a b : FVec Ideal S4096x1024 .f32) (i j : Fin 4096) :
    gramOf a b (ix2 i j) = Cert.Mmd.refK a b i j := by
  unfold gramOf Cert.Mmd.refK Cert.Mmd.sqDist Cert.Mmd.rowSq Cert.Mmd.rowDot
  show Ideal.exp (Ideal.div (-(max (_ + _ - _ * _) _)) _) = _
  refine congrArg Ideal.exp (congrArg₂ Ideal.div (congrArg Neg.neg (congrArg₂ max (congrArg₂ (· - ·) (congrArg₂ (· + ·) ?_ ?_)
    (congrArg₂ (· * ·) ?_ ?_)) ?_)) ?_)
  · exact (colRep_apply _ _ _ i j).trans (hostRowSum_apply (mulf a a) _ _ i)
  · exact (rowRep_apply _ _ _ i j).trans (hostRowSum_apply (mulf b b) _ _ j)
  · exact broadcastInDim_scalar_apply _ _ _
  · exact hostGram_apply a b _ i j
  · exact broadcastInDim_scalar_apply _ _ _
  · exact broadcastInDim_scalar_apply _ _ _

end Cert.ReferenceIdeal.RefVal

end
-- ==== Proof.RVSums.lean ====
/-
  The two sums the reference takes of a [4096, 4096] array, at the exact (extended-real) instance.

  The sum over both axes from the zero word is the plain double sum of the entries. The diagonal sum first replaces
  every entry whose row number differs from its column number by the zero word: the row and column numbers are
  compared as 32-bit words, and two numbers below 4096 have equal words exactly when they are equal; the sum of
  the masked array is then the sum of the diagonal entries.
-/
import proofs.«148633_j32633161515875_1_alg».proof.Proof.RVDefs
import proofs.«148633_j32633161515875_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefVal

open Idealize.ShloMosaic Idealize.ShloMosaic.ValueIdx Cert.ReferenceIdeal Cert.ReferenceIdeal.Facts₀

/-- The sum of all entries from the zero word: the double sum over rows and columns. -/
theorem totalOf_apply (K : FVec Ideal S4096x4096 .f32) : totalOf K ix0 = ∑ i : Fin 4096, ∑ j : Fin 4096, K (ix2 i j) := by
  unfold totalOf
  refine (Ideal.hostReduceAdd_total reducesTo_S4096x4096_S_d0_1 (fun b => b.elim0) K _ ix0).trans ?_
  exact (congrArg₂ (· + ·) Ideal.ofBits_zero_f32 (sum_idx2 K)).trans (zero_add _)

/-- Two numbers below 4096 (the first with the zero word added) have equal 32-bit words exactly when they are equal. -/
theorem diag_word (i j : Fin 4096) : IntOp.addi (BitVec.ofNat 32 i.val) 0#32 = BitVec.ofNat 32 j.val ↔ i = j := by
  constructor
  · intro h
    have h' := congrArg BitVec.toNat h
    simp only [IntOp.addi, BitVec.add_zero, BitVec.toNat_ofNat] at h'
    apply Fin.ext
    have hi := i.isLt
    have hj := j.isLt
    omega
  · rintro rfl
    simp only [IntOp.addi, BitVec.add_zero]

/-- The masked array at (i, j): the entry on the diagonal, 0 off it. -/
theorem diagSel_apply (K : FVec Ideal S4096x4096 .f32) (hb : S_.BroadcastsInDim S4096x4096 (![] : Fin 0 → Fin S4096x4096.rank))
    (i j : Fin 4096) :
    select
        (cmpi .eq (addi (iotaInDim S4096x4096 32 0) (broadcastInDim S4096x4096 ![] hb (constantI S_ 32 0#32)))
          (iotaInDim S4096x4096 32 1))
        K (broadcastInDim S4096x4096 ![] hb (constant (F := Ideal) S_ .f32 0x00000000#32)) (ix2 i j)
      = if i = j then K (ix2 i j) else 0 := by
  have hz : broadcastInDim S4096x4096 ![] hb (constantI S_ 32 0#32) (ix2 i j) = 0#32 := broadcastInDim_scalar_apply hb _ _
  have hf : broadcastInDim S4096x4096 ![] hb (constant (F := Ideal) S_ .f32 0x00000000#32) (ix2 i j) = 0 :=
    (broadcastInDim_scalar_apply hb _ _).trans Ideal.ofBits_zero_f32
  show Scalar.select
      (IntOp.cmpi .eq (IntOp.addi (BitVec.ofNat 32 i.val) (broadcastInDim S4096x4096 ![] hb (constantI S_ 32 0#32) (ix2 i j)))
        (BitVec.ofNat 32 j.val))
      (K (ix2 i j)) (broadcastInDim S4096x4096 ![] hb (constant (F := Ideal) S_ .f32 0x00000000#32) (ix2 i j)) = _
  rw [hz, hf]
  unfold Scalar.select
  by_cases h : i = j
  · rw [if_pos h]
    exact if_pos (IntOp.cmpi_eq.mpr ((diag_word i j).mpr h))
  · rw [if_neg h]
    exact if_neg fun hc => h ((diag_word i j).mp (IntOp.cmpi_eq.mp hc))

/-- The diagonal sum: the sum over i of the entry (i, i). -/
theorem traceOf_apply (K : FVec Ideal S4096x4096 .f32) : traceOf K ix0 = ∑ i : Fin 4096, K (ix2 i i) := by
  unfold traceOf
  refine (Ideal.hostReduceAdd_total reducesTo_S4096x4096_S_d0_1 (fun b => b.elim0) _ _ ix0).trans ?_
  refine (congrArg₂ (· + ·) Ideal.ofBits_zero_f32 ((sum_idx2 _).trans (Finset.sum_congr rfl fun i _ => ?_))).trans (zero_add _)
  refine (Finset.sum_congr rfl fun j _ => diagSel_apply K _ i j).trans ?_
  exact (Finset.sum_ite_eq Finset.univ i fun j => K (ix2 i j)).trans (if_pos (Finset.mem_univ i))

end Cert.ReferenceIdeal.RefVal

end
-- ==== Proof.RV.lean ====
/-
  The reference estimator is the closed formula: the composed host operations, read entry by entry, are the sums of
  kernel values and the final arithmetic of the specification.
-/
import proofs.«148633_j32633161515875_1_alg».proof.Proof.RVDefs
import proofs.«148633_j32633161515875_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«148633_j32633161515875_1_alg».proof.Proof.RVGram
import proofs.«148633_j32633161515875_1_alg».proof.Proof.RVSums

noncomputable section

open scoped BigOperators

namespace Cert.ReferenceIdeal.RefVal

open Idealize.ShloMosaic Idealize.ShloMosaic.ValueIdx Cert.ReferenceIdeal Cert.ReferenceIdeal.Facts₀

/-- The final arithmetic on the five sums is the specification's, with the literal words unchanged. -/
theorem tailOf_apply (sxx txx syy tyy sxy : FVec Ideal S_ .f32) :
    tailOf sxx txx syy tyy sxy ix0 = Cert.Mmd.tail (sxx ix0) (txx ix0) (syy ix0) (tyy ix0) (sxy ix0) := rfl

/-- The sum of all kernel values of a pair of samples. -/
theorem total_gramOf (a b : FVec Ideal S4096x1024 .f32) : totalOf (gramOf a b) ix0 = Cert.Mmd.refSum a b :=
  (totalOf_apply _).trans (Finset.sum_congr rfl fun i _ => Finset.sum_congr rfl fun j _ => gramOf_apply a b i j)

/-- The sum of the diagonal kernel values of a sample against itself. -/
theorem trace_gramOf (a : FVec Ideal S4096x1024 .f32) : traceOf (gramOf a a) ix0 = Cert.Mmd.refTrace a :=
  (traceOf_apply _).trans (Finset.sum_congr rfl fun i _ => gramOf_apply a a i i)

/-- The reference's value is the specification's estimator with the diagonal terms summed. -/
theorem refTerm_eq (x y : FVec Ideal S4096x1024 .f32) : refTerm x y = fun _ => Cert.Mmd.refVal x y := by
  funext i
  rw [eq_ix0 i]
  unfold refTerm Cert.Mmd.refVal
  rw [tailOf_apply, total_gramOf, total_gramOf, total_gramOf, trace_gramOf, trace_gramOf]

end Cert.ReferenceIdeal.RefVal

end
-- ==== Proof.Ref.lean ====
/-
  The reference program computes the estimator with the diagonal terms summed.

  Every weakly fair execution of the reference program terminates; the result buffer then holds, at its one index, the
  squared maximum mean discrepancy of the two samples in the spelling that sums the diagonal of each kernel matrix
  (`Cert.Mmd.refVal`), and the two argument buffers hold what they held at launch. The run gives the result as the
  operations' composed term of the arguments; that term is the closed formula.
-/
import proofs.«148633_j32633161515875_1_alg».proof.Proof.RefRun
import proofs.«148633_j32633161515875_1_alg».proof.Proof.RV

noncomputable section

namespace Cert.ReferenceIdeal.Hand

open Idealize.ShloMosaic Idealize.ShloMosaic.TcCoe Idealize.SL.Sem Cert.ReferenceIdeal

variable [Cert.ReferenceIdeal.Facts]

/-- On every device, from any memory with zero counters: every weakly fair execution of the reference program terminates
    with the result buffer at the estimator of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = (fun _ => Cert.Mmd.refVal (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (RefVal.refTerm_eq _ _), (h c).2.1, (h c).2.2⟩) (run_term m ρ)

end Cert.ReferenceIdeal.Hand

end
-- ==== Proof.Alg.lean ====
/-
  The two estimators of Spec.lean agree on samples with real entries.

  Two facts. (1) On every extended real s, s · (−1/2) = (−s) / 2 — the quotient by the real 2 is the product with 1/2,
  and a sign moves freely through a product — so the two spellings of the kernel value are one function and the three
  full sums agree with no hypothesis. (2) When the entries of a sample are real, a row's squared norm is a real number r,
  the squared distance of a row from itself is max (r + r − 2·r) 0 = 0, its kernel value exp 0 = 1, and the diagonal sum
  is 4096 · 1, the number the other program subtracts outright. Fact (2) is where finiteness is used: r + r − 2·r is
  not 0 at an infinite r.
-/
import proofs.«148633_j32633161515875_1_alg».proof.Proof.Spec

noncomputable section

namespace Cert.Mmd

open Idealize.ShloMosaic Idealize.ShloMosaic.ValueIdx

/-! ### The literal words as numbers -/

theorem w2_eq : w2 = ((2 : ℝ) : EReal) := by
  unfold w2; simp [Ideal.ofBits, Ideal.ieee, -EReal.coe_mul]; norm_num

theorem wNegHalf_eq : wNegHalf = ((-(1 / 2) : ℝ) : EReal) := by
  unfold wNegHalf; simp [Ideal.ofBits, Ideal.ieee, -EReal.coe_mul]; norm_num

theorem w0_eq : w0 = 0 := by
  unfold w0; simp [Ideal.ofBits, Ideal.ieee]

theorem wN_eq : wN = ((4096 : ℝ) : EReal) := by
  unfold wN; simp [Ideal.ofBits, Ideal.ieee, -EReal.coe_mul]; norm_num

/-! ### The two spellings of the kernel value -/

/-- Half the negative is the negative half, on all extended reals. -/
theorem mul_negHalf (s : EReal) : s * wNegHalf = Ideal.div (-s) w2 := by
  rw [wNegHalf_eq, w2_eq, Ideal.div_coe (by norm_num : (2 : ℝ) ≠ 0), EReal.coe_neg, mul_neg, neg_mul]

theorem kerK_eq_refK (a b : Mat) (i j : Fin 4096) : kerK a b i j = refK a b i j := by
  unfold kerK refK; rw [mul_negHalf]

theorem kerSum_eq_refSum (a b : Mat) : kerSum a b = refSum a b := by
  unfold kerSum refSum; simp only [kerK_eq_refK]

/-! ### The diagonal at real entries -/

/-- The coercion of the reals into the extended reals commutes with finite sums. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert _ _ h ih => rw [Finset.sum_insert h, Finset.sum_insert h, EReal.coe_add, ih]

/-- A row's squared norm is a real number when the entries are. -/
theorem rowSq_real (a : Mat) (ha : ∀ idx, ∃ r : ℝ, a idx = (r : EReal)) (i : Fin 4096) :
    ∃ r : ℝ, rowSq a i = (r : EReal) := by
  choose f hf using ha
  refine ⟨∑ k : Fin 1024, f (ix2 i k) * f (ix2 i k), ?_⟩
  unfold rowSq
  rw [coe_finset_sum]
  refine Finset.sum_congr rfl fun k _ => ?_
  rw [hf, EReal.coe_mul]

/-- A row is at distance zero from itself, so its kernel value is one. -/
theorem refK_diag (a : Mat) (ha : ∀ idx, ∃ r : ℝ, a idx = (r : EReal)) (i : Fin 4096) : refK a a i i = 1 := by
  obtain ⟨r, hr⟩ := rowSq_real a ha i
  have hd : rowDot a a i i = (r : EReal) := hr
  have hs : sqDist a a i i = 0 := by
    unfold sqDist
    rw [hd, hr, w2_eq, w0_eq, ← EReal.coe_add, ← EReal.coe_mul, ← EReal.coe_sub]
    have : r + r - 2 * r = 0 := by ring
    rw [this, EReal.coe_zero, max_self]
  unfold refK
  rw [hs, neg_zero, w2_eq, Ideal.div_coe (by norm_num : (2 : ℝ) ≠ 0), zero_mul]
  show Ideal.exp ((0 : ℝ) : EReal) = 1
  show ((Real.exp 0 : ℝ) : EReal) = 1
  rw [Real.exp_zero, EReal.coe_one]

/-- The diagonal sum is the number of points. -/
theorem refTrace_eq (a : Mat) (ha : ∀ idx, ∃ r : ℝ, a idx = (r : EReal)) : refTrace a = wN := by
  unfold refTrace
  rw [Finset.sum_congr rfl fun i _ => refK_diag a ha i, wN_eq]
  rw [Finset.sum_const, Finset.card_univ, Fintype.card_fin, ← EReal.coe_one, ← EReal.coe_nsmul]
  norm_num

/-- The two estimators agree on samples with real entries. -/
theorem kerVal_eq_refVal (x y : Mat) (hx : ∀ idx, ∃ r : ℝ, x idx = (r : EReal)) (hy : ∀ idx, ∃ r : ℝ, y idx = (r : EReal)) :
    kerVal x y = refVal x y := by
  unfold kerVal refVal
  rw [kerSum_eq_refSum, kerSum_eq_refSum, kerSum_eq_refSum, refTrace_eq x hx, refTrace_eq y hy]

end Cert.Mmd

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.FinPre.lean ====
/-
  The precondition read back: when the printed finiteness test of the two inputs comes out all ones, every entry of
  both inputs is a real number.

  The test is the conjunction of two reductions by "and" over all entries of |x| < +∞ and |y| < +∞. A conjunction that
  is one has both sides one; a reduction by "and" into a single result that is one met a one at every entry; and an
  extended real whose absolute value lies strictly below +∞ is a real number.
-/
import proofs.«148633_j32633161515875_1_alg».proof.Pre_finite_inputs
import proofs.«148633_j32633161515875_1_alg».proof.Proof.LibRealEntries
import Idealize.ShloMosaic.Lib.ReduceAll
import Idealize.ShloMosaic.Lib.ValueIdx

noncomputable section

namespace Cert.FinPre

open Idealize.ShloMosaic Cert.Pre_finite_inputs

/-- The scalar shape has one index. -/
instance : Subsingleton S_.Idx := ⟨fun _ _ => funext fun d => d.elim0⟩

variable [Cert.Pre_finite_inputs.Facts]

/-- Under the finiteness test both inputs have real entries. -/
theorem real_of_pre (x y : FVec Ideal S4096x1024 .f32)
    (h : Cert.Pre_finite_inputs.fn (F := Ideal) x y = fun _ => 1#1) :
    (∀ idx, ∃ r : ℝ, x idx = (r : EReal)) ∧ (∀ idx, ∃ r : ℝ, y idx = (r : EReal)) := by
  have h0 := congrFun h ValueIdx.ix0
  dsimp only [Cert.Pre_finite_inputs.fn] at h0
  obtain ⟨h1, h2⟩ := IntOp.andi_eq_one.1 h0
  refine ⟨fun idx => ?_, fun idx => ?_⟩
  · exact Cert.RealEntries.real_of_abs_lt (x idx) (Host.reduce_andi_all _ _ _ _ _ h1 idx)
  · exact Cert.RealEntries.real_of_abs_lt (y idx) (Host.reduce_andi_all _ _ _ _ _ h2 idx)

end Cert.FinPre

end
-- ==== Proof.lean ====
/-
  The kernel and its reference compute the same squared maximum mean discrepancy, on the extended reals, for inputs with
  finite entries.

  Both programs form, for the three pairs of samples (x, x), (y, y), (x, y) — 4096 points of dimension 1024 each — the sum
  S of the Gaussian kernel values exp(−max(|aᵢ|² + |bⱼ|² − 2⟨aᵢ, bⱼ⟩, 0)/2) over all 4096² pairs of rows, and return
  ((Sxx − Txx)/(4096·4095) + (Syy − Tyy)/(4096·4095)) − 2·Sxy/4096².
  The kernel visits each pair's 4096 × 4096 square in sixteen 1024 × 1024 tiles, adding each tile's sum to a running total
  (Proof/KVal.lean, Proof/Tiles.lean: only commutativity and associativity of addition), reads its rows and columns out
  of one stacked array through two windows whose halves a small table names (Proof/KPairs.lean), multiplies by −1/2 where
  the reference negates and divides by 2 (one function on every extended real, Proof/Alg.lean), and takes the diagonal
  term T to be the number 4096 where the reference sums its kernel matrix's diagonal: with finite entries every row's squared
  norm is a real number r, r + r − 2r = 0, and each diagonal value is exp 0 = 1 (Proof/Alg.lean; this is the one place
  the precondition is used, read back in Proof/FinPre.lean).
  The three frames are the runs with the result dropped: the kernel's run is the pipelined launch over the grid (3, 4, 4)
  with the scratch carried from point to point (Proof/KData.lean, Proof/KBody.lean, Proof/KRun.lean, and the same text at
  the word-level instance), the reference's the straight line of its host operations (Proof/RefOps.lean, Proof/Ref.lean).
  The idealization rewrote nothing, so there is nothing to preserve.
-/
import proofs.«148633_j32633161515875_1_alg».proof.Defs
import proofs.«148633_j32633161515875_1_alg».proof.Proof.Gen.Kernel
import proofs.«148633_j32633161515875_1_alg».proof.Proof.Gen.KernelIdeal
import proofs.«148633_j32633161515875_1_alg».proof.Proof.Gen.ReferenceIdeal
import proofs.«148633_j32633161515875_1_alg».proof.Proof.Gen.Pre_finite_inputs
import proofs.«148633_j32633161515875_1_alg».proof.Proof.KRun
import proofs.«148633_j32633161515875_1_alg».proof.Proof.KBRun
import proofs.«148633_j32633161515875_1_alg».proof.Proof.KOut
import proofs.«148633_j32633161515875_1_alg».proof.Proof.KStack
import proofs.«148633_j32633161515875_1_alg».proof.Proof.KTailVal
import proofs.«148633_j32633161515875_1_alg».proof.Proof.Ref
import proofs.«148633_j32633161515875_1_alg».proof.Proof.Alg
import proofs.«148633_j32633161515875_1_alg».proof.Proof.FinPre
import Idealize.ShloMosaic.Adequacy
import Idealize.ShloMosaic.Init

noncomputable section

namespace Cert.Proof

open Idealize.ShloMosaic Idealize.ShloMosaic.TcCoe Idealize.SL.Sem

/-! ### The three frames: the runs with the result dropped -/

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.Hand.run m ρ)

/-! ### The kernel's result at the exact instance -/

/-- The kernel program's result is the estimator with the diagonal terms 4096, of its two arguments. -/
theorem kernel_value (m : (ℓ : Loc Cert.KernelIdeal.nD Cert.KernelIdeal.τ Cert.KernelIdeal.sig) → Buf (Elt Ideal) ℓ)
    (c : Dev Cert.KernelIdeal.nD) :
    Cert.KernelIdeal.Hand.hostTail (F := Ideal) (Cert.KernelIdeal.Hand.out m c)
      = ((fun _ => Cert.Mmd.kerVal (m ((c.tc : Thread Cert.KernelIdeal.nD Cert.KernelIdeal.τ).loc Cert.KernelIdeal.main_arg0))
          (m ((c.tc : Thread Cert.KernelIdeal.nD Cert.KernelIdeal.τ).loc Cert.KernelIdeal.main_arg1))) : FVec Ideal Cert.KernelIdeal.S_ .f32) :=
  Cert.KernelIdeal.Hand.tail_value c (Cert.KernelIdeal.Hand.V m c) _ _ _
    (fun h r k => Cert.KernelIdeal.Hand.V_v2_apply m c h r k)
    (fun p r q => Cert.KernelIdeal.Hand.arrAt_2 Cert.KernelIdeal.Hand.adm c (Cert.KernelIdeal.Hand.V m c) p r q)

/-! ### The two programs' results agree -/

theorem algebraic : Cert.algebraic_KernelIdeal_ReferenceIdeal := by
  intro m ρ m' ρ' hpre hagree
  refine ⟨fun c _ => Cert.Mmd.kerVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (kernel_value m c), (h c).2⟩) (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Hand.run m' ρ')
    obtain ⟨hx, hy⟩ := Cert.FinPre.real_of_pre _ _ (hpre c)
    rw [(hagree c).1, (hagree c).2]
    exact funext fun _ => (Cert.Mmd.kerVal_eq_refVal _ _ hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
